-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S32000x2048 : Shape := ⟨2, ![32000, 2048]⟩
abbrev S2048x4096 : Shape := ⟨2, ![2048, 4096]⟩
abbrev S32000x4096 : Shape := ⟨2, ![32000, 4096]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S32000x2048 : S_.BroadcastsInDim S32000x2048 (![] : Fin 0 → Fin S32000x2048.rank)
  reducesTo_S32000x2048_S_d0_1 : S32000x2048.ReducesTo [0, 1] S_
  bcast_S_S2048x4096 : S_.BroadcastsInDim S2048x4096 (![] : Fin 0 → Fin S2048x4096.rank)
  reducesTo_S2048x4096_S_d0_1 : S2048x4096.ReducesTo [0, 1] S_
  bcast_S_S32000x4096 : S_.BroadcastsInDim S32000x4096 (![] : Fin 0 → Fin S32000x4096.rank)
  reducesTo_S32000x4096_S_d0_1 : S32000x4096.ReducesTo [0, 1] S_

variable [Facts]

def fn_part1 {F : FTy → Type} [FloatOps F] (main_v13 : IVec S_ 1) (main_v16 : IVec S32000x4096 1) : IVec S_ 1 :=
  let main_c_5 : IVec S_ 1 := constantI S_ 1 1#1
  let main_v17 : IVec S_ 1 := (fun x v => Host.reduce IntOp.andi x v reducesTo_S32000x4096_S_d0_1 h_S_) main_v16 main_c_5
  let main_v18 : IVec S_ 1 := andi main_v13 main_v17
  main_v18

def fn {F : FTy → Type} [FloatOps F] (main_arg0 : FVec F S2048x2048 .f32) (main_arg1 : FVec F S32000x2048 .f32) (main_arg2 : FVec F S2048x4096 .f32) (main_arg3 : FVec F S32000x4096 .f32) (main_arg4 : IVec S2048 32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S32000x2048 .f32 := Host.absf main_arg1
  let main_cst_0 : FVec F S_ .f32 := constant S_ .f32 0x7F800000#32
  let main_v5 : FVec F S32000x2048 .f32 := broadcastInDim S32000x2048 ![] bcast_S_S32000x2048 main_cst_0
  let main_v6 : IVec S32000x2048 1 := cmpf .olt main_v4 main_v5
  let main_c_1 : IVec S_ 1 := constantI S_ 1 1#1
  let main_v7 : IVec S_ 1 := (fun x v => Host.reduce IntOp.andi x v reducesTo_S32000x2048_S_d0_1 h_S_) main_v6 main_c_1
  let main_v8 : IVec S_ 1 := andi main_v3 main_v7
  let main_v9 : FVec F S2048x4096 .f32 := Host.absf main_arg2
  let main_cst_2 : FVec F S_ .f32 := constant S_ .f32 0x7F800000#32
  let main_v10 : FVec F S2048x4096 .f32 := broadcastInDim S2048x4096 ![] bcast_S_S2048x4096 main_cst_2
  let main_v11 : IVec S2048x4096 1 := cmpf .olt main_v9 main_v10
  let main_c_3 : IVec S_ 1 := constantI S_ 1 1#1
  let main_v12 : IVec S_ 1 := (fun x v => Host.reduce IntOp.andi x v reducesTo_S2048x4096_S_d0_1 h_S_) main_v11 main_c_3
  let main_v13 : IVec S_ 1 := andi main_v8 main_v12
  let main_v14 : FVec F S32000x4096 .f32 := Host.absf main_arg3
  let main_cst_4 : FVec F S_ .f32 := constant S_ .f32 0x7F800000#32
  let main_v15 : FVec F S32000x4096 .f32 := broadcastInDim S32000x4096 ![] bcast_S_S32000x4096 main_cst_4
  let main_v16 : IVec S32000x4096 1 := cmpf .olt main_v14 main_v15
  fn_part1 (F := F) main_v13 main_v16
-- ==== Kernel.lean ====
abbrev S2048x2048 : Shape := ⟨2, ![2048, 2048]⟩
abbrev S32000x2048 : Shape := ⟨2, ![32000, 2048]⟩
abbrev S2048x4096 : Shape := ⟨2, ![2048, 4096]⟩
abbrev S32000x4096 : Shape := ⟨2, ![32000, 4096]⟩
abbrev S2048 : Shape := ⟨1, ![2048]⟩
abbrev S2048x1 : Shape := ⟨2, ![2048, 1]⟩
abbrev S1024x2048 : Shape := ⟨2, ![1024, 2048]⟩
abbrev S256x2048 : Shape := ⟨2, ![256, 2048]⟩
abbrev S1024x4096 : Shape := ⟨2, ![1024, 4096]⟩
abbrev S256x4096 : Shape := ⟨2, ![256, 4096]⟩
abbrev S1024x1 : Shape := ⟨2, ![1024, 1]⟩
abbrev S1024x256 : Shape := ⟨2, ![1024, 256]⟩
abbrev S1024 : Shape := ⟨1, ![1024]⟩
abbrev S_ : Shape := ⟨0, ![]⟩

abbrev nBuf : Space → Nat
  | .hbm => 29
  | .vmem => 31
  | .smem => 0
  | _ => 0

abbrev bufTy : (tb : Table) → Fin (tcTables nBuf tb) → BufTy
  | .hbm, ⟨0, _⟩ => ⟨S2048x2048, .f32⟩
  | .hbm, ⟨1, _⟩ => ⟨S32000x2048, .f32⟩
  | .hbm, ⟨2, _⟩ => ⟨S2048x4096, .f32⟩
  | .hbm, ⟨3, _⟩ => ⟨S32000x4096, .f32⟩
  | .hbm, ⟨4, _⟩ => ⟨S2048, .i32⟩
  | .hbm, ⟨5, _⟩ => ⟨S2048x2048, .bf16⟩
  | .hbm, ⟨6, _⟩ => ⟨S32000x2048, .bf16⟩
  | .hbm, ⟨7, _⟩ => ⟨S2048x4096, .bf16⟩
  | .hbm, ⟨8, _⟩ => ⟨S32000x4096, .bf16⟩
  | .hbm, ⟨9, _⟩ => ⟨S2048x1, .f32⟩
  | .hbm, ⟨10, _⟩ => ⟨S2048x1, .f32⟩
  | .hbm, ⟨11, _⟩ => ⟨S2048x1, .f32⟩
  | .hbm, ⟨12, _⟩ => ⟨S2048, .f32⟩
  | .hbm, ⟨13, _⟩ => ⟨S_, .i32⟩
  | .hbm, ⟨14, _⟩ => ⟨S2048, .i32⟩
  | .hbm, ⟨15, _⟩ => ⟨S2048, .i1⟩
  | .hbm, ⟨16, _⟩ => ⟨S2048, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .f32⟩
  | .hbm, ⟨22, _⟩ => ⟨S_, .f32⟩
  | .hbm, ⟨23, _⟩ => ⟨S2048, .f32⟩
  | .hbm, ⟨24, _⟩ => ⟨S2048, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .local _ .vmem, ⟨0, _⟩ => ⟨S1024x2048, .bf16⟩
  | .local _ .vmem, ⟨1, _⟩ => ⟨S1024x2048, .bf16⟩
  | .local _ .vmem, ⟨2, _⟩ => ⟨S256x2048, .bf16⟩
  | .local _ .vmem, ⟨3, _⟩ => ⟨S256x2048, .bf16⟩
  | .local _ .vmem, ⟨4, _⟩ => ⟨S1024x4096, .bf16⟩
  | .local _ .vmem, ⟨5, _⟩ => ⟨S1024x4096, .bf16⟩
  | .local _ .vmem, ⟨6, _⟩ => ⟨S256x4096, .bf16⟩
  | .local _ .vmem, ⟨7, _⟩ => ⟨S256x4096, .bf16⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | .local _ .vmem, ⟨16, _⟩ => ⟨S1024x2048, .bf16⟩
  | .local _ .vmem, ⟨17, _⟩ => ⟨S1024x2048, .bf16⟩
  | .local _ .vmem, ⟨18, _⟩ => ⟨S256x2048, .bf16⟩
  | .local _ .vmem, ⟨19, _⟩ => ⟨S256x2048, .bf16⟩
  | .local _ .vmem, ⟨20, _⟩ => ⟨S1024x4096, .bf16⟩
  | .local _ .vmem, ⟨21, _⟩ => ⟨S1024x4096, .bf16⟩
  | .local _ .vmem, ⟨22, _⟩ => ⟨S256x4096, .bf16⟩
  | .local _ .vmem, ⟨23, _⟩ => ⟨S256x4096, .bf16⟩
  | .local _ .vmem, ⟨24, _⟩ => ⟨S1024x1, .f32⟩
  | .local _ .vmem, ⟨25, _⟩ => ⟨S1024x1, .f32⟩
  | .local _ .vmem, ⟨26, _⟩ => ⟨S1024x1, .f32⟩
  | .local _ .vmem, ⟨27, _⟩ => ⟨S1024x1, .f32⟩
  | .local _ .vmem, ⟨28, _⟩ => ⟨S1024x1, .f32⟩
  | .local _ .vmem, ⟨29, _⟩ => ⟨S1024x1, .f32⟩
  | .local _ .vmem, ⟨30, _⟩ => ⟨S1024x1, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25

abbrev nD : Nat := 1
abbrev τ : Topo := Topo.v7x

variable {F : FTy → Type} [FloatOps F]

abbrev grid0 : Pipeline.Grid := ⟨2, ![2, 125], ![false, false]⟩

def k0_cond2 (i : grid0.Coords) : BitVec 1 :=
  let arg1 : BitVec 32 := BitVec.ofNat 32 (i 1).val
  let c124_i32 : BitVec 32 := 124#32
  let v55 : BitVec 1 := Scalar.cmpi .eq arg1 c124_i32
  let v56 : BitVec 32 := Scalar.extui v55
  let c0_i32_33 : BitVec 32 := 0#32
  let v57 : BitVec 1 := Scalar.cmpi .ne v56 c0_i32_33
  v57

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![2, 125], ![false, false]⟩

def k1_cond2 (i : grid1.Coords) : BitVec 1 :=
  let arg1 : BitVec 32 := BitVec.ofNat 32 (i 1).val
  let c124_i32 : BitVec 32 := 124#32
  let v47 : BitVec 1 := Scalar.cmpi .eq arg1 c124_i32
  let v48 : BitVec 32 := Scalar.extui v47
  let c0_i32_23 : BitVec 32 := 0#32
  let v49 : BitVec 1 := Scalar.cmpi .ne v48 c0_i32_23
  v49

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x4096 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1024x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1024x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  reduces_S1024x256_S1024 : S1024x256.Reduces [1] S1024
  shapeCasts_S1024_S1024x1 : S1024.ShapeCasts S1024x1
  broadcasts_S1024x1_S1024x256 : S1024x1.Broadcasts S1024x256
  shapeCasts_S2048x1_S2048 : S2048x1.ShapeCasts S2048
  bcast_S_S2048 : S_.BroadcastsInDim S2048 (![] : Fin 0 → Fin S2048.rank)
  natLt_1_32 : 1 < 32
  reducesTo_S2048_S_d0 : S2048.ReducesTo [0] S_
  h_S_ : 0 < S_.numel
  dot_S1024x2048_S256x2048_S1024x256_1_1_0_0_n_n_wf : DotDims.WF S1024x2048 S256x2048 S1024x256 [1] [1] [0] [0] [] []
  dot_S1024x4096_S256x4096_S1024x256_1_1_0_0_n_n_wf : DotDims.WF S1024x4096 S256x4096 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S2048x2048.size a
  hwx0_0 : ∀ i : grid0.Coords, EltTy.bits .bf16 = 32 ∨ (Rect.block (s := S2048x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S32000x2048.size a
  hwx0_1 : ∀ i : grid0.Coords, EltTy.bits .bf16 = 32 ∨ (Rect.block (s := S32000x2048) S256x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x4096.size a ≤ S2048x4096.size a
  hwx0_2 : ∀ i : grid0.Coords, EltTy.bits .bf16 = 32 ∨ (Rect.block (s := S2048x4096) S1024x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S32000x4096.size a
  hwx0_3 : ∀ i : grid0.Coords, EltTy.bits .bf16 = 32 ∨ (Rect.block (s := S32000x4096) S256x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S2048x1.size a
  hwx0_4 : ∀ i : grid0.Coords, EltTy.bits .f32 = 32 ∨ (Rect.block (s := S2048x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S2048x1.size a
  hwx0_5 : ∀ i : grid0.Coords, EltTy.bits .f32 = 32 ∨ (Rect.block (s := S2048x1) S1024x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S2048x2048.size a
  hwx1_0 : ∀ i : grid1.Coords, EltTy.bits .bf16 = 32 ∨ (Rect.block (s := S2048x2048) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x2048.size a ≤ S32000x2048.size a
  hwx1_1 : ∀ i : grid1.Coords, EltTy.bits .bf16 = 32 ∨ (Rect.block (s := S32000x2048) S256x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x4096.size a ≤ S2048x4096.size a
  hwx1_2 : ∀ i : grid1.Coords, EltTy.bits .bf16 = 32 ∨ (Rect.block (s := S2048x4096) S1024x4096.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x4096.size a ≤ S32000x4096.size a
  hwx1_3 : ∀ i : grid1.Coords, EltTy.bits .bf16 = 32 ∨ (Rect.block (s := S32000x4096) S256x4096.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S2048x1.size a
  hwx1_4 : ∀ i : grid1.Coords, EltTy.bits .f32 = 32 ∨ (Rect.block (s := S2048x1) S1024x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1.size a ≤ S2048x1.size a
  hwx1_5 : ∀ i : grid1.Coords, EltTy.bits .f32 = 32 ∨ (Rect.block (s := S2048x1) S1024x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x1.size a ≤ S2048x1.size a
  hwx1_6 : ∀ i : grid1.Coords, EltTy.bits .f32 = 32 ∨ (Rect.block (s := S2048x1) S1024x1.size (cc1_transform_6 i) (hinb1_6 i)).WholeWords (EltTy.packing .f32)

variable [Facts₀]

def dot_S1024x2048_S256x2048_S1024x256_1_1_0_0_n_n : DotDims S1024x2048 S256x2048 S1024x256 where
  lhsContracting := [1]
  rhsContracting := [1]
  lhsNonContracting := [0]
  rhsNonContracting := [0]
  lhsBatch := []
  rhsBatch := []
  wf := dot_S1024x2048_S256x2048_S1024x256_1_1_0_0_n_n_wf
def dot_S1024x4096_S256x4096_S1024x256_1_1_0_0_n_n : DotDims S1024x4096 S256x4096 S1024x256 where
  lhsContracting := [1]
  rhsContracting := [1]
  lhsNonContracting := [0]
  rhsNonContracting := [0]
  lhsBatch := []
  rhsBatch := []
  wf := dot_S1024x4096_S256x4096_S1024x256_1_1_0_0_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v0) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S256x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S256x4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4_0) S1024x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v4_1) S1024x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v5) S1024x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S2048x2048 : Shape := ⟨2, ![2048, 2048]⟩
abbrev S32000x2048 : Shape := ⟨2, ![32000, 2048]⟩
abbrev S2048x4096 : Shape := ⟨2, ![2048, 4096]⟩
abbrev S32000x4096 : Shape := ⟨2, ![32000, 4096]⟩
abbrev S2048 : Shape := ⟨1, ![2048]⟩
abbrev S2048x32000 : Shape := ⟨2, ![2048, 32000]⟩
abbrev S_ : Shape := ⟨0, ![]⟩
abbrev S4096x32000 : Shape := ⟨2, ![4096, 32000]⟩
abbrev S2048x1 : Shape := ⟨2, ![2048, 1]⟩

abbrev nBuf : Space → Nat
  | .hbm => 86
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S32000x2048, .f32⟩
  | .hbm, ⟨2, _⟩ => ⟨S2048x4096, .f32⟩
  | .hbm, ⟨3, _⟩ => ⟨S32000x4096, .f32⟩
  | .hbm, ⟨4, _⟩ => ⟨S2048, .i32⟩
  | .hbm, ⟨5, _⟩ => ⟨S2048x32000, .f32⟩
  | .hbm, ⟨6, _⟩ => ⟨S2048x32000, .f32⟩
  | .hbm, ⟨7, _⟩ => ⟨S_, .f32⟩
  | .hbm, ⟨8, _⟩ => ⟨S2048x32000, .f32⟩
  | .hbm, ⟨9, _⟩ => ⟨S2048x32000, .f32⟩
  | .hbm, ⟨10, _⟩ => ⟨S4096x32000, .f32⟩
  | .hbm, ⟨11, _⟩ => ⟨S2048x32000, .f32⟩
  | .hbm, ⟨12, _⟩ => ⟨S_, .f32⟩
  | .hbm, ⟨13, _⟩ => ⟨S2048x32000, .f32⟩
  | .hbm, ⟨14, _⟩ => ⟨S2048x32000, .f32⟩
  | .hbm, ⟨15, _⟩ => ⟨S_, .f32⟩
  | .hbm, ⟨16, _⟩ => ⟨S2048, .f32⟩
  | .hbm, ⟨17, _⟩ => ⟨S_, .f32⟩
  | .hbm, ⟨18, _⟩ => ⟨S2048, .f32⟩
  | .hbm, ⟨19, _⟩ => ⟨S2048, .f32⟩
  | .hbm, ⟨20, _⟩ => ⟨S2048x1, .f32⟩
  | .hbm, ⟨21, _⟩ => ⟨S2048x32000, .f32⟩
  | .hbm, ⟨22, _⟩ => ⟨S2048x32000, .f32⟩
  | .hbm, ⟨23, _⟩ => ⟨S2048x32000, .f32⟩
  | .hbm, ⟨24, _⟩ => ⟨S_, .f32⟩
  | .hbm, ⟨25, _⟩ => ⟨S2048, .f32⟩
  | .hbm, ⟨26, _⟩ => ⟨S2048x1, .f32⟩
  | .hbm, ⟨27, _⟩ => ⟨S2048x1, .f32⟩
  | .hbm, ⟨28, _⟩ => ⟨S2048x32000, .f32⟩
  | .hbm, ⟨29, _⟩ => ⟨S2048x32000, .f32⟩
  | .hbm, ⟨30, _⟩ => ⟨S_, .f32⟩
  | .hbm, ⟨31, _⟩ => ⟨S2048, .f32⟩
  | .hbm, ⟨32, _⟩ => ⟨S_, .f32⟩
  | .hbm, ⟨33, _⟩ => ⟨S2048, .f32⟩
  | .hbm, ⟨34, _⟩ => ⟨S2048, .f32⟩
  | .hbm, ⟨35, _⟩ => ⟨S2048x1, .f32⟩
  | .hbm, ⟨36, _⟩ => ⟨S2048x32000, .f32⟩
  | .hbm, ⟨37, _⟩ => ⟨S2048x32000, .f32⟩
  | .hbm, ⟨38, _⟩ => ⟨S2048x32000, .f32⟩
  | .hbm, ⟨39, _⟩ => ⟨S_, .f32⟩
  | .hbm, ⟨40, _⟩ => ⟨S2048, .f32⟩
  | .hbm, ⟨41, _⟩ => ⟨S2048x1, .f32⟩
  | .hbm, ⟨42, _⟩ => ⟨S2048x1, .f32⟩
  | .hbm, ⟨43, _⟩ => ⟨S2048x32000, .f32⟩
  | .hbm, ⟨44, _⟩ => ⟨S2048x32000, .f32⟩
  | .hbm, ⟨45, _⟩ => ⟨S2048x32000, .f32⟩
  | .hbm, ⟨46, _⟩ => ⟨S2048x32000, .f32⟩
  | .hbm, ⟨47, _⟩ => ⟨S_, .f32⟩
  | .hbm, ⟨48, _⟩ => ⟨S2048x32000, .f32⟩
  | .hbm, ⟨49, _⟩ => ⟨S2048x32000, .f32⟩
  | .hbm, ⟨50, _⟩ => ⟨S_, .f32⟩
  | .hbm, ⟨51, _⟩ => ⟨S2048x32000, .f32⟩
  | .hbm, ⟨52, _⟩ => ⟨S2048x32000, .f32⟩
  | .hbm, ⟨53, _⟩ => ⟨S2048x32000, .f32⟩
  | .hbm, ⟨54, _⟩ => ⟨S2048x32000, .f32⟩
  | .hbm, ⟨55, _⟩ => ⟨S2048x32000, .f32⟩
  | .hbm, ⟨56, _⟩ => ⟨S2048x32000, .f32⟩
  | .hbm, ⟨57, _⟩ => ⟨S_, .f32⟩
  | .hbm, ⟨58, _⟩ => ⟨S2048, .f32⟩
  | .hbm, ⟨59, _⟩ => ⟨S_, .f32⟩
  | .hbm, ⟨60, _⟩ => ⟨S2048, .f32⟩
  | .hbm, ⟨61, _⟩ => ⟨S2048, .f32⟩
  | .hbm, ⟨62, _⟩ => ⟨S2048x32000, .f32⟩
  | .hbm, ⟨63, _⟩ => ⟨S2048x32000, .f32⟩
  | .hbm, ⟨64, _⟩ => ⟨S_, .f32⟩
  | .hbm, ⟨65, _⟩ => ⟨S2048, .f32⟩
  | .hbm, ⟨66, _⟩ => ⟨S_, .f32⟩
  | .hbm, ⟨67, _⟩ => ⟨S2048, .f32⟩
  | .hbm, ⟨68, _⟩ => ⟨S2048, .f32⟩
  | .hbm, ⟨69, _⟩ => ⟨S2048, .f32⟩
  | .hbm, ⟨70, _⟩ => ⟨S_, .i32⟩
  | .hbm, ⟨71, _⟩ => ⟨S2048, .i32⟩
  | .hbm, ⟨72, _⟩ => ⟨S2048, .i1⟩
  | .hbm, ⟨73, _⟩ => ⟨S2048, .i32⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S_, .f32⟩
  | .hbm, ⟨79, _⟩ => ⟨S_, .f32⟩
  | .hbm, ⟨80, _⟩ => ⟨S2048, .f32⟩
  | .hbm, ⟨81, _⟩ => ⟨S2048, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_call0_cst : Ref sig .tc := ⟨.hbm, 15, rfl⟩
abbrev main_call0_v0 : Ref sig .tc := ⟨.hbm, 16, rfl⟩
abbrev main_call0_cst_0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_cst_1 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_v8 : Ref sig .tc := ⟨.hbm, 29, rfl⟩
abbrev main_call1_cst : Ref sig .tc := ⟨.hbm, 30, rfl⟩
abbrev main_call1_v0 : Ref sig .tc := ⟨.hbm, 31, rfl⟩
abbrev main_call1_cst_0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_cst_1 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_cst_1 : Ref sig .tc := ⟨.hbm, 47, rfl⟩
abbrev main_v12 : Ref sig .tc := ⟨.hbm, 48, rfl⟩
abbrev main_v13 : Ref sig .tc := ⟨.hbm, 49, rfl⟩
abbrev main_cst_2 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_cst_3 : Ref sig .tc := ⟨.hbm, 57, rfl⟩
abbrev main_v20 : Ref sig .tc := ⟨.hbm, 58, rfl⟩
abbrev main_cst_4 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_cst_5 : Ref sig .tc := ⟨.hbm, 64, rfl⟩
abbrev main_v25 : Ref sig .tc := ⟨.hbm, 65, rfl⟩
abbrev main_cst_6 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_c : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_c_7 : Ref sig .tc := ⟨.hbm, 74, rfl⟩
abbrev main_v32 : Ref sig .tc := ⟨.hbm, 75, rfl⟩
abbrev main_c_8 : Ref sig .tc := ⟨.hbm, 76, rfl⟩
abbrev main_v33 : Ref sig .tc := ⟨.hbm, 77, rfl⟩
abbrev main_cst_9 : Ref sig .tc := ⟨.hbm, 78, rfl⟩
abbrev main_call2_v0 : Ref sig .tc := ⟨.hbm, 79, rfl⟩
abbrev main_call2_v1 : Ref sig .tc := ⟨.hbm, 80, rfl⟩
abbrev main_v34 : Ref sig .tc := ⟨.hbm, 81, rfl⟩
abbrev main_cst_10 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩

abbrev nD : Nat := 1
abbrev τ : Topo := Topo.v7x

variable {F : FTy → Type} [FloatOps F]

class Facts₀ : Prop where
  transposes_S32000x2048_S2048x32000_1_0 : S32000x2048.Transposes [1, 0] S2048x32000
  bcast_S_S2048x32000 : S_.BroadcastsInDim S2048x32000 (![] : Fin 0 → Fin S2048x32000.rank)
  transposes_S32000x4096_S4096x32000_1_0 : S32000x4096.Transposes [1, 0] S4096x32000
  reducesTo_S2048x32000_S2048_d1 : S2048x32000.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x32000_0_1 : S2048x1.BroadcastsInDim S2048x32000 (![0, 1] : Fin 2 → Fin S2048x32000.rank)
  natLt_1_32 : 1 < 32
  reducesTo_S2048_S_d0 : S2048.ReducesTo [0] S_
  dot_S2048x2048_S2048x32000_S2048x32000_1_0_0_1_n_n_wf : DotDims.WF S2048x2048 S2048x32000 S2048x32000 [1] [0] [0] [1] [] []
  dot_S2048x4096_S4096x32000_S2048x32000_1_0_0_1_n_n_wf : DotDims.WF S2048x4096 S4096x32000 S2048x32000 [1] [0] [0] [1] [] []

variable [Facts₀]

def dot_S2048x2048_S2048x32000_S2048x32000_1_0_0_1_n_n : DotDims S2048x2048 S2048x32000 S2048x32000 where
  lhsContracting := [1]
  rhsContracting := [0]
  lhsNonContracting := [0]
  rhsNonContracting := [1]
  lhsBatch := []
  rhsBatch := []
  wf := dot_S2048x2048_S2048x32000_S2048x32000_1_0_0_1_n_n_wf
def dot_S2048x4096_S4096x32000_S2048x32000_1_0_0_1_n_n : DotDims S2048x4096 S4096x32000 S2048x32000 where
  lhsContracting := [1]
  rhsContracting := [0]
  lhsNonContracting := [0]
  rhsNonContracting := [1]
  lhsBatch := []
  rhsBatch := []
  wf := dot_S2048x4096_S4096x32000_S2048x32000_1_0_0_1_n_n_wf

class Facts : Prop extends Facts₀ where

variable [Facts]
-- ==== Proof.FrameKernelIdeal.StatsBase.lean ====
/-
  The first kernel region (the running row maximum and the running sum of exponentials of both logit
  tiles, kept in four column buffers across the 125 vocabulary steps of a row block): what its three control
  cases and its proof data are stated over.  A grid point is (row block, vocabulary step); the buffers are
  reset at step 0, updated at every step, and turned into the two log-sum-exp columns at step 124.
-/
import proofs.«168479_j71159018160660_2_alg».proof.Proof.Gen.KernelIdeal.Launch
import proofs.«168479_j71159018160660_2_alg».proof.Proof.Gen.KernelIdeal.Skeleton
import proofs.«168479_j71159018160660_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the buffer contents when the region is entered
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

end

/-! ## The two conditions of the body, over the grid -/

/-- "This is vocabulary step 0" as the body computes it. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 125 = 0 :=
  (by decide +kernel : ∀ t : Fin grid0.N, cond0_0 (grid0.coords t) ↔ t.val % 125 = 0)
/-- "This is vocabulary step 124", the last. -/
abbrev cond0_1 (i : grid0.Coords) : Prop := k0_cond2 i = 1#1
theorem hcond0_1 : ∀ t : Fin cfg0.N, cond0_1 (grid0.coords t) ↔ t.val % 125 = 124 :=
  (by decide +kernel : ∀ t : Fin grid0.N, cond0_1 (grid0.coords t) ↔ t.val % 125 = 124)

/-! ## Where the windows are live -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last step nothing is stored into the two result columns, and they are not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The memrefs the body is called with -/
abbrev VO0_4 : View sig .tc .vmem S1024x1 .f32 := (Memref.whole cc0_stg4_0 : Memref sig .tc .vmem S1024x1 .f32).view
abbrev VO0_5 : View sig .tc .vmem S1024x1 .f32 := (Memref.whole cc0_stg5_0 : Memref sig .tc .vmem S1024x1 .f32).view
abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x4096 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x4096 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1 .f32 := win0_5.stage (cfg0.slots t 5)
abbrev hs0_5 (t : Fin cfg0.N) : (ms0_5 t).IsWhole := hstage0_5 ((cfg0.slots t 5).cast nbuf0_5)
/-- The four column buffers the kernel keeps between steps: running maximum and running sum, for each of the two logit tiles. -/
abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x1 .f32 := Memref.whole cc0_scratch2
abbrev scM0_3 : Memref sig .tc .vmem S1024x1 .f32 := Memref.whole cc0_scratch3
abbrev VS0_0 : View sig .tc .vmem S1024x1 .f32 := scM0_0.view
abbrev VS0_1 : View sig .tc .vmem S1024x1 .f32 := scM0_1.view
abbrev VS0_2 : View sig .tc .vmem S1024x1 .f32 := scM0_2.view
abbrev VS0_3 : View sig .tc .vmem S1024x1 .f32 := scM0_3.view

/-- The core's other scoped buffers (the second region's), each at some contents: they ride through the first region untouched. -/
abbrev others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f))

/-- What the region's invariant is before its first point: the four column buffers at anything, the other scoped buffers, the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ others0 c) ∗ (∃ r, prngReg c r)) := by
  unfold Pipeline.ΦA; rw [scopedRest0_eq]; simp only [scM0_0, scM0_1, scM0_2, scM0_3, owns_whole]; try rfl

end Cert.KernelIdeal.Hand

end
-- ==== Proof.FrameKernelIdeal.StatsRunA.lean ====
/-
  The first region's body at vocabulary step 0 of a row block: the four column buffers are reset (maximum to minus infinity, sum to zero) whatever they held, then updated with the first tile; the result columns are not touched.
-/
import proofs.«168479_j71159018160660_2_alg».proof.Proof.FrameKernelIdeal.StatsBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at step 0, on whole memrefs: the input blocks at their contents, the result columns at contents handed back untouched,
    the four column buffers at anything.  The pieces each column buffer ends with are found by running the body. -/
noncomputable def kernelRun0_A (c : Dev nD) (i : grid0.Coords) (arg2 : Memref sig .tc .vmem S1024x2048 .bf16) (harg2 : arg2.IsWhole) (arg3 : Memref sig .tc .vmem S256x2048 .bf16) (harg3 : arg3.IsWhole) (arg4 : Memref sig .tc .vmem S1024x4096 .bf16) (harg4 : arg4.IsWhole) (arg5 : Memref sig .tc .vmem S256x4096 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x2048 .bf16) (x1 : Vec F S256x2048 .bf16) (x2 : Vec F S1024x4096 .bf16) (x3 : Vec F S256x4096 .bf16) :
    Σ' (L4 : List (View.Piece (Elt F) S1024x1 .f32)), Σ' (L5 : List (View.Piece (Elt F) S1024x1 .f32)), Σ' (LS0 : List (View.Piece (Elt F) S1024x1 .f32)), Σ' (LS1 : List (View.Piece (Elt F) S1024x1 .f32)), Σ' (LS2 : List (View.Piece (Elt F) S1024x1 .f32)), { LS3 : List (View.Piece (Elt F) S1024x1 .f32) //
      ∀ (xi4 xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__stats_kernel i arg2 harg2 arg3 harg3 arg4 harg4 arg5 harg5 arg6 harg6 arg7 harg7 arg8 harg8 arg9 harg9 arg10 harg10 arg11 harg11) K } := by
  refine ⟨[], [], ?_, ?_, ?_, ?_, fun xi4 xi5 E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    isplitl [HS2]; · iexists _; iexact HS2
    iexists _; iexact HS3

end Cert.KernelIdeal.Hand

end
-- ==== Proof.FrameKernelIdeal.StatsRunB.lean ====
/-
  The first region's body at a middle vocabulary step (neither the first nor the last): the four column buffers are read at what the step before left and end at the updated running maximum and running sum; the result columns are not touched.
-/
import proofs.«168479_j71159018160660_2_alg».proof.Proof.FrameKernelIdeal.StatsBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle step, on whole memrefs: the input blocks at their contents, the result columns at contents handed back untouched,
    the four column buffers at the contents `xs·` the step before left.  The pieces each column buffer ends with are found by running the body. -/
noncomputable def kernelRun0_B (c : Dev nD) (i : grid0.Coords) (arg2 : Memref sig .tc .vmem S1024x2048 .bf16) (harg2 : arg2.IsWhole) (arg3 : Memref sig .tc .vmem S256x2048 .bf16) (harg3 : arg3.IsWhole) (arg4 : Memref sig .tc .vmem S1024x4096 .bf16) (harg4 : arg4.IsWhole) (arg5 : Memref sig .tc .vmem S256x4096 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x2048 .bf16) (x1 : Vec F S256x2048 .bf16) (x2 : Vec F S1024x4096 .bf16) (x3 : Vec F S256x4096 .bf16) (xs0 xs1 xs2 xs3 : Vec F S1024x1 .f32) :
    Σ' (L4 : List (View.Piece (Elt F) S1024x1 .f32)), Σ' (L5 : List (View.Piece (Elt F) S1024x1 .f32)), Σ' (LS0 : List (View.Piece (Elt F) S1024x1 .f32)), Σ' (LS1 : List (View.Piece (Elt F) S1024x1 .f32)), Σ' (LS2 : List (View.Piece (Elt F) S1024x1 .f32)), { LS3 : List (View.Piece (Elt F) S1024x1 .f32) //
      ∀ (xi4 xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__stats_kernel i arg2 harg2 arg3 harg3 arg4 harg4 arg5 harg5 arg6 harg6 arg7 harg7 arg8 harg8 arg9 harg9 arg10 harg10 arg11 harg11) K } := by
  refine ⟨[], [], ?_, ?_, ?_, ?_, fun xi4 xi5 E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    isplitl [HS2]; · iexists _; iexact HS2
    iexists _; iexact HS3

end Cert.KernelIdeal.Hand

end
-- ==== Proof.FrameKernelIdeal.StatsRunC.lean ====
/-
  The first region's body at the last vocabulary step of a row block: the four column buffers are updated as at a middle step, and the two result columns are stored whole: running maximum plus the logarithm of the running sum.
-/
import proofs.«168479_j71159018160660_2_alg».proof.Proof.FrameKernelIdeal.StatsBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last step, on whole memrefs: the input blocks at their contents, the result columns at anything,
    the four column buffers at the contents `xs·` the step before left.  The pieces each buffer ends with are found by running the body. -/
noncomputable def kernelRun0_C (c : Dev nD) (i : grid0.Coords) (arg2 : Memref sig .tc .vmem S1024x2048 .bf16) (harg2 : arg2.IsWhole) (arg3 : Memref sig .tc .vmem S256x2048 .bf16) (harg3 : arg3.IsWhole) (arg4 : Memref sig .tc .vmem S1024x4096 .bf16) (harg4 : arg4.IsWhole) (arg5 : Memref sig .tc .vmem S256x4096 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x2048 .bf16) (x1 : Vec F S256x2048 .bf16) (x2 : Vec F S1024x4096 .bf16) (x3 : Vec F S256x4096 .bf16) (xs0 xs1 xs2 xs3 : Vec F S1024x1 .f32) :
    Σ' (L4 : List (View.Piece (Elt F) S1024x1 .f32)), Σ' (L5 : List (View.Piece (Elt F) S1024x1 .f32)), Σ' (LS0 : List (View.Piece (Elt F) S1024x1 .f32)), Σ' (LS1 : List (View.Piece (Elt F) S1024x1 .f32)), Σ' (LS2 : List (View.Piece (Elt F) S1024x1 .f32)), { LS3 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__stats_kernel i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    isplitl [HS1]; · iexists _; iexact HS1
    isplitl [HS2]; · iexists _; iexact HS2
    iexists _; iexact HS3

end Cert.KernelIdeal.Hand

end
-- ==== Proof.FrameKernelIdeal.StatsFrame.lean ====
/-
  The first region's proof data.  What the four kept column buffers hold after each grid point is defined by
  recursion on the point — reset and first update at step 0 of a row block, update at the later steps — and the
  two result columns' staging buffers hold, at the last step of a row block, running maximum plus logarithm of
  running sum.  From that: the region's invariant point by point, and the body obligation by the three cases' runs.
-/
import proofs.«168479_j71159018160660_2_alg».proof.Proof.FrameKernelIdeal.StatsRunA
import proofs.«168479_j71159018160660_2_alg».proof.Proof.FrameKernelIdeal.StatsRunB
import proofs.«168479_j71159018160660_2_alg».proof.Proof.FrameKernelIdeal.StatsRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three cases at a grid point -/

def runAt0_A (c : Dev nD) (t : Fin cfg0.N) (h0 : cond0_0 (grid0.coords t)) (h1 : ¬cond0_1 (grid0.coords t)) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) h0 h1 (iblk0 V c 0 t) (iblk0 V c 1 t) (iblk0 V c 2 t) (iblk0 V c 3 t)
def runAt0_B (c : Dev nD) (t : Fin cfg0.N) (h0 : ¬cond0_0 (grid0.coords t)) (h1 : ¬cond0_1 (grid0.coords t)) (xs0 xs1 xs2 xs3 : Vec F S1024x1 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) h0 h1 (iblk0 V c 0 t) (iblk0 V c 1 t) (iblk0 V c 2 t) (iblk0 V c 3 t) xs0 xs1 xs2 xs3
def runAt0_C (c : Dev nD) (t : Fin cfg0.N) (h0 : ¬cond0_0 (grid0.coords t)) (h1 : cond0_1 (grid0.coords t)) (xs0 xs1 xs2 xs3 : Vec F S1024x1 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) h0 h1 (iblk0 V c 0 t) (iblk0 V c 1 t) (iblk0 V c 2 t) (iblk0 V c 3 t) xs0 xs1 xs2 xs3

theorem scover0_A_0 (c : Dev nD) (t : Fin cfg0.N) (h0 : cond0_0 (grid0.coords t)) (h1 : ¬cond0_1 (grid0.coords t)) (y : S1024x1.Idx) :
    ∃ pc ∈ (runAt0_A V c t h0 h1).2.2.1, y ∈ pc.1.set :=
  View.cover_of_tiledL (runAt0_A V c t h0 h1).2.2.1 S1024x1.size (by unfold runAt0_A; sl_kernel_rfl) y
theorem scover0_A_1 (c : Dev nD) (t : Fin cfg0.N) (h0 : cond0_0 (grid0.coords t)) (h1 : ¬cond0_1 (grid0.coords t)) (y : S1024x1.Idx) :
    ∃ pc ∈ (runAt0_A V c t h0 h1).2.2.2.1, y ∈ pc.1.set :=
  View.cover_of_tiledL (runAt0_A V c t h0 h1).2.2.2.1 S1024x1.size (by unfold runAt0_A; sl_kernel_rfl) y
theorem scover0_A_2 (c : Dev nD) (t : Fin cfg0.N) (h0 : cond0_0 (grid0.coords t)) (h1 : ¬cond0_1 (grid0.coords t)) (y : S1024x1.Idx) :
    ∃ pc ∈ (runAt0_A V c t h0 h1).2.2.2.2.1, y ∈ pc.1.set :=
  View.cover_of_tiledL (runAt0_A V c t h0 h1).2.2.2.2.1 S1024x1.size (by unfold runAt0_A; sl_kernel_rfl) y
theorem scover0_A_3 (c : Dev nD) (t : Fin cfg0.N) (h0 : cond0_0 (grid0.coords t)) (h1 : ¬cond0_1 (grid0.coords t)) (y : S1024x1.Idx) :
    ∃ pc ∈ (runAt0_A V c t h0 h1).2.2.2.2.2.1, y ∈ pc.1.set :=
  View.cover_of_tiledL (runAt0_A V c t h0 h1).2.2.2.2.2.1 S1024x1.size (by unfold runAt0_A; sl_kernel_rfl) y
theorem scover0_B_0 (c : Dev nD) (t : Fin cfg0.N) (h0 : ¬cond0_0 (grid0.coords t)) (h1 : ¬cond0_1 (grid0.coords t)) (xs0 xs1 xs2 xs3 : Vec F S1024x1 .f32) (y : S1024x1.Idx) :
    ∃ pc ∈ (runAt0_B V c t h0 h1 xs0 xs1 xs2 xs3).2.2.1, y ∈ pc.1.set :=
  View.cover_of_tiledL (runAt0_B V c t h0 h1 xs0 xs1 xs2 xs3).2.2.1 S1024x1.size (by unfold runAt0_B; sl_kernel_rfl) y
theorem scover0_B_1 (c : Dev nD) (t : Fin cfg0.N) (h0 : ¬cond0_0 (grid0.coords t)) (h1 : ¬cond0_1 (grid0.coords t)) (xs0 xs1 xs2 xs3 : Vec F S1024x1 .f32) (y : S1024x1.Idx) :
    ∃ pc ∈ (runAt0_B V c t h0 h1 xs0 xs1 xs2 xs3).2.2.2.1, y ∈ pc.1.set :=
  View.cover_of_tiledL (runAt0_B V c t h0 h1 xs0 xs1 xs2 xs3).2.2.2.1 S1024x1.size (by unfold runAt0_B; sl_kernel_rfl) y
theorem scover0_B_2 (c : Dev nD) (t : Fin cfg0.N) (h0 : ¬cond0_0 (grid0.coords t)) (h1 : ¬cond0_1 (grid0.coords t)) (xs0 xs1 xs2 xs3 : Vec F S1024x1 .f32) (y : S1024x1.Idx) :
    ∃ pc ∈ (runAt0_B V c t h0 h1 xs0 xs1 xs2 xs3).2.2.2.2.1, y ∈ pc.1.set :=
  View.cover_of_tiledL (runAt0_B V c t h0 h1 xs0 xs1 xs2 xs3).2.2.2.2.1 S1024x1.size (by unfold runAt0_B; sl_kernel_rfl) y
theorem scover0_B_3 (c : Dev nD) (t : Fin cfg0.N) (h0 : ¬cond0_0 (grid0.coords t)) (h1 : ¬cond0_1 (grid0.coords t)) (xs0 xs1 xs2 xs3 : Vec F S1024x1 .f32) (y : S1024x1.Idx) :
    ∃ pc ∈ (runAt0_B V c t h0 h1 xs0 xs1 xs2 xs3).2.2.2.2.2.1, y ∈ pc.1.set :=
  View.cover_of_tiledL (runAt0_B V c t h0 h1 xs0 xs1 xs2 xs3).2.2.2.2.2.1 S1024x1.size (by unfold runAt0_B; sl_kernel_rfl) y
theorem scover0_C_0 (c : Dev nD) (t : Fin cfg0.N) (h0 : ¬cond0_0 (grid0.coords t)) (h1 : cond0_1 (grid0.coords t)) (xs0 xs1 xs2 xs3 : Vec F S1024x1 .f32) (y : S1024x1.Idx) :
    ∃ pc ∈ (runAt0_C V c t h0 h1 xs0 xs1 xs2 xs3).2.2.1, y ∈ pc.1.set :=
  View.cover_of_tiledL (runAt0_C V c t h0 h1 xs0 xs1 xs2 xs3).2.2.1 S1024x1.size (by unfold runAt0_C; sl_kernel_rfl) y
theorem scover0_C_1 (c : Dev nD) (t : Fin cfg0.N) (h0 : ¬cond0_0 (grid0.coords t)) (h1 : cond0_1 (grid0.coords t)) (xs0 xs1 xs2 xs3 : Vec F S1024x1 .f32) (y : S1024x1.Idx) :
    ∃ pc ∈ (runAt0_C V c t h0 h1 xs0 xs1 xs2 xs3).2.2.2.1, y ∈ pc.1.set :=
  View.cover_of_tiledL (runAt0_C V c t h0 h1 xs0 xs1 xs2 xs3).2.2.2.1 S1024x1.size (by unfold runAt0_C; sl_kernel_rfl) y
theorem scover0_C_2 (c : Dev nD) (t : Fin cfg0.N) (h0 : ¬cond0_0 (grid0.coords t)) (h1 : cond0_1 (grid0.coords t)) (xs0 xs1 xs2 xs3 : Vec F S1024x1 .f32) (y : S1024x1.Idx) :
    ∃ pc ∈ (runAt0_C V c t h0 h1 xs0 xs1 xs2 xs3).2.2.2.2.1, y ∈ pc.1.set :=
  View.cover_of_tiledL (runAt0_C V c t h0 h1 xs0 xs1 xs2 xs3).2.2.2.2.1 S1024x1.size (by unfold runAt0_C; sl_kernel_rfl) y
theorem scover0_C_3 (c : Dev nD) (t : Fin cfg0.N) (h0 : ¬cond0_0 (grid0.coords t)) (h1 : cond0_1 (grid0.coords t)) (xs0 xs1 xs2 xs3 : Vec F S1024x1 .f32) (y : S1024x1.Idx) :
    ∃ pc ∈ (runAt0_C V c t h0 h1 xs0 xs1 xs2 xs3).2.2.2.2.2.1, y ∈ pc.1.set :=
  View.cover_of_tiledL (runAt0_C V c t h0 h1 xs0 xs1 xs2 xs3).2.2.2.2.2.1 S1024x1.size (by unfold runAt0_C; sl_kernel_rfl) y
theorem cover0_C_4 (c : Dev nD) (t : Fin cfg0.N) (h0 : ¬cond0_0 (grid0.coords t)) (h1 : cond0_1 (grid0.coords t)) (xs0 xs1 xs2 xs3 : Vec F S1024x1 .f32) (y : S1024x1.Idx) :
    ∃ pc ∈ (runAt0_C V c t h0 h1 xs0 xs1 xs2 xs3).1, y ∈ pc.1.set :=
  View.cover_of_tiledL (runAt0_C V c t h0 h1 xs0 xs1 xs2 xs3).1 S1024x1.size (by unfold runAt0_C; sl_kernel_rfl) y
theorem cover0_C_5 (c : Dev nD) (t : Fin cfg0.N) (h0 : ¬cond0_0 (grid0.coords t)) (h1 : cond0_1 (grid0.coords t)) (xs0 xs1 xs2 xs3 : Vec F S1024x1 .f32) (y : S1024x1.Idx) :
    ∃ pc ∈ (runAt0_C V c t h0 h1 xs0 xs1 xs2 xs3).2.1, y ∈ pc.1.set :=
  View.cover_of_tiledL (runAt0_C V c t h0 h1 xs0 xs1 xs2 xs3).2.1 S1024x1.size (by unfold runAt0_C; sl_kernel_rfl) y

/-- What a case leaves: (the two result columns' staging buffers, the four kept column buffers).  Where the case
    stores nothing into the result columns their components are placeholders nothing consults. -/
def tup0_A (c : Dev nD) (t : Fin cfg0.N) (h0 : cond0_0 (grid0.coords t)) (h1 : ¬cond0_1 (grid0.coords t)) : Vec F S1024x1 .f32 × Vec F S1024x1 .f32 × Vec F S1024x1 .f32 × Vec F S1024x1 .f32 × Vec F S1024x1 .f32 × Vec F S1024x1 .f32 :=
  (VO0_4.read (Elt F) VO0_4.junk, VO0_5.read (Elt F) VO0_5.junk, VS0_0.read (Elt F) (VS0_0.writes (Elt F) VS0_0.junk (runAt0_A V c t h0 h1).2.2.1), VS0_1.read (Elt F) (VS0_1.writes (Elt F) VS0_1.junk (runAt0_A V c t h0 h1).2.2.2.1), VS0_2.read (Elt F) (VS0_2.writes (Elt F) VS0_2.junk (runAt0_A V c t h0 h1).2.2.2.2.1), VS0_3.read (Elt F) (VS0_3.writes (Elt F) VS0_3.junk (runAt0_A V c t h0 h1).2.2.2.2.2.1))
def tup0_B (c : Dev nD) (t : Fin cfg0.N) (h0 : ¬cond0_0 (grid0.coords t)) (h1 : ¬cond0_1 (grid0.coords t)) (xs0 xs1 xs2 xs3 : Vec F S1024x1 .f32) : Vec F S1024x1 .f32 × Vec F S1024x1 .f32 × Vec F S1024x1 .f32 × Vec F S1024x1 .f32 × Vec F S1024x1 .f32 × Vec F S1024x1 .f32 :=
  (VO0_4.read (Elt F) VO0_4.junk, VO0_5.read (Elt F) VO0_5.junk, VS0_0.read (Elt F) (VS0_0.writes (Elt F) VS0_0.junk (runAt0_B V c t h0 h1 xs0 xs1 xs2 xs3).2.2.1), VS0_1.read (Elt F) (VS0_1.writes (Elt F) VS0_1.junk (runAt0_B V c t h0 h1 xs0 xs1 xs2 xs3).2.2.2.1), VS0_2.read (Elt F) (VS0_2.writes (Elt F) VS0_2.junk (runAt0_B V c t h0 h1 xs0 xs1 xs2 xs3).2.2.2.2.1), VS0_3.read (Elt F) (VS0_3.writes (Elt F) VS0_3.junk (runAt0_B V c t h0 h1 xs0 xs1 xs2 xs3).2.2.2.2.2.1))
def tup0_C (c : Dev nD) (t : Fin cfg0.N) (h0 : ¬cond0_0 (grid0.coords t)) (h1 : cond0_1 (grid0.coords t)) (xs0 xs1 xs2 xs3 : Vec F S1024x1 .f32) : Vec F S1024x1 .f32 × Vec F S1024x1 .f32 × Vec F S1024x1 .f32 × Vec F S1024x1 .f32 × Vec F S1024x1 .f32 × Vec F S1024x1 .f32 :=
  (VO0_4.read (Elt F) (VO0_4.writes (Elt F) VO0_4.junk (runAt0_C V c t h0 h1 xs0 xs1 xs2 xs3).1), VO0_5.read (Elt F) (VO0_5.writes (Elt F) VO0_5.junk (runAt0_C V c t h0 h1 xs0 xs1 xs2 xs3).2.1), VS0_0.read (Elt F) (VS0_0.writes (Elt F) VS0_0.junk (runAt0_C V c t h0 h1 xs0 xs1 xs2 xs3).2.2.1), VS0_1.read (Elt F) (VS0_1.writes (Elt F) VS0_1.junk (runAt0_C V c t h0 h1 xs0 xs1 xs2 xs3).2.2.2.1), VS0_2.read (Elt F) (VS0_2.writes (Elt F) VS0_2.junk (runAt0_C V c t h0 h1 xs0 xs1 xs2 xs3).2.2.2.2.1), VS0_3.read (Elt F) (VS0_3.writes (Elt F) VS0_3.junk (runAt0_C V c t h0 h1 xs0 xs1 xs2 xs3).2.2.2.2.2.1))

/-! ## What the buffers hold after each point -/

def outsAt0 (c : Dev nD) : (n : ℕ) → n < cfg0.N → Vec F S1024x1 .f32 × Vec F S1024x1 .f32 × Vec F S1024x1 .f32 × Vec F S1024x1 .f32 × Vec F S1024x1 .f32 × Vec F S1024x1 .f32
  | 0, hn => tup0_A V c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 125 = 0 then
      if h1 : (n + 1) % 125 = 124 then False.elim (by omega)
      else tup0_A V c ⟨n + 1, hn⟩ ((hcond0_0 ⟨n + 1, hn⟩).mpr h0) (fun h => h1 ((hcond0_1 ⟨n + 1, hn⟩).mp h))
    else
      if h1 : (n + 1) % 125 = 124 then
        tup0_C V c ⟨n + 1, hn⟩ (fun h => h0 ((hcond0_0 ⟨n + 1, hn⟩).mp h)) ((hcond0_1 ⟨n + 1, hn⟩).mpr h1) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2
      else
        tup0_B V c ⟨n + 1, hn⟩ (fun h => h0 ((hcond0_0 ⟨n + 1, hn⟩).mp h)) (fun h => h1 ((hcond0_1 ⟨n + 1, hn⟩).mp h)) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2

theorem outsAt0_A (c : Dev nD) (t : Fin cfg0.N) (h0 : t.val % 125 = 0) (h1 : ¬t.val % 125 = 124) :
    outsAt0 V c t.val t.isLt = tup0_A V c t ((hcond0_0 t).mpr h0) (fun h => h1 ((hcond0_1 t).mp h)) := by
  obtain ⟨n, hn⟩ := t
  cases n with
  | zero => exact rfl
  | succ n => exact (dif_pos h0).trans ((dif_neg h1).trans rfl)
theorem outsAt0_B (c : Dev nD) (t : Fin cfg0.N) (h0 : ¬t.val % 125 = 0) (h1 : ¬t.val % 125 = 124) :
    outsAt0 V c t.val t.isLt = tup0_B V c t (fun h => h0 ((hcond0_0 t).mp h)) (fun h => h1 ((hcond0_1 t).mp h)) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2 := by
  obtain ⟨n, hn⟩ := t
  cases n with
  | zero => exact absurd (Nat.zero_mod _) h0
  | succ n => exact (dif_neg h0).trans ((dif_neg h1).trans rfl)
theorem outsAt0_C (c : Dev nD) (t : Fin cfg0.N) (h0 : ¬t.val % 125 = 0) (h1 : t.val % 125 = 124) :
    outsAt0 V c t.val t.isLt = tup0_C V c t (fun h => h0 ((hcond0_0 t).mp h)) ((hcond0_1 t).mpr h1) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2 := by
  obtain ⟨n, hn⟩ := t
  cases n with
  | zero => exact absurd (Nat.zero_mod _) h0
  | succ n => exact (dif_neg h0).trans ((dif_pos h1).trans rfl)

/-! ## The invariant -/

def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2.1) ∗ owns (c : Thread nD τ) scM0_2 fullShare ((outsAt0 V c n hn).2.2.2.2.1) ∗ owns (c : Thread nD τ) scM0_3 fullShare ((outsAt0 V c n hn).2.2.2.2.2) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2.2.1) ∗ owns (c : Thread nD τ) scM0_1 fullShare ((outsAt0 V c n hn).2.2.2.1) ∗ owns (c : Thread nD τ) scM0_2 fullShare ((outsAt0 V c n hn).2.2.2.2.1) ∗ owns (c : Thread nD τ) scM0_3 fullShare ((outsAt0 V c n hn).2.2.2.2.2) ∗ others0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.1) ∗ owns (c : Thread nD τ) scM0_1 fullShare ((outsAt0 V c (n - 1) (by omega)).2.2.2.1) ∗ owns (c : Thread nD τ) scM0_2 fullShare ((outsAt0 V c (n - 1) (by omega)).2.2.2.2.1) ∗ owns (c : Thread nD τ) scM0_3 fullShare ((outsAt0 V c (n - 1) (by omega)).2.2.2.2.2) ∗ others0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

theorem leaves0_in (c : Dev nD) (t : Fin cfg0.N) :
    (dat0 V c).leavesExact 0 t = owns (c : Thread nD τ) (ms0_0 t) fullShare (iblk0 V c 0 t)
    ∧ (dat0 V c).leavesExact 1 t = owns (c : Thread nD τ) (ms0_1 t) fullShare (iblk0 V c 1 t)
    ∧ (dat0 V c).leavesExact 2 t = owns (c : Thread nD τ) (ms0_2 t) fullShare (iblk0 V c 2 t)
    ∧ (dat0 V c).leavesExact 3 t = owns (c : Thread nD τ) (ms0_3 t) fullShare (iblk0 V c 3 t) := by
  refine ⟨?_, ?_, ?_, ?_⟩
  · unfold Dat.leavesExact; rw [liveAt0_0 t, after0_0]
  · unfold Dat.leavesExact; rw [liveAt0_1 t, after0_1]
  · unfold Dat.leavesExact; rw [liveAt0_2 t, after0_2]
  · unfold Dat.leavesExact; rw [liveAt0_3 t, after0_3]

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  obtain ⟨hl0, hl1, hl2, hl3⟩ := leaves0_in V c t
  rw [hl0, hl1, hl2, hl3]
  have hN : t.val < 250 := lt_of_lt_of_eq t.isLt (show cfg0.N = 250 from N_0)
  by_cases h0 : t.val % 125 = 0
  · have h1 : ¬t.val % 125 = 124 := by omega
    rw [Dat.leavesExact_idle (dat0 V c) 4 t (idleAt0_4 t (fun h => h1 ((hcond0_1 t).mp h))) (noFlush0_4 t (fun h => h1 ((hcond0_1 t).mp h))),
      Dat.leavesExact_idle (dat0 V c) 5 t (idleAt0_5 t (fun h => h1 ((hcond0_1 t).mp h))) (noFlush0_5 t (fun h => h1 ((hcond0_1 t).mp h)))]
    rw [outsAt0_A V c t h0 h1]
    unfold tup0_A; dsimp only
    by_cases hz : t.val = 0
    · rw [PhiS0_castSucc V c t, PhiS0_zero V c _ _ hz, PhiA0_eq]
      iintro ⟨⟨⟨HS0, HS1, HS2, HS3, Hoth⟩, Hg⟩, Ho, ⟨%d0, H0⟩, ⟨%d1, H1⟩, ⟨%d2, H2⟩, ⟨%d3, H3⟩, ⟨%d4, H4⟩, ⟨%d5, H5⟩⟩
      iapply ((runAt0_A V c t ((hcond0_0 t).mpr h0) (fun h => h1 ((hcond0_1 t).mp h))).2.2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, ⟨%es0, HS0⟩, ⟨%es1, HS1⟩, ⟨%es2, HS2⟩, ⟨%es3, HS3⟩⟩
      isplitl [HS0 HS1 HS2 HS3 Hoth Hg]
      · isplitl [HS0 HS1 HS2 HS3 Hoth]
        · isplitl [HS0]
          · unfold owns; iexists _; isplitr
            swap; · iexact HS0
            ipureintro; exact View.read_writes_of_cover _ _ _ _ _ (scover0_A_0 V c t _ _)
          isplitl [HS1]
          · unfold owns; iexists _; isplitr
            swap; · iexact HS1
            ipureintro; exact View.read_writes_of_cover _ _ _ _ _ (scover0_A_1 V c t _ _)
          isplitl [HS2]
          · unfold owns; iexists _; isplitr
            swap; · iexact HS2
            ipureintro; exact View.read_writes_of_cover _ _ _ _ _ (scover0_A_2 V c t _ _)
          isplitl [HS3]
          · unfold owns; iexists _; isplitr
            swap; · iexact HS3
            ipureintro; exact View.read_writes_of_cover _ _ _ _ _ (scover0_A_3 V c t _ _)
          iexact Hoth
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [PhiS0_castSucc V c t, PhiS0_pos V c _ _ hz]
      iintro ⟨⟨⟨HS0, HS1, HS2, HS3, Hoth⟩, Hg⟩, Ho, ⟨%d0, H0⟩, ⟨%d1, H1⟩, ⟨%d2, H2⟩, ⟨%d3, H3⟩, ⟨%d4, H4⟩, ⟨%d5, H5⟩⟩
      iapply ((runAt0_A V c t ((hcond0_0 t).mpr h0) (fun h => h1 ((hcond0_1 t).mp h))).2.2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      isplitl [HS3]; · iexists _; iexact HS3
      iintro ⟨H0, H1, H2, H3, H4, H5, ⟨%es0, HS0⟩, ⟨%es1, HS1⟩, ⟨%es2, HS2⟩, ⟨%es3, HS3⟩⟩
      isplitl [HS0 HS1 HS2 HS3 Hoth Hg]
      · isplitl [HS0 HS1 HS2 HS3 Hoth]
        · isplitl [HS0]
          · unfold owns; iexists _; isplitr
            swap; · iexact HS0
            ipureintro; exact View.read_writes_of_cover _ _ _ _ _ (scover0_A_0 V c t _ _)
          isplitl [HS1]
          · unfold owns; iexists _; isplitr
            swap; · iexact HS1
            ipureintro; exact View.read_writes_of_cover _ _ _ _ _ (scover0_A_1 V c t _ _)
          isplitl [HS2]
          · unfold owns; iexists _; isplitr
            swap; · iexact HS2
            ipureintro; exact View.read_writes_of_cover _ _ _ _ _ (scover0_A_2 V c t _ _)
          isplitl [HS3]
          · unfold owns; iexists _; isplitr
            swap; · iexact HS3
            ipureintro; exact View.read_writes_of_cover _ _ _ _ _ (scover0_A_3 V c t _ _)
          iexact Hoth
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun h => h0 (by rw [h])
    by_cases h1 : t.val % 125 = 124
    · rw [show (dat0 V c).leavesExact 4 t = owns (c : Thread nD τ) (ms0_4 t) fullShare ((dat0 V c).after 4 t) from by
        unfold Dat.leavesExact; rw [liveAt0_4 t ((hcond0_1 t).mpr h1)], after0_4]
      rw [show (dat0 V c).leavesExact 5 t = owns (c : Thread nD τ) (ms0_5 t) fullShare ((dat0 V c).after 5 t) from by
        unfold Dat.leavesExact; rw [liveAt0_5 t ((hcond0_1 t).mpr h1)], after0_5]
      rw [outsAt0_C V c t h0 h1]
      unfold tup0_C; dsimp only
      rw [PhiS0_castSucc V c t, PhiS0_pos V c _ _ hz]
      iintro ⟨⟨⟨HS0, HS1, HS2, HS3, Hoth⟩, Hg⟩, Ho, ⟨%d0, H0⟩, ⟨%d1, H1⟩, ⟨%d2, H2⟩, ⟨%d3, H3⟩, ⟨%d4, H4⟩, ⟨%d5, H5⟩⟩
      iapply ((runAt0_C V c t (fun h => h0 ((hcond0_0 t).mp h)) ((hcond0_1 t).mpr h1) _ _ _ _).2.2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      isplitl [HS2]; · iexact HS2
      isplitl [HS3]; · iexact HS3
      iintro ⟨H0, H1, H2, H3, ⟨%e4, H4⟩, ⟨%e5, H5⟩, ⟨%es0, HS0⟩, ⟨%es1, HS1⟩, ⟨%es2, HS2⟩, ⟨%es3, HS3⟩⟩
      isplitl [HS0 HS1 HS2 HS3 Hoth Hg]
      · isplitl [HS0 HS1 HS2 HS3 Hoth]
        · isplitl [HS0]
          · unfold owns; iexists _; isplitr
            swap; · iexact HS0
            ipureintro; exact View.read_writes_of_cover _ _ _ _ _ (scover0_C_0 V c t _ _ _ _ _ _)
          isplitl [HS1]
          · unfold owns; iexists _; isplitr
            swap; · iexact HS1
            ipureintro; exact View.read_writes_of_cover _ _ _ _ _ (scover0_C_1 V c t _ _ _ _ _ _)
          isplitl [HS2]
          · unfold owns; iexists _; isplitr
            swap; · iexact HS2
            ipureintro; exact View.read_writes_of_cover _ _ _ _ _ (scover0_C_2 V c t _ _ _ _ _ _)
          isplitl [HS3]
          · unfold owns; iexists _; isplitr
            swap; · iexact HS3
            ipureintro; exact View.read_writes_of_cover _ _ _ _ _ (scover0_C_3 V c t _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_C_4 V c t _ _ _ _ _ _)
      unfold owns; iexists _; isplitr
      swap; · iexact H5
      ipureintro; exact View.read_writes_of_cover _ _ _ _ _ (cover0_C_5 V c t _ _ _ _ _ _)
    · rw [Dat.leavesExact_idle (dat0 V c) 4 t (idleAt0_4 t (fun h => h1 ((hcond0_1 t).mp h))) (noFlush0_4 t (fun h => h1 ((hcond0_1 t).mp h))),
      Dat.leavesExact_idle (dat0 V c) 5 t (idleAt0_5 t (fun h => h1 ((hcond0_1 t).mp h))) (noFlush0_5 t (fun h => h1 ((hcond0_1 t).mp h)))]
      rw [outsAt0_B V c t h0 h1]
      unfold tup0_B; dsimp only
      rw [PhiS0_castSucc V c t, PhiS0_pos V c _ _ hz]
      iintro ⟨⟨⟨HS0, HS1, HS2, HS3, Hoth⟩, Hg⟩, Ho, ⟨%d0, H0⟩, ⟨%d1, H1⟩, ⟨%d2, H2⟩, ⟨%d3, H3⟩, ⟨%d4, H4⟩, ⟨%d5, H5⟩⟩
      iapply ((runAt0_B V c t (fun h => h0 ((hcond0_0 t).mp h)) (fun h => h1 ((hcond0_1 t).mp h)) _ _ _ _).2.2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, ⟨%es0, HS0⟩, ⟨%es1, HS1⟩, ⟨%es2, HS2⟩, ⟨%es3, HS3⟩⟩
      isplitl [HS0 HS1 HS2 HS3 Hoth Hg]
      · isplitl [HS0 HS1 HS2 HS3 Hoth]
        · isplitl [HS0]
          · unfold owns; iexists _; isplitr
            swap; · iexact HS0
            ipureintro; exact View.read_writes_of_cover _ _ _ _ _ (scover0_B_0 V c t _ _ _ _ _ _)
          isplitl [HS1]
          · unfold owns; iexists _; isplitr
            swap; · iexact HS1
            ipureintro; exact View.read_writes_of_cover _ _ _ _ _ (scover0_B_1 V c t _ _ _ _ _ _)
          isplitl [HS2]
          · unfold owns; iexists _; isplitr
            swap; · iexact HS2
            ipureintro; exact View.read_writes_of_cover _ _ _ _ _ (scover0_B_2 V c t _ _ _ _ _ _)
          isplitl [HS3]
          · unfold owns; iexists _; isplitr
            swap; · iexact HS3
            ipureintro; exact View.read_writes_of_cover _ _ _ _ _ (scover0_B_3 V c t _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HS2, HS3, Hoth⟩, Hg⟩
  isplitl [HS0 HS1 HS2 HS3 Hoth]
  · isplitl [HS0]; · iexists _; iexact HS0
    isplitl [HS1]; · iexists _; iexact HS1
    isplitl [HS2]; · iexists _; iexact HS2
    isplitl [HS3]; · iexists _; iexact HS3
    iexact Hoth
  iexact Hg

/-- After the last point the invariant gives the scoped rest back, the kept buffers' contents forgotten. -/
theorem hout0 (c : Dev nD) : (dat0 V c).Φ (Fin.last cfg0.N) ⊢ Pipeline.ΦA spec0 c :=
  Phi_out0 V c _ (by rw [Fin.val_last]; have : cfg0.N = 250 := N_0; omega)

end Cert.KernelIdeal.Hand

end
-- ==== Proof.FrameKernelIdeal.LossBase.lean ====
/-
  The second kernel region (per row block, the divergence integrand summed over the 125 vocabulary
  steps in one column buffer and stored into the result column at the last step): what its three control
  cases and its proof data are stated over.
-/
import proofs.«168479_j71159018160660_2_alg».proof.Proof.Gen.KernelIdeal.Launch
import proofs.«168479_j71159018160660_2_alg».proof.Proof.Gen.KernelIdeal.Skeleton
import proofs.«168479_j71159018160660_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the buffer contents when the region is entered
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

end

/-! ## The two conditions of the body, over the grid -/

/-- "This is vocabulary step 0" as the body computes it. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 125 = 0 :=
  (by decide +kernel : ∀ t : Fin grid1.N, cond1_0 (grid1.coords t) ↔ t.val % 125 = 0)
/-- "This is vocabulary step 124", the last. -/
abbrev cond1_1 (i : grid1.Coords) : Prop := k1_cond2 i = 1#1
theorem hcond1_1 : ∀ t : Fin cfg1.N, cond1_1 (grid1.coords t) ↔ t.val % 125 = 124 :=
  (by decide +kernel : ∀ t : Fin grid1.N, cond1_1 (grid1.coords t) ↔ t.val % 125 = 124)

/-! ## Where the windows are live -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Away from the last step nothing is stored into the result column, and it is not written back. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

/-! ## The memrefs the body is called with -/
abbrev VO1_6 : View sig .tc .vmem S1024x1 .f32 := (Memref.whole cc1_stg6_0 : Memref sig .tc .vmem S1024x1 .f32).view
abbrev ms1_0 (t : Fin cfg1.N) : Memref sig .tc .vmem S1024x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x4096 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x4096 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x1 .f32 := win1_6.stage (cfg1.slots t 6)
abbrev hs1_6 (t : Fin cfg1.N) : (ms1_6 t).IsWhole := hstage1_6 ((cfg1.slots t 6).cast nbuf1_6)
/-- The column buffer the kernel keeps between steps: the integrand summed so far. -/
abbrev scM1_0 : Memref sig .tc .vmem S1024x1 .f32 := Memref.whole cc1_scratch0
abbrev VS1_0 : View sig .tc .vmem S1024x1 .f32 := scM1_0.view

/-- The core's other scoped buffers (the first region's), each at some contents: they ride through the second region untouched. -/
abbrev others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f))

/-- The core's scoped buffers that are no staging buffer of the second region, the kept column buffer listed first. -/
theorem scopedRest1_first {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec1 c : sProp (MT nD τ sig Ix Val Name U Lvl))
      = iprop((∃ f : Buf Val ((c : Thread nD τ).loc cc1_scratch0), ((c : Thread nD τ).loc cc1_scratch0) ↦{fullShare} f) ∗ (∃ f : Buf Val ((c : Thread nD τ).loc cc0_stg0_0), ((c : Thread nD τ).loc cc0_stg0_0) ↦{fullShare} f) ∗ (∃ f : Buf Val ((c : Thread nD τ).loc cc0_stg0_1), ((c : Thread nD τ).loc cc0_stg0_1) ↦{fullShare} f) ∗ (∃ f : Buf Val ((c : Thread nD τ).loc cc0_stg1_0), ((c : Thread nD τ).loc cc0_stg1_0) ↦{fullShare} f) ∗ (∃ f : Buf Val ((c : Thread nD τ).loc cc0_stg1_1), ((c : Thread nD τ).loc cc0_stg1_1) ↦{fullShare} f) ∗ (∃ f : Buf Val ((c : Thread nD τ).loc cc0_stg2_0), ((c : Thread nD τ).loc cc0_stg2_0) ↦{fullShare} f) ∗ (∃ f : Buf Val ((c : Thread nD τ).loc cc0_stg2_1), ((c : Thread nD τ).loc cc0_stg2_1) ↦{fullShare} f) ∗ (∃ f : Buf Val ((c : Thread nD τ).loc cc0_stg3_0), ((c : Thread nD τ).loc cc0_stg3_0) ↦{fullShare} f) ∗ (∃ f : Buf Val ((c : Thread nD τ).loc cc0_stg3_1), ((c : Thread nD τ).loc cc0_stg3_1) ↦{fullShare} f) ∗ (∃ f : Buf Val ((c : Thread nD τ).loc cc0_stg4_0), ((c : Thread nD τ).loc cc0_stg4_0) ↦{fullShare} f) ∗ (∃ f : Buf Val ((c : Thread nD τ).loc cc0_stg4_1), ((c : Thread nD τ).loc cc0_stg4_1) ↦{fullShare} f) ∗ (∃ f : Buf Val ((c : Thread nD τ).loc cc0_stg5_0), ((c : Thread nD τ).loc cc0_stg5_0) ↦{fullShare} f) ∗ (∃ f : Buf Val ((c : Thread nD τ).loc cc0_stg5_1), ((c : Thread nD τ).loc cc0_stg5_1) ↦{fullShare} f) ∗ (∃ f : Buf Val ((c : Thread nD τ).loc cc0_scratch0), ((c : Thread nD τ).loc cc0_scratch0) ↦{fullShare} f) ∗ (∃ f : Buf Val ((c : Thread nD τ).loc cc0_scratch1), ((c : Thread nD τ).loc cc0_scratch1) ↦{fullShare} f) ∗ (∃ f : Buf Val ((c : Thread nD τ).loc cc0_scratch2), ((c : Thread nD τ).loc cc0_scratch2) ↦{fullShare} f) ∗ (∃ f : Buf Val ((c : Thread nD τ).loc cc0_scratch3), ((c : Thread nD τ).loc cc0_scratch3) ↦{fullShare} f)) :=
  Pipeline.scopedRest_eq_of_list spec1 c [cc1_scratch0, cc0_stg0_0, cc0_stg0_1, cc0_stg1_0, cc0_stg1_1, cc0_stg2_0, cc0_stg2_1, cc0_stg3_0, cc0_stg3_1, cc0_stg4_0, cc0_stg4_1, cc0_stg5_0, cc0_stg5_1, cc0_scratch0, cc0_scratch1, cc0_scratch2, cc0_scratch3] (by decide) (by decide)

/-- What the region's invariant is before its first point: the kept column buffer at anything, the other scoped buffers, the generator register. -/
theorem PhiA1_eq (c : Dev nD) :
    (Pipeline.ΦA spec1 c : sProp 𝕄)
      = iprop(iprop((∃ d, owns (c : Thread nD τ) scM1_0 fullShare d) ∗ others1 c) ∗ (∃ r, prngReg c r)) := by
  unfold Pipeline.ΦA; rw [scopedRest1_first]; simp only [scM1_0, owns_whole]; try rfl

end Cert.KernelIdeal.Hand

end
-- ==== Proof.FrameKernelIdeal.LossRunA.lean ====
/-
  The second region's body at vocabulary step 0 of a row block: the kept column buffer is reset to zero whatever it held, then the first tile's integrand is added; the result column is not touched.
-/
import proofs.«168479_j71159018160660_2_alg».proof.Proof.FrameKernelIdeal.LossBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S1024x2048 .bf16) (harg2 : arg2.IsWhole) (arg3 : Memref sig .tc .vmem S256x2048 .bf16) (harg3 : arg3.IsWhole) (arg4 : Memref sig .tc .vmem S1024x4096 .bf16) (harg4 : arg4.IsWhole) (arg5 : Memref sig .tc .vmem S256x4096 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond1_0 i) (hc1 : ¬cond1_1 i)
    (x0 : Vec F S1024x2048 .bf16) (x1 : Vec F S256x2048 .bf16) (x2 : Vec F S1024x4096 .bf16) (x3 : Vec F S256x4096 .bf16) (x4 x5 : Vec F S1024x1 .f32) :
    Σ' (L6 : List (View.Piece (Elt F) S1024x1 .f32)), { LS0 : List (View.Piece (Elt F) S1024x1 .f32) //
      ∀ (xi6 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__loss_kernel i arg2 harg2 arg3 harg3 arg4 harg4 arg5 harg5 arg6 harg6 arg7 harg7 arg8 harg8 arg9 harg9) K } := by
  refine ⟨[], ?_, fun xi6 E K => ?run⟩
  case run =>
    simp only [cc1__loss_kernel_eq_skeleton]; unfold cc1__loss_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Hand

end
-- ==== Proof.FrameKernelIdeal.LossRunB.lean ====
/-
  The second region's body at a middle vocabulary step: the kept column buffer, read at what the step before left, gets this tile's integrand added; the result column is not touched.
-/
import proofs.«168479_j71159018160660_2_alg».proof.Proof.FrameKernelIdeal.LossBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S1024x2048 .bf16) (harg2 : arg2.IsWhole) (arg3 : Memref sig .tc .vmem S256x2048 .bf16) (harg3 : arg3.IsWhole) (arg4 : Memref sig .tc .vmem S1024x4096 .bf16) (harg4 : arg4.IsWhole) (arg5 : Memref sig .tc .vmem S256x4096 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : ¬cond1_1 i)
    (x0 : Vec F S1024x2048 .bf16) (x1 : Vec F S256x2048 .bf16) (x2 : Vec F S1024x4096 .bf16) (x3 : Vec F S256x4096 .bf16) (x4 x5 : Vec F S1024x1 .f32) (xs0 : Vec F S1024x1 .f32) :
    Σ' (L6 : List (View.Piece (Elt F) S1024x1 .f32)), { LS0 : List (View.Piece (Elt F) S1024x1 .f32) //
      ∀ (xi6 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__loss_kernel i arg2 harg2 arg3 harg3 arg4 harg4 arg5 harg5 arg6 harg6 arg7 harg7 arg8 harg8 arg9 harg9) K } := by
  refine ⟨[], ?_, fun xi6 E K => ?run⟩
  case run =>
    simp only [cc1__loss_kernel_eq_skeleton]; unfold cc1__loss_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Hand

end
-- ==== Proof.FrameKernelIdeal.LossRunC.lean ====
/-
  The second region's body at the last vocabulary step: the kept column buffer gets the last tile's integrand added and is then copied whole into the result column.
-/
import proofs.«168479_j71159018160660_2_alg».proof.Proof.FrameKernelIdeal.LossBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S1024x2048 .bf16) (harg2 : arg2.IsWhole) (arg3 : Memref sig .tc .vmem S256x2048 .bf16) (harg3 : arg3.IsWhole) (arg4 : Memref sig .tc .vmem S1024x4096 .bf16) (harg4 : arg4.IsWhole) (arg5 : Memref sig .tc .vmem S256x4096 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i)
    (x0 : Vec F S1024x2048 .bf16) (x1 : Vec F S256x2048 .bf16) (x2 : Vec F S1024x4096 .bf16) (x3 : Vec F S256x4096 .bf16) (x4 x5 : Vec F S1024x1 .f32) (xs0 : Vec F S1024x1 .f32) :
    Σ' (L6 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc1__loss_kernel i arg2 harg2 arg3 harg3 arg4 harg4 arg5 harg5 arg6 harg6 arg7 harg7 arg8 harg8 arg9 harg9) K } := by
  refine ⟨?_, ?_, fun  E K => ?run⟩
  case run =>
    simp only [cc1__loss_kernel_eq_skeleton]; unfold cc1__loss_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.Hand

end
-- ==== Proof.FrameKernelIdeal.LossFrame.lean ====
/-
  The second region's proof data.  What the kept column buffer holds after each grid point is defined by
  recursion on the point — reset-and-add at step 0 of a row block, add at the later steps — and the result
  column's staging buffer holds, at the last step of a row block, a copy of it.  From that: the region's
  invariant point by point, and the body obligation by the three cases' runs.
-/
import proofs.«168479_j71159018160660_2_alg».proof.Proof.FrameKernelIdeal.LossRunA
import proofs.«168479_j71159018160660_2_alg».proof.Proof.FrameKernelIdeal.LossRunB
import proofs.«168479_j71159018160660_2_alg».proof.Proof.FrameKernelIdeal.LossRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three cases at a grid point -/

/-- The body's run at a point of step 0, on the point's memrefs and input blocks. -/
def runAt1_A (c : Dev nD) (t : Fin cfg1.N) (h0 : cond1_0 (grid1.coords t)) (h1 : ¬cond1_1 (grid1.coords t)) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) h0 h1 (iblk1 V c 0 t) (iblk1 V c 1 t) (iblk1 V c 2 t) (iblk1 V c 3 t) (iblk1 V c 4 t) (iblk1 V c 5 t)
/-- At a middle step, the kept buffer at `xs`. -/
def runAt1_B (c : Dev nD) (t : Fin cfg1.N) (h0 : ¬cond1_0 (grid1.coords t)) (h1 : ¬cond1_1 (grid1.coords t)) (xs : Vec F S1024x1 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) h0 h1 (iblk1 V c 0 t) (iblk1 V c 1 t) (iblk1 V c 2 t) (iblk1 V c 3 t) (iblk1 V c 4 t) (iblk1 V c 5 t) xs
/-- At the last step, the kept buffer at `xs`. -/
def runAt1_C (c : Dev nD) (t : Fin cfg1.N) (h0 : ¬cond1_0 (grid1.coords t)) (h1 : cond1_1 (grid1.coords t)) (xs : Vec F S1024x1 .f32) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) h0 h1 (iblk1 V c 0 t) (iblk1 V c 1 t) (iblk1 V c 2 t) (iblk1 V c 3 t) (iblk1 V c 4 t) (iblk1 V c 5 t) xs

theorem scover1_A (c : Dev nD) (t : Fin cfg1.N) (h0) (h1) (y : S1024x1.Idx) :
    ∃ pc ∈ (runAt1_A V c t h0 h1).2.1, y ∈ pc.1.set :=
  View.cover_of_tiledL (runAt1_A V c t h0 h1).2.1 S1024x1.size (by unfold runAt1_A; sl_kernel_rfl) y
theorem scover1_B (c : Dev nD) (t : Fin cfg1.N) (h0) (h1) (xs : Vec F S1024x1 .f32) (y : S1024x1.Idx) :
    ∃ pc ∈ (runAt1_B V c t h0 h1 xs).2.1, y ∈ pc.1.set :=
  View.cover_of_tiledL (runAt1_B V c t h0 h1 xs).2.1 S1024x1.size (by unfold runAt1_B; sl_kernel_rfl) y
theorem scover1_C (c : Dev nD) (t : Fin cfg1.N) (h0) (h1) (xs : Vec F S1024x1 .f32) (y : S1024x1.Idx) :
    ∃ pc ∈ (runAt1_C V c t h0 h1 xs).2.1, y ∈ pc.1.set :=
  View.cover_of_tiledL (runAt1_C V c t h0 h1 xs).2.1 S1024x1.size (by unfold runAt1_C; sl_kernel_rfl) y
theorem cover1_C (c : Dev nD) (t : Fin cfg1.N) (h0) (h1) (xs : Vec F S1024x1 .f32) (y : S1024x1.Idx) :
    ∃ pc ∈ (runAt1_C V c t h0 h1 xs).1, y ∈ pc.1.set :=
  View.cover_of_tiledL (runAt1_C V c t h0 h1 xs).1 S1024x1.size (by unfold runAt1_C; sl_kernel_rfl) y

/-- What a case leaves: (the result column's staging buffer, the kept column buffer).  Where the case stores
    nothing into the result column the first component is a placeholder nothing consults. -/
def tup1_A (c : Dev nD) (t : Fin cfg1.N) (h0 : cond1_0 (grid1.coords t)) (h1 : ¬cond1_1 (grid1.coords t)) : Vec F S1024x1 .f32 × Vec F S1024x1 .f32 :=
  (VO1_6.read (Elt F) VO1_6.junk, VS1_0.read (Elt F) (VS1_0.writes (Elt F) VS1_0.junk (runAt1_A V c t h0 h1).2.1))
def tup1_B (c : Dev nD) (t : Fin cfg1.N) (h0 : ¬cond1_0 (grid1.coords t)) (h1 : ¬cond1_1 (grid1.coords t)) (xs : Vec F S1024x1 .f32) : Vec F S1024x1 .f32 × Vec F S1024x1 .f32 :=
  (VO1_6.read (Elt F) VO1_6.junk, VS1_0.read (Elt F) (VS1_0.writes (Elt F) VS1_0.junk (runAt1_B V c t h0 h1 xs).2.1))
def tup1_C (c : Dev nD) (t : Fin cfg1.N) (h0 : ¬cond1_0 (grid1.coords t)) (h1 : cond1_1 (grid1.coords t)) (xs : Vec F S1024x1 .f32) : Vec F S1024x1 .f32 × Vec F S1024x1 .f32 :=
  (VO1_6.read (Elt F) (VO1_6.writes (Elt F) VO1_6.junk (runAt1_C V c t h0 h1 xs).1), VS1_0.read (Elt F) (VS1_0.writes (Elt F) VS1_0.junk (runAt1_C V c t h0 h1 xs).2.1))

/-! ## What the buffers hold after each point -/

/-- After the body at position `n`: the case the position is in, the kept buffer read at what position `n - 1` left. -/
def outsAt1 (c : Dev nD) : (n : ℕ) → n < cfg1.N → Vec F S1024x1 .f32 × Vec F S1024x1 .f32
  | 0, hn => tup1_A V c ⟨0, hn⟩ ((hcond1_0 ⟨0, hn⟩).mpr (Nat.zero_mod _)) (fun h => (fun h => by (try dsimp only at h); omega) ((hcond1_1 ⟨0, hn⟩).mp h))
  | n + 1, hn =>
    if h0 : (n + 1) % 125 = 0 then
      if h1 : (n + 1) % 125 = 124 then False.elim (by omega)
      else tup1_A V c ⟨n + 1, hn⟩ ((hcond1_0 ⟨n + 1, hn⟩).mpr h0) (fun h => h1 ((hcond1_1 ⟨n + 1, hn⟩).mp h))
    else
      if h1 : (n + 1) % 125 = 124 then
        tup1_C V c ⟨n + 1, hn⟩ (fun h => h0 ((hcond1_0 ⟨n + 1, hn⟩).mp h)) ((hcond1_1 ⟨n + 1, hn⟩).mpr h1) (outsAt1 c n (Nat.lt_of_succ_lt hn)).2
      else
        tup1_B V c ⟨n + 1, hn⟩ (fun h => h0 ((hcond1_0 ⟨n + 1, hn⟩).mp h)) (fun h => h1 ((hcond1_1 ⟨n + 1, hn⟩).mp h)) (outsAt1 c n (Nat.lt_of_succ_lt hn)).2

theorem outsAt1_A (c : Dev nD) (t : Fin cfg1.N) (h0 : t.val % 125 = 0) (h1 : ¬t.val % 125 = 124) :
    outsAt1 V c t.val t.isLt = tup1_A V c t ((hcond1_0 t).mpr h0) (fun h => h1 ((hcond1_1 t).mp h)) := by
  obtain ⟨n, hn⟩ := t
  cases n with
  | zero => exact rfl
  | succ n => exact (dif_pos h0).trans ((dif_neg h1).trans rfl)
theorem outsAt1_B (c : Dev nD) (t : Fin cfg1.N) (h0 : ¬t.val % 125 = 0) (h1 : ¬t.val % 125 = 124) :
    outsAt1 V c t.val t.isLt = tup1_B V c t (fun h => h0 ((hcond1_0 t).mp h)) (fun h => h1 ((hcond1_1 t).mp h)) (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)
theorem outsAt1_C (c : Dev nD) (t : Fin cfg1.N) (h0 : ¬t.val % 125 = 0) (h1 : t.val % 125 = 124) :
    outsAt1 V c t.val t.isLt = tup1_C V c t (fun h => h0 ((hcond1_0 t).mp h)) ((hcond1_1 t).mpr h1) (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-! ## The invariant -/

/-- Before position `n`: at the region's start the scoped rest at anything; afterwards the kept column buffer at what
    position `n - 1` left, the first region's buffers at anything, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2) ∗ others1 c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ others1 c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

theorem leaves1_in (c : Dev nD) (t : Fin cfg1.N) :
    (dat1 V c).leavesExact 0 t = owns (c : Thread nD τ) (ms1_0 t) fullShare (iblk1 V c 0 t)
    ∧ (dat1 V c).leavesExact 1 t = owns (c : Thread nD τ) (ms1_1 t) fullShare (iblk1 V c 1 t)
    ∧ (dat1 V c).leavesExact 2 t = owns (c : Thread nD τ) (ms1_2 t) fullShare (iblk1 V c 2 t)
    ∧ (dat1 V c).leavesExact 3 t = owns (c : Thread nD τ) (ms1_3 t) fullShare (iblk1 V c 3 t)
    ∧ (dat1 V c).leavesExact 4 t = owns (c : Thread nD τ) (ms1_4 t) fullShare (iblk1 V c 4 t)
    ∧ (dat1 V c).leavesExact 5 t = owns (c : Thread nD τ) (ms1_5 t) fullShare (iblk1 V c 5 t) := by
  refine ⟨?_, ?_, ?_, ?_, ?_, ?_⟩
  · unfold Dat.leavesExact; rw [liveAt1_0 t, after1_0]
  · unfold Dat.leavesExact; rw [liveAt1_1 t, after1_1]
  · unfold Dat.leavesExact; rw [liveAt1_2 t, after1_2]
  · unfold Dat.leavesExact; rw [liveAt1_3 t, after1_3]
  · unfold Dat.leavesExact; rw [liveAt1_4 t, after1_4]
  · unfold Dat.leavesExact; rw [liveAt1_5 t, after1_5]

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  obtain ⟨hl0, hl1, hl2, hl3, hl4, hl5⟩ := leaves1_in V c t
  rw [hl0, hl1, hl2, hl3, hl4, hl5]
  have hN : t.val < 250 := lt_of_lt_of_eq t.isLt (show cfg1.N = 250 from N_1)
  by_cases h0 : t.val % 125 = 0
  · have h1 : ¬t.val % 125 = 124 := by omega
    rw [Dat.leavesExact_idle (dat1 V c) 6 t (idleAt1_6 t (fun h => h1 ((hcond1_1 t).mp h))) (noFlush1_6 t (fun h => h1 ((hcond1_1 t).mp h)))]
    rw [outsAt1_A V c t h0 h1]
    unfold tup1_A; dsimp only
    by_cases hz : t.val = 0
    · rw [PhiS1_castSucc V c t, PhiS1_zero V c _ _ hz, PhiA1_eq]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((runAt1_A V c t ((hcond1_0 t).mpr h0) (fun h => h1 ((hcond1_1 t).mp h))).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_A V c t _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((runAt1_A V c t ((hcond1_0 t).mpr h0) (fun h => h1 ((hcond1_1 t).mp h))).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      iintro ⟨H0, H1, H2, H3, H4, H5, H6, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_A V c t _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun h => h0 (by rw [h])
    by_cases h1 : t.val % 125 = 124
    · rw [show (dat1 V c).leavesExact 6 t = owns (c : Thread nD τ) (ms1_6 t) fullShare ((dat1 V c).after 6 t) from by
        unfold Dat.leavesExact; rw [liveAt1_6 t ((hcond1_1 t).mpr h1)], after1_6]
      rw [outsAt1_C V c t h0 h1]
      unfold tup1_C; dsimp only
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((runAt1_C V c t (fun h => h0 ((hcond1_0 t).mp h)) ((hcond1_1 t).mpr h1) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_C V c t _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_C V c t _ _ _)
    · rw [Dat.leavesExact_idle (dat1 V c) 6 t (idleAt1_6 t (fun h => h1 ((hcond1_1 t).mp h))) (noFlush1_6 t (fun h => h1 ((hcond1_1 t).mp h)))]
      rw [outsAt1_B V c t h0 h1]
      unfold tup1_B; dsimp only
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((runAt1_B V c t (fun h => h0 ((hcond1_0 t).mp h)) (fun h => h1 ((hcond1_1 t).mp h)) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_B V c t _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hoth⟩, Hg⟩
  isplitl [HS0 Hoth]
  · isplitl [HS0]
    · iexists _; iexact HS0
    iexact Hoth
  iexact Hg

/-- After the last point the invariant gives the scoped rest back, the kept buffer's contents forgotten. -/
theorem hout1 (c : Dev nD) : (dat1 V c).Φ (Fin.last cfg1.N) ⊢ Pipeline.ΦA spec1 c :=
  Phi_out1 V c _ (by rw [Fin.val_last]; have : cfg1.N = 250 := N_1; omega)

end Cert.KernelIdeal.Hand

end
-- ==== Proof.FrameKernelIdeal.Pieces.lean ====
/-
  What each control case of the two kernels leaves in its buffers, as the body's arithmetic of the point's input blocks
  and of what the kept column buffers held before: the stores found by running the body are whole-buffer stores, so a
  buffer read back is its last store's value, and a load that follows a store reads that store's value.
-/
import proofs.«168479_j71159018160660_2_alg».proof.Proof.FrameKernelIdeal.StatsFrame
import proofs.«168479_j71159018160660_2_alg».proof.Proof.FrameKernelIdeal.LossFrame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz2 : (![0, 0] : Fin 2 → Nat) = fun _ => 0 := funext fun a => by fin_cases a <;> rfl

/-! ## The second region: the kept sum, and the result column at the last step -/
theorem sB1 (c : Dev nD) (t : Fin cfg1.N) (h0 : ¬cond1_0 (grid1.coords t)) (h1 : ¬cond1_1 (grid1.coords t)) (xs : Vec F S1024x1 .f32) :
    (tup1_B V c t h0 h1 xs).2 = k1_pay1 (k1_pay8 (iblk1 V c 0 t) (iblk1 V c 1 t) (iblk1 V c 2 t) (iblk1 V c 3 t) (iblk1 V c 4 t) (iblk1 V c 5 t)) (k1_pay9 (iblk1 V c 0 t) (iblk1 V c 1 t) (iblk1 V c 2 t) (iblk1 V c 3 t) (iblk1 V c 4 t) (iblk1 V c 5 t)) xs := by
  unfold tup1_B
  dsimp only
  rw [View.read_writes_eq_canon _ _ _ (scover1_B V c t h0 h1 xs)]
  unfold runAt1_B kernelRun1_B
  dsimp only
  sl_unfold_words
  rw [View.canon_unit_zero hz2]
  simp only [View.readAt_eq_ld, Memref.IsWhole.read_unread, View.ld_unit_zero (S := S1024x1) hz2, View.ld_unit_zero (S := S1024x2048) hz2, View.ld_unit_zero (S := S256x2048) hz2, View.ld_unit_zero (S := S1024x4096) hz2, View.ld_unit_zero (S := S256x4096) hz2]
  exact congrArg _ (show scM1_0.view.read (Elt F) _ = xs from Memref.IsWhole.read_unread _ xs)

theorem sA1 (c : Dev nD) (t : Fin cfg1.N) (h0 : cond1_0 (grid1.coords t)) (h1 : ¬cond1_1 (grid1.coords t)) :
    (tup1_A V c t h0 h1).2 = k1_pay1 (k1_pay8 (iblk1 V c 0 t) (iblk1 V c 1 t) (iblk1 V c 2 t) (iblk1 V c 3 t) (iblk1 V c 4 t) (iblk1 V c 5 t)) (k1_pay9 (iblk1 V c 0 t) (iblk1 V c 1 t) (iblk1 V c 2 t) (iblk1 V c 3 t) (iblk1 V c 4 t) (iblk1 V c 5 t)) (k1_pay2 (F := F)) := by
  unfold tup1_A
  dsimp only
  rw [View.read_writes_eq_canon _ _ _ (scover1_A V c t h0 h1)]
  unfold runAt1_A kernelRun1_A
  dsimp only
  sl_unfold_words
  rw [View.canon_cons_unit_zero (S := S1024x1) hz2, View.readCov_unit_zero (S := S1024x1) _ hz2]
  simp only [View.readAt_eq_ld, Memref.IsWhole.read_unread, View.ld_unit_zero (S := S1024x1) hz2, View.ld_unit_zero (S := S1024x2048) hz2, View.ld_unit_zero (S := S256x2048) hz2, View.ld_unit_zero (S := S1024x4096) hz2, View.ld_unit_zero (S := S256x4096) hz2]

theorem sC1 (c : Dev nD) (t : Fin cfg1.N) (h0 : ¬cond1_0 (grid1.coords t)) (h1 : cond1_1 (grid1.coords t)) (xs : Vec F S1024x1 .f32) :
    (tup1_C V c t h0 h1 xs).1 = k1_pay1 (k1_pay8 (iblk1 V c 0 t) (iblk1 V c 1 t) (iblk1 V c 2 t) (iblk1 V c 3 t) (iblk1 V c 4 t) (iblk1 V c 5 t)) (k1_pay9 (iblk1 V c 0 t) (iblk1 V c 1 t) (iblk1 V c 2 t) (iblk1 V c 3 t) (iblk1 V c 4 t) (iblk1 V c 5 t)) xs := by
  unfold tup1_C
  dsimp only
  rw [View.read_writes_eq_canon _ _ _ (cover1_C V c t h0 h1 xs)]
  unfold runAt1_C kernelRun1_C
  dsimp only
  sl_unfold_words
  rw [View.canon_unit_zero hz2, View.readCov_unit_zero (S := S1024x1) _ hz2]
  simp only [View.readAt_eq_ld, Memref.IsWhole.read_unread, View.ld_unit_zero (S := S1024x1) hz2, View.ld_unit_zero (S := S1024x2048) hz2, View.ld_unit_zero (S := S256x2048) hz2, View.ld_unit_zero (S := S1024x4096) hz2, View.ld_unit_zero (S := S256x4096) hz2]
  exact congrArg _ (show scM1_0.view.read (Elt F) _ = xs from Memref.IsWhole.read_unread _ xs)

theorem sC1s (c : Dev nD) (t : Fin cfg1.N) (h0 : ¬cond1_0 (grid1.coords t)) (h1 : cond1_1 (grid1.coords t)) (xs : Vec F S1024x1 .f32) :
    (tup1_C V c t h0 h1 xs).2 = k1_pay1 (k1_pay8 (iblk1 V c 0 t) (iblk1 V c 1 t) (iblk1 V c 2 t) (iblk1 V c 3 t) (iblk1 V c 4 t) (iblk1 V c 5 t)) (k1_pay9 (iblk1 V c 0 t) (iblk1 V c 1 t) (iblk1 V c 2 t) (iblk1 V c 3 t) (iblk1 V c 4 t) (iblk1 V c 5 t)) xs := by
  unfold tup1_C
  dsimp only
  rw [View.read_writes_eq_canon _ _ _ (scover1_C V c t h0 h1 xs)]
  unfold runAt1_C kernelRun1_C
  dsimp only
  sl_unfold_words
  rw [View.canon_unit_zero hz2]
  simp only [View.readAt_eq_ld, Memref.IsWhole.read_unread, View.ld_unit_zero (S := S1024x1) hz2, View.ld_unit_zero (S := S1024x2048) hz2, View.ld_unit_zero (S := S256x2048) hz2, View.ld_unit_zero (S := S1024x4096) hz2, View.ld_unit_zero (S := S256x4096) hz2]
  exact congrArg _ (show scM1_0.view.read (Elt F) _ = xs from Memref.IsWhole.read_unread _ xs)

/-! ## The first region: the four kept column buffers, and the two result columns at the last step -/

theorem sB0_0 (c : Dev nD) (t : Fin cfg0.N) (h0 : ¬cond0_0 (grid0.coords t)) (h1 : ¬cond0_1 (grid0.coords t)) (xs0 xs1 xs2 xs3 : Vec F S1024x1 .f32) :
    (tup0_B V c t h0 h1 xs0 xs1 xs2 xs3).2.2.1 = k0_pay1 (k0_pay13 (iblk0 V c 0 t) (iblk0 V c 1 t) xs0) := by
  unfold tup0_B
  dsimp only
  rw [View.read_writes_eq_canon _ _ _ (scover0_B_0 V c t h0 h1 xs0 xs1 xs2 xs3)]
  unfold runAt0_B kernelRun0_B
  dsimp only
  sl_unfold_words
  simp only [View.canon_cons_unit_zero (S := S1024x1) hz2, View.readCov_unit_zero (S := S1024x1) _ hz2]
  simp only [View.readAt_eq_ld, Memref.IsWhole.read_unread, View.ld_unit_zero (S := S1024x1) hz2, View.ld_unit_zero (S := S1024x2048) hz2, View.ld_unit_zero (S := S256x2048) hz2, View.ld_unit_zero (S := S1024x4096) hz2, View.ld_unit_zero (S := S256x4096) hz2]
  rw [(show View.read (Elt F) (View.whole cc0_scratch0) _ = xs0 from Memref.IsWhole.read_unread (m := scM0_0) _ xs0)]

theorem sB0_1 (c : Dev nD) (t : Fin cfg0.N) (h0 : ¬cond0_0 (grid0.coords t)) (h1 : ¬cond0_1 (grid0.coords t)) (xs0 xs1 xs2 xs3 : Vec F S1024x1 .f32) :
    (tup0_B V c t h0 h1 xs0 xs1 xs2 xs3).2.2.2.1 = k0_pay14 (iblk0 V c 0 t) (iblk0 V c 1 t) xs0 xs0 xs1 := by
  unfold tup0_B
  dsimp only
  rw [View.read_writes_eq_canon _ _ _ (scover0_B_1 V c t h0 h1 xs0 xs1 xs2 xs3)]
  unfold runAt0_B kernelRun0_B
  dsimp only
  sl_unfold_words
  simp only [View.canon_cons_unit_zero (S := S1024x1) hz2, View.readCov_unit_zero (S := S1024x1) _ hz2]
  simp only [View.readAt_eq_ld, Memref.IsWhole.read_unread, View.ld_unit_zero (S := S1024x1) hz2, View.ld_unit_zero (S := S1024x2048) hz2, View.ld_unit_zero (S := S256x2048) hz2, View.ld_unit_zero (S := S1024x4096) hz2, View.ld_unit_zero (S := S256x4096) hz2]
  rw [(show View.read (Elt F) (View.whole cc0_scratch0) _ = xs0 from Memref.IsWhole.read_unread (m := scM0_0) _ xs0), (show View.read (Elt F) (View.whole cc0_scratch1) _ = xs1 from Memref.IsWhole.read_unread (m := scM0_1) _ xs1)]

theorem sB0_2 (c : Dev nD) (t : Fin cfg0.N) (h0 : ¬cond0_0 (grid0.coords t)) (h1 : ¬cond0_1 (grid0.coords t)) (xs0 xs1 xs2 xs3 : Vec F S1024x1 .f32) :
    (tup0_B V c t h0 h1 xs0 xs1 xs2 xs3).2.2.2.2.1 = k0_pay4 (k0_pay12 (iblk0 V c 2 t) (iblk0 V c 3 t)) xs2 := by
  unfold tup0_B
  dsimp only
  rw [View.read_writes_eq_canon _ _ _ (scover0_B_2 V c t h0 h1 xs0 xs1 xs2 xs3)]
  unfold runAt0_B kernelRun0_B
  dsimp only
  sl_unfold_words
  simp only [View.canon_cons_unit_zero (S := S1024x1) hz2, View.readCov_unit_zero (S := S1024x1) _ hz2]
  simp only [View.readAt_eq_ld, Memref.IsWhole.read_unread, View.ld_unit_zero (S := S1024x1) hz2, View.ld_unit_zero (S := S1024x2048) hz2, View.ld_unit_zero (S := S256x2048) hz2, View.ld_unit_zero (S := S1024x4096) hz2, View.ld_unit_zero (S := S256x4096) hz2]
  rw [(show View.read (Elt F) (View.whole cc0_scratch2) _ = xs2 from Memref.IsWhole.read_unread (m := scM0_2) _ xs2)]

theorem sB0_3 (c : Dev nD) (t : Fin cfg0.N) (h0 : ¬cond0_0 (grid0.coords t)) (h1 : ¬cond0_1 (grid0.coords t)) (xs0 xs1 xs2 xs3 : Vec F S1024x1 .f32) :
    (tup0_B V c t h0 h1 xs0 xs1 xs2 xs3).2.2.2.2.2 = k0_pay3 (k0_pay12 (iblk0 V c 2 t) (iblk0 V c 3 t)) xs2 xs2 xs3 := by
  unfold tup0_B
  dsimp only
  rw [View.read_writes_eq_canon _ _ _ (scover0_B_3 V c t h0 h1 xs0 xs1 xs2 xs3)]
  unfold runAt0_B kernelRun0_B
  dsimp only
  sl_unfold_words
  simp only [View.canon_cons_unit_zero (S := S1024x1) hz2, View.readCov_unit_zero (S := S1024x1) _ hz2]
  simp only [View.readAt_eq_ld, Memref.IsWhole.read_unread, View.ld_unit_zero (S := S1024x1) hz2, View.ld_unit_zero (S := S1024x2048) hz2, View.ld_unit_zero (S := S256x2048) hz2, View.ld_unit_zero (S := S1024x4096) hz2, View.ld_unit_zero (S := S256x4096) hz2]
  rw [(show View.read (Elt F) (View.whole cc0_scratch2) _ = xs2 from Memref.IsWhole.read_unread (m := scM0_2) _ xs2), (show View.read (Elt F) (View.whole cc0_scratch3) _ = xs3 from Memref.IsWhole.read_unread (m := scM0_3) _ xs3)]

theorem sA0_0 (c : Dev nD) (t : Fin cfg0.N) (h0 : cond0_0 (grid0.coords t)) (h1 : ¬cond0_1 (grid0.coords t)) :
    (tup0_A V c t h0 h1).2.2.1 = k0_pay1 (k0_pay13 (iblk0 V c 0 t) (iblk0 V c 1 t) (k0_pay7 (F := F))) := by
  unfold tup0_A
  dsimp only
  rw [View.read_writes_eq_canon _ _ _ (scover0_A_0 V c t h0 h1)]
  unfold runAt0_A kernelRun0_A
  dsimp only
  sl_unfold_words
  simp only [View.canon_cons_unit_zero (S := S1024x1) hz2, View.readCov_unit_zero (S := S1024x1) _ hz2]
  simp only [View.readAt_eq_ld, Memref.IsWhole.read_unread, View.ld_unit_zero (S := S1024x1) hz2, View.ld_unit_zero (S := S1024x2048) hz2, View.ld_unit_zero (S := S256x2048) hz2, View.ld_unit_zero (S := S1024x4096) hz2, View.ld_unit_zero (S := S256x4096) hz2]

theorem sA0_1 (c : Dev nD) (t : Fin cfg0.N) (h0 : cond0_0 (grid0.coords t)) (h1 : ¬cond0_1 (grid0.coords t)) :
    (tup0_A V c t h0 h1).2.2.2.1 = k0_pay14 (iblk0 V c 0 t) (iblk0 V c 1 t) (k0_pay7 (F := F)) (k0_pay7 (F := F)) (k0_pay8 (F := F)) := by
  unfold tup0_A
  dsimp only
  rw [View.read_writes_eq_canon _ _ _ (scover0_A_1 V c t h0 h1)]
  unfold runAt0_A kernelRun0_A
  dsimp only
  sl_unfold_words
  simp only [View.canon_cons_unit_zero (S := S1024x1) hz2, View.readCov_unit_zero (S := S1024x1) _ hz2]
  simp only [View.readAt_eq_ld, Memref.IsWhole.read_unread, View.ld_unit_zero (S := S1024x1) hz2, View.ld_unit_zero (S := S1024x2048) hz2, View.ld_unit_zero (S := S256x2048) hz2, View.ld_unit_zero (S := S1024x4096) hz2, View.ld_unit_zero (S := S256x4096) hz2]

theorem sA0_2 (c : Dev nD) (t : Fin cfg0.N) (h0 : cond0_0 (grid0.coords t)) (h1 : ¬cond0_1 (grid0.coords t)) :
    (tup0_A V c t h0 h1).2.2.2.2.1 = k0_pay4 (k0_pay12 (iblk0 V c 2 t) (iblk0 V c 3 t)) (k0_pay9 (F := F)) := by
  unfold tup0_A
  dsimp only
  rw [View.read_writes_eq_canon _ _ _ (scover0_A_2 V c t h0 h1)]
  unfold runAt0_A kernelRun0_A
  dsimp only
  sl_unfold_words
  simp only [View.canon_cons_unit_zero (S := S1024x1) hz2, View.readCov_unit_zero (S := S1024x1) _ hz2]
  simp only [View.readAt_eq_ld, Memref.IsWhole.read_unread, View.ld_unit_zero (S := S1024x1) hz2, View.ld_unit_zero (S := S1024x2048) hz2, View.ld_unit_zero (S := S256x2048) hz2, View.ld_unit_zero (S := S1024x4096) hz2, View.ld_unit_zero (S := S256x4096) hz2]

theorem sA0_3 (c : Dev nD) (t : Fin cfg0.N) (h0 : cond0_0 (grid0.coords t)) (h1 : ¬cond0_1 (grid0.coords t)) :
    (tup0_A V c t h0 h1).2.2.2.2.2 = k0_pay3 (k0_pay12 (iblk0 V c 2 t) (iblk0 V c 3 t)) (k0_pay9 (F := F)) (k0_pay9 (F := F)) (k0_pay10 (F := F)) := by
  unfold tup0_A
  dsimp only
  rw [View.read_writes_eq_canon _ _ _ (scover0_A_3 V c t h0 h1)]
  unfold runAt0_A kernelRun0_A
  dsimp only
  sl_unfold_words
  simp only [View.canon_cons_unit_zero (S := S1024x1) hz2, View.readCov_unit_zero (S := S1024x1) _ hz2]
  simp only [View.readAt_eq_ld, Memref.IsWhole.read_unread, View.ld_unit_zero (S := S1024x1) hz2, View.ld_unit_zero (S := S1024x2048) hz2, View.ld_unit_zero (S := S256x2048) hz2, View.ld_unit_zero (S := S1024x4096) hz2, View.ld_unit_zero (S := S256x4096) hz2]

theorem sC0_0 (c : Dev nD) (t : Fin cfg0.N) (h0 : ¬cond0_0 (grid0.coords t)) (h1 : cond0_1 (grid0.coords t)) (xs0 xs1 xs2 xs3 : Vec F S1024x1 .f32) :
    (tup0_C V c t h0 h1 xs0 xs1 xs2 xs3).2.2.1 = k0_pay1 (k0_pay13 (iblk0 V c 0 t) (iblk0 V c 1 t) xs0) := by
  unfold tup0_C
  dsimp only
  rw [View.read_writes_eq_canon _ _ _ (scover0_C_0 V c t h0 h1 xs0 xs1 xs2 xs3)]
  unfold runAt0_C kernelRun0_C
  dsimp only
  sl_unfold_words
  simp only [View.canon_cons_unit_zero (S := S1024x1) hz2, View.readCov_unit_zero (S := S1024x1) _ hz2]
  simp only [View.readAt_eq_ld, Memref.IsWhole.read_unread, View.ld_unit_zero (S := S1024x1) hz2, View.ld_unit_zero (S := S1024x2048) hz2, View.ld_unit_zero (S := S256x2048) hz2, View.ld_unit_zero (S := S1024x4096) hz2, View.ld_unit_zero (S := S256x4096) hz2]
  rw [(show View.read (Elt F) (View.whole cc0_scratch0) _ = xs0 from Memref.IsWhole.read_unread (m := scM0_0) _ xs0)]

theorem sC0_1 (c : Dev nD) (t : Fin cfg0.N) (h0 : ¬cond0_0 (grid0.coords t)) (h1 : cond0_1 (grid0.coords t)) (xs0 xs1 xs2 xs3 : Vec F S1024x1 .f32) :
    (tup0_C V c t h0 h1 xs0 xs1 xs2 xs3).2.2.2.1 = k0_pay14 (iblk0 V c 0 t) (iblk0 V c 1 t) xs0 xs0 xs1 := by
  unfold tup0_C
  dsimp only
  rw [View.read_writes_eq_canon _ _ _ (scover0_C_1 V c t h0 h1 xs0 xs1 xs2 xs3)]
  unfold runAt0_C kernelRun0_C
  dsimp only
  sl_unfold_words
  simp only [View.canon_cons_unit_zero (S := S1024x1) hz2, View.readCov_unit_zero (S := S1024x1) _ hz2]
  simp only [View.readAt_eq_ld, Memref.IsWhole.read_unread, View.ld_unit_zero (S := S1024x1) hz2, View.ld_unit_zero (S := S1024x2048) hz2, View.ld_unit_zero (S := S256x2048) hz2, View.ld_unit_zero (S := S1024x4096) hz2, View.ld_unit_zero (S := S256x4096) hz2]
  rw [(show View.read (Elt F) (View.whole cc0_scratch0) _ = xs0 from Memref.IsWhole.read_unread (m := scM0_0) _ xs0), (show View.read (Elt F) (View.whole cc0_scratch1) _ = xs1 from Memref.IsWhole.read_unread (m := scM0_1) _ xs1)]

theorem sC0_2 (c : Dev nD) (t : Fin cfg0.N) (h0 : ¬cond0_0 (grid0.coords t)) (h1 : cond0_1 (grid0.coords t)) (xs0 xs1 xs2 xs3 : Vec F S1024x1 .f32) :
    (tup0_C V c t h0 h1 xs0 xs1 xs2 xs3).2.2.2.2.1 = k0_pay4 (k0_pay12 (iblk0 V c 2 t) (iblk0 V c 3 t)) xs2 := by
  unfold tup0_C
  dsimp only
  rw [View.read_writes_eq_canon _ _ _ (scover0_C_2 V c t h0 h1 xs0 xs1 xs2 xs3)]
  unfold runAt0_C kernelRun0_C
  dsimp only
  sl_unfold_words
  simp only [View.canon_cons_unit_zero (S := S1024x1) hz2, View.readCov_unit_zero (S := S1024x1) _ hz2]
  simp only [View.readAt_eq_ld, Memref.IsWhole.read_unread, View.ld_unit_zero (S := S1024x1) hz2, View.ld_unit_zero (S := S1024x2048) hz2, View.ld_unit_zero (S := S256x2048) hz2, View.ld_unit_zero (S := S1024x4096) hz2, View.ld_unit_zero (S := S256x4096) hz2]
  rw [(show View.read (Elt F) (View.whole cc0_scratch2) _ = xs2 from Memref.IsWhole.read_unread (m := scM0_2) _ xs2)]

theorem sC0_3 (c : Dev nD) (t : Fin cfg0.N) (h0 : ¬cond0_0 (grid0.coords t)) (h1 : cond0_1 (grid0.coords t)) (xs0 xs1 xs2 xs3 : Vec F S1024x1 .f32) :
    (tup0_C V c t h0 h1 xs0 xs1 xs2 xs3).2.2.2.2.2 = k0_pay3 (k0_pay12 (iblk0 V c 2 t) (iblk0 V c 3 t)) xs2 xs2 xs3 := by
  unfold tup0_C
  dsimp only
  rw [View.read_writes_eq_canon _ _ _ (scover0_C_3 V c t h0 h1 xs0 xs1 xs2 xs3)]
  unfold runAt0_C kernelRun0_C
  dsimp only
  sl_unfold_words
  simp only [View.canon_cons_unit_zero (S := S1024x1) hz2, View.readCov_unit_zero (S := S1024x1) _ hz2]
  simp only [View.readAt_eq_ld, Memref.IsWhole.read_unread, View.ld_unit_zero (S := S1024x1) hz2, View.ld_unit_zero (S := S1024x2048) hz2, View.ld_unit_zero (S := S256x2048) hz2, View.ld_unit_zero (S := S1024x4096) hz2, View.ld_unit_zero (S := S256x4096) hz2]
  rw [(show View.read (Elt F) (View.whole cc0_scratch2) _ = xs2 from Memref.IsWhole.read_unread (m := scM0_2) _ xs2), (show View.read (Elt F) (View.whole cc0_scratch3) _ = xs3 from Memref.IsWhole.read_unread (m := scM0_3) _ xs3)]

theorem oC0_4 (c : Dev nD) (t : Fin cfg0.N) (h0 : ¬cond0_0 (grid0.coords t)) (h1 : cond0_1 (grid0.coords t)) (xs0 xs1 xs2 xs3 : Vec F S1024x1 .f32) :
    (tup0_C V c t h0 h1 xs0 xs1 xs2 xs3).1 = k0_pay5 (k0_pay1 (k0_pay13 (iblk0 V c 0 t) (iblk0 V c 1 t) xs0)) (k0_pay14 (iblk0 V c 0 t) (iblk0 V c 1 t) xs0 xs0 xs1) := by
  unfold tup0_C
  dsimp only
  rw [View.read_writes_eq_canon _ _ _ (cover0_C_4 V c t h0 h1 xs0 xs1 xs2 xs3)]
  unfold runAt0_C kernelRun0_C
  dsimp only
  sl_unfold_words
  simp only [View.canon_cons_unit_zero (S := S1024x1) hz2, View.readCov_unit_zero (S := S1024x1) _ hz2]
  simp only [View.readAt_eq_ld, Memref.IsWhole.read_unread, View.ld_unit_zero (S := S1024x1) hz2, View.ld_unit_zero (S := S1024x2048) hz2, View.ld_unit_zero (S := S256x2048) hz2, View.ld_unit_zero (S := S1024x4096) hz2, View.ld_unit_zero (S := S256x4096) hz2]
  rw [(show View.read (Elt F) (View.whole cc0_scratch0) _ = xs0 from Memref.IsWhole.read_unread (m := scM0_0) _ xs0), (show View.read (Elt F) (View.whole cc0_scratch1) _ = xs1 from Memref.IsWhole.read_unread (m := scM0_1) _ xs1)]
theorem oC0_5 (c : Dev nD) (t : Fin cfg0.N) (h0 : ¬cond0_0 (grid0.coords t)) (h1 : cond0_1 (grid0.coords t)) (xs0 xs1 xs2 xs3 : Vec F S1024x1 .f32) :
    (tup0_C V c t h0 h1 xs0 xs1 xs2 xs3).2.1 = k0_pay6 (k0_pay4 (k0_pay12 (iblk0 V c 2 t) (iblk0 V c 3 t)) xs2) (k0_pay3 (k0_pay12 (iblk0 V c 2 t) (iblk0 V c 3 t)) xs2 xs2 xs3) := by
  unfold tup0_C
  dsimp only
  rw [View.read_writes_eq_canon _ _ _ (cover0_C_5 V c t h0 h1 xs0 xs1 xs2 xs3)]
  unfold runAt0_C kernelRun0_C
  dsimp only
  sl_unfold_words
  simp only [View.canon_cons_unit_zero (S := S1024x1) hz2, View.readCov_unit_zero (S := S1024x1) _ hz2]
  simp only [View.readAt_eq_ld, Memref.IsWhole.read_unread, View.ld_unit_zero (S := S1024x1) hz2, View.ld_unit_zero (S := S1024x2048) hz2, View.ld_unit_zero (S := S256x2048) hz2, View.ld_unit_zero (S := S1024x4096) hz2, View.ld_unit_zero (S := S256x4096) hz2]
  rw [(show View.read (Elt F) (View.whole cc0_scratch2) _ = xs2 from Memref.IsWhole.read_unread (m := scM0_2) _ xs2), (show View.read (Elt F) (View.whole cc0_scratch3) _ = xs3 from Memref.IsWhole.read_unread (m := scM0_3) _ xs3)]

end Cert.KernelIdeal.Hand

end
-- ==== Proof.FrameKernelIdeal.Blocks.lean ====
/-
  The windows' blocks read at coordinates.  A grid point `t` of either region is (row block `t / 125`, vocabulary step
  `t % 125`); a window's block at `t` is the rectangle of its array at block index (printed index map at `t`) × block
  size, so an entry of the block at coordinate `(r, h)` is the array's entry at (index × rows + r, h).  The result
  columns' blocks, written back at step 124 of each row block, cover their arrays.
-/
import proofs.«168479_j71159018160660_2_alg».proof.Proof.FrameKernelIdeal.StatsBase
import proofs.«168479_j71159018160660_2_alg».proof.Proof.FrameKernelIdeal.LossBase
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (V : (c : Dev nD) → (b : Ref sig .tc) → Buf (Elt F) ((c : Thread nD τ).loc b))

/-! ## The first region -/

/-- The printed index maps, decided over the grid. -/
theorem idx0 : ∀ t : Fin cfg0.N, win0_0.index t (0 : Fin 2) = t.val / 125 ∧ win0_0.index t (1 : Fin 2) = 0
    ∧ win0_1.index t (0 : Fin 2) = t.val % 125 ∧ win0_1.index t (1 : Fin 2) = 0
    ∧ win0_2.index t (0 : Fin 2) = t.val / 125 ∧ win0_2.index t (1 : Fin 2) = 0
    ∧ win0_3.index t (0 : Fin 2) = t.val % 125 ∧ win0_3.index t (1 : Fin 2) = 0
    ∧ win0_4.index t (0 : Fin 2) = t.val / 125 ∧ win0_4.index t (1 : Fin 2) = 0
    ∧ win0_5.index t (0 : Fin 2) = t.val / 125 ∧ win0_5.index t (1 : Fin 2) = 0 :=
  (by decide +kernel : ∀ t : Fin grid0.N, _)

/-- Window 0's block at point `t`, read at `(r, h)`: its array at row `t / 125 · 1024 + r`. -/
theorem blk0_0 (c : Dev nD) (t : Fin cfg0.N) (r : Fin 1024) (h : Fin 2048) :
    (iblk0 V c 0 t : Vec F S1024x2048 .bf16) (ix2 r h)
      = (V c main_v0 : S2048x2048.Idx → Elt F .bf16) (ix2 ⟨t.val / 125 * 1024 + r.val, by have := t.isLt; have := r.isLt; have : cfg0.N = 250 := N_0; omega⟩ h) := by
  obtain ⟨e0, e1, -⟩ := idx0 t
  unfold iblk0
  rw [View.read_apply]
  show V c main_v0 _ = V c main_v0 _
  refine congrArg _ ?_
  funext a
  apply Fin.ext
  match a with
  | ⟨0, _⟩ => show win0_0.index t (0 : Fin 2) * 1024 + 1 * r.val = t.val / 125 * 1024 + r.val; rw [e0]; omega
  | ⟨1, _⟩ => show win0_0.index t (1 : Fin 2) * 2048 + 1 * h.val = h.val; rw [e1]; omega

/-- Window 1's block at point `t`, read at `(r, h)`: its array at row `t % 125 · 256 + r`. -/
theorem blk0_1 (c : Dev nD) (t : Fin cfg0.N) (r : Fin 256) (h : Fin 2048) :
    (iblk0 V c 1 t : Vec F S256x2048 .bf16) (ix2 r h)
      = (V c main_v1 : S32000x2048.Idx → Elt F .bf16) (ix2 ⟨t.val % 125 * 256 + r.val, by have := t.isLt; have := r.isLt; have : cfg0.N = 250 := N_0; omega⟩ h) := by
  obtain ⟨-, -, e0, e1, -⟩ := idx0 t
  unfold iblk0
  rw [View.read_apply]
  show V c main_v1 _ = V c main_v1 _
  refine congrArg _ ?_
  funext a
  apply Fin.ext
  match a with
  | ⟨0, _⟩ => show win0_1.index t (0 : Fin 2) * 256 + 1 * r.val = t.val % 125 * 256 + r.val; rw [e0]; omega
  | ⟨1, _⟩ => show win0_1.index t (1 : Fin 2) * 2048 + 1 * h.val = h.val; rw [e1]; omega

/-- Window 2's block at point `t`, read at `(r, h)`: its array at row `t / 125 · 1024 + r`. -/
theorem blk0_2 (c : Dev nD) (t : Fin cfg0.N) (r : Fin 1024) (h : Fin 4096) :
    (iblk0 V c 2 t : Vec F S1024x4096 .bf16) (ix2 r h)
      = (V c main_v2 : S2048x4096.Idx → Elt F .bf16) (ix2 ⟨t.val / 125 * 1024 + r.val, by have := t.isLt; have := r.isLt; have : cfg0.N = 250 := N_0; omega⟩ h) := by
  obtain ⟨-, -, -, -, e0, e1, -⟩ := idx0 t
  unfold iblk0
  rw [View.read_apply]
  show V c main_v2 _ = V c main_v2 _
  refine congrArg _ ?_
  funext a
  apply Fin.ext
  match a with
  | ⟨0, _⟩ => show win0_2.index t (0 : Fin 2) * 1024 + 1 * r.val = t.val / 125 * 1024 + r.val; rw [e0]; omega
  | ⟨1, _⟩ => show win0_2.index t (1 : Fin 2) * 4096 + 1 * h.val = h.val; rw [e1]; omega

/-- Window 3's block at point `t`, read at `(r, h)`: its array at row `t % 125 · 256 + r`. -/
theorem blk0_3 (c : Dev nD) (t : Fin cfg0.N) (r : Fin 256) (h : Fin 4096) :
    (iblk0 V c 3 t : Vec F S256x4096 .bf16) (ix2 r h)
      = (V c main_v3 : S32000x4096.Idx → Elt F .bf16) (ix2 ⟨t.val % 125 * 256 + r.val, by have := t.isLt; have := r.isLt; have : cfg0.N = 250 := N_0; omega⟩ h) := by
  obtain ⟨-, -, -, -, -, -, e0, e1, -⟩ := idx0 t
  unfold iblk0
  rw [View.read_apply]
  show V c main_v3 _ = V c main_v3 _
  refine congrArg _ ?_
  funext a
  apply Fin.ext
  match a with
  | ⟨0, _⟩ => show win0_3.index t (0 : Fin 2) * 256 + 1 * r.val = t.val % 125 * 256 + r.val; rw [e0]; omega
  | ⟨1, _⟩ => show win0_3.index t (1 : Fin 2) * 4096 + 1 * h.val = h.val; rw [e1]; omega

/-- Result window 4's block at point `t` sits at rows `t / 125 · 1024 + r` of its array. -/
theorem emb0_4 (t : Fin cfg0.N) (r : Fin 1024) (u : Fin 1) :
    (((cfg0.win 4).blk t).view.emb (ix2 r u) : S2048x1.Idx)
      = ix2 ⟨t.val / 125 * 1024 + r.val, by have := t.isLt; have := r.isLt; have : cfg0.N = 250 := N_0; omega⟩ u := by
  obtain ⟨-, -, -, -, -, -, -, -, e0, e1, -⟩ := idx0 t
  funext a
  apply Fin.ext
  match a with
  | ⟨0, _⟩ => show win0_4.index t (0 : Fin 2) * 1024 + 1 * r.val = t.val / 125 * 1024 + r.val; rw [e0]; omega
  | ⟨1, _⟩ => show win0_4.index t (1 : Fin 2) * 1 + 1 * u.val = u.val; rw [e1]; omega

/-- An index of the array is in point `t`'s block iff each coordinate is in the block's range on its axis. -/
theorem mem_blk0_4 (t : Fin cfg0.N) (i : S2048x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v4_0).slice (win0_4.rect t)).set ↔ _
  rw [View.set_slice_whole, Rect.mem_set_unit]
  exact Iff.rfl

/-- Every index of result window 4's array is in the block of a point that writes it back: step 124 of its row block. -/
theorem covered0_4 (i : S2048x1.Idx) : ∃ t : Fin cfg0.N, (cfg0.win 4).flush t = true ∧ i ∈ ((cfg0.win 4).blk t).view.set := by
  have hi0 : (i 0).val < 2048 := (i 0).isLt
  have hi1 : (i 1).val < 1 := (i 1).isLt
  have hN : cfg0.N = 250 := N_0
  let t : Fin cfg0.N := ⟨(i 0).val / 1024 * 125 + 124, by omega⟩
  have ht : t.val = (i 0).val / 1024 * 125 + 124 := rfl
  obtain ⟨-, -, -, -, -, -, -, -, e0, e1, -⟩ := idx0 t
  refine ⟨t, (flush0_4 t).2 (by omega), ?_⟩
  rw [mem_blk0_4]
  intro a
  match a with
  | ⟨0, _⟩ => show win0_4.index t (0 : Fin 2) * 1024 ≤ (i 0).val ∧ (i 0).val < win0_4.index t (0 : Fin 2) * 1024 + 1024; rw [e0]; omega
  | ⟨1, _⟩ => show win0_4.index t (1 : Fin 2) * 1 ≤ (i 1).val ∧ (i 1).val < win0_4.index t (1 : Fin 2) * 1 + 1; rw [e1]; omega

/-- Result window 5's block at point `t` sits at rows `t / 125 · 1024 + r` of its array. -/
theorem emb0_5 (t : Fin cfg0.N) (r : Fin 1024) (u : Fin 1) :
    (((cfg0.win 5).blk t).view.emb (ix2 r u) : S2048x1.Idx)
      = ix2 ⟨t.val / 125 * 1024 + r.val, by have := t.isLt; have := r.isLt; have : cfg0.N = 250 := N_0; omega⟩ u := by
  obtain ⟨-, -, -, -, -, -, -, -, -, -, e0, e1⟩ := idx0 t
  funext a
  apply Fin.ext
  match a with
  | ⟨0, _⟩ => show win0_5.index t (0 : Fin 2) * 1024 + 1 * r.val = t.val / 125 * 1024 + r.val; rw [e0]; omega
  | ⟨1, _⟩ => show win0_5.index t (1 : Fin 2) * 1 + 1 * u.val = u.val; rw [e1]; omega

/-- An index of the array is in point `t`'s block iff each coordinate is in the block's range on its axis. -/
theorem mem_blk0_5 (t : Fin cfg0.N) (i : S2048x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v4_1).slice (win0_5.rect t)).set ↔ _
  rw [View.set_slice_whole, Rect.mem_set_unit]
  exact Iff.rfl

/-- Every index of result window 5's array is in the block of a point that writes it back: step 124 of its row block. -/
theorem covered0_5 (i : S2048x1.Idx) : ∃ t : Fin cfg0.N, (cfg0.win 5).flush t = true ∧ i ∈ ((cfg0.win 5).blk t).view.set := by
  have hi0 : (i 0).val < 2048 := (i 0).isLt
  have hi1 : (i 1).val < 1 := (i 1).isLt
  have hN : cfg0.N = 250 := N_0
  let t : Fin cfg0.N := ⟨(i 0).val / 1024 * 125 + 124, by omega⟩
  have ht : t.val = (i 0).val / 1024 * 125 + 124 := rfl
  obtain ⟨-, -, -, -, -, -, -, -, -, -, e0, e1⟩ := idx0 t
  refine ⟨t, (flush0_5 t).2 (by omega), ?_⟩
  rw [mem_blk0_5]
  intro a
  match a with
  | ⟨0, _⟩ => show win0_5.index t (0 : Fin 2) * 1024 ≤ (i 0).val ∧ (i 0).val < win0_5.index t (0 : Fin 2) * 1024 + 1024; rw [e0]; omega
  | ⟨1, _⟩ => show win0_5.index t (1 : Fin 2) * 1 ≤ (i 1).val ∧ (i 1).val < win0_5.index t (1 : Fin 2) * 1 + 1; rw [e1]; omega

/-! ## The second region -/

/-- The printed index maps, decided over the grid. -/
theorem idx1 : ∀ t : Fin cfg1.N, win1_0.index t (0 : Fin 2) = t.val / 125 ∧ win1_0.index t (1 : Fin 2) = 0
    ∧ win1_1.index t (0 : Fin 2) = t.val % 125 ∧ win1_1.index t (1 : Fin 2) = 0
    ∧ win1_2.index t (0 : Fin 2) = t.val / 125 ∧ win1_2.index t (1 : Fin 2) = 0
    ∧ win1_3.index t (0 : Fin 2) = t.val % 125 ∧ win1_3.index t (1 : Fin 2) = 0
    ∧ win1_4.index t (0 : Fin 2) = t.val / 125 ∧ win1_4.index t (1 : Fin 2) = 0
    ∧ win1_5.index t (0 : Fin 2) = t.val / 125 ∧ win1_5.index t (1 : Fin 2) = 0
    ∧ win1_6.index t (0 : Fin 2) = t.val / 125 ∧ win1_6.index t (1 : Fin 2) = 0 :=
  (by decide +kernel : ∀ t : Fin grid1.N, _)

/-- Window 0's block at point `t`, read at `(r, h)`: its array at row `t / 125 · 1024 + r`. -/
theorem blk1_0 (c : Dev nD) (t : Fin cfg1.N) (r : Fin 1024) (h : Fin 2048) :
    (iblk1 V c 0 t : Vec F S1024x2048 .bf16) (ix2 r h)
      = (V c main_v0 : S2048x2048.Idx → Elt F .bf16) (ix2 ⟨t.val / 125 * 1024 + r.val, by have := t.isLt; have := r.isLt; have : cfg1.N = 250 := N_1; omega⟩ h) := by
  obtain ⟨e0, e1, -⟩ := idx1 t
  unfold iblk1
  rw [View.read_apply]
  show V c main_v0 _ = V c main_v0 _
  refine congrArg _ ?_
  funext a
  apply Fin.ext
  match a with
  | ⟨0, _⟩ => show win1_0.index t (0 : Fin 2) * 1024 + 1 * r.val = t.val / 125 * 1024 + r.val; rw [e0]; omega
  | ⟨1, _⟩ => show win1_0.index t (1 : Fin 2) * 2048 + 1 * h.val = h.val; rw [e1]; omega

/-- Window 1's block at point `t`, read at `(r, h)`: its array at row `t % 125 · 256 + r`. -/
theorem blk1_1 (c : Dev nD) (t : Fin cfg1.N) (r : Fin 256) (h : Fin 2048) :
    (iblk1 V c 1 t : Vec F S256x2048 .bf16) (ix2 r h)
      = (V c main_v1 : S32000x2048.Idx → Elt F .bf16) (ix2 ⟨t.val % 125 * 256 + r.val, by have := t.isLt; have := r.isLt; have : cfg1.N = 250 := N_1; omega⟩ h) := by
  obtain ⟨-, -, e0, e1, -⟩ := idx1 t
  unfold iblk1
  rw [View.read_apply]
  show V c main_v1 _ = V c main_v1 _
  refine congrArg _ ?_
  funext a
  apply Fin.ext
  match a with
  | ⟨0, _⟩ => show win1_1.index t (0 : Fin 2) * 256 + 1 * r.val = t.val % 125 * 256 + r.val; rw [e0]; omega
  | ⟨1, _⟩ => show win1_1.index t (1 : Fin 2) * 2048 + 1 * h.val = h.val; rw [e1]; omega

/-- Window 2's block at point `t`, read at `(r, h)`: its array at row `t / 125 · 1024 + r`. -/
theorem blk1_2 (c : Dev nD) (t : Fin cfg1.N) (r : Fin 1024) (h : Fin 4096) :
    (iblk1 V c 2 t : Vec F S1024x4096 .bf16) (ix2 r h)
      = (V c main_v2 : S2048x4096.Idx → Elt F .bf16) (ix2 ⟨t.val / 125 * 1024 + r.val, by have := t.isLt; have := r.isLt; have : cfg1.N = 250 := N_1; omega⟩ h) := by
  obtain ⟨-, -, -, -, e0, e1, -⟩ := idx1 t
  unfold iblk1
  rw [View.read_apply]
  show V c main_v2 _ = V c main_v2 _
  refine congrArg _ ?_
  funext a
  apply Fin.ext
  match a with
  | ⟨0, _⟩ => show win1_2.index t (0 : Fin 2) * 1024 + 1 * r.val = t.val / 125 * 1024 + r.val; rw [e0]; omega
  | ⟨1, _⟩ => show win1_2.index t (1 : Fin 2) * 4096 + 1 * h.val = h.val; rw [e1]; omega

/-- Window 3's block at point `t`, read at `(r, h)`: its array at row `t % 125 · 256 + r`. -/
theorem blk1_3 (c : Dev nD) (t : Fin cfg1.N) (r : Fin 256) (h : Fin 4096) :
    (iblk1 V c 3 t : Vec F S256x4096 .bf16) (ix2 r h)
      = (V c main_v3 : S32000x4096.Idx → Elt F .bf16) (ix2 ⟨t.val % 125 * 256 + r.val, by have := t.isLt; have := r.isLt; have : cfg1.N = 250 := N_1; omega⟩ h) := by
  obtain ⟨-, -, -, -, -, -, e0, e1, -⟩ := idx1 t
  unfold iblk1
  rw [View.read_apply]
  show V c main_v3 _ = V c main_v3 _
  refine congrArg _ ?_
  funext a
  apply Fin.ext
  match a with
  | ⟨0, _⟩ => show win1_3.index t (0 : Fin 2) * 256 + 1 * r.val = t.val % 125 * 256 + r.val; rw [e0]; omega
  | ⟨1, _⟩ => show win1_3.index t (1 : Fin 2) * 4096 + 1 * h.val = h.val; rw [e1]; omega

/-- Window 4's block at point `t`, read at `(r, u)`: its array at row `t / 125 · 1024 + r`. -/
theorem blk1_4 (c : Dev nD) (t : Fin cfg1.N) (r : Fin 1024) (u : Fin 1) :
    (iblk1 V c 4 t : Vec F S1024x1 .f32) (ix2 r u)
      = (V c main_v4_0 : S2048x1.Idx → Elt F .f32) (ix2 ⟨t.val / 125 * 1024 + r.val, by have := t.isLt; have := r.isLt; have : cfg1.N = 250 := N_1; omega⟩ u) := by
  obtain ⟨-, -, -, -, -, -, -, -, e0, e1, -⟩ := idx1 t
  unfold iblk1
  rw [View.read_apply]
  show V c main_v4_0 _ = V c main_v4_0 _
  refine congrArg _ ?_
  funext a
  apply Fin.ext
  match a with
  | ⟨0, _⟩ => show win1_4.index t (0 : Fin 2) * 1024 + 1 * r.val = t.val / 125 * 1024 + r.val; rw [e0]; omega
  | ⟨1, _⟩ => show win1_4.index t (1 : Fin 2) * 1 + 1 * u.val = u.val; rw [e1]; omega

/-- Window 5's block at point `t`, read at `(r, u)`: its array at row `t / 125 · 1024 + r`. -/
theorem blk1_5 (c : Dev nD) (t : Fin cfg1.N) (r : Fin 1024) (u : Fin 1) :
    (iblk1 V c 5 t : Vec F S1024x1 .f32) (ix2 r u)
      = (V c main_v4_1 : S2048x1.Idx → Elt F .f32) (ix2 ⟨t.val / 125 * 1024 + r.val, by have := t.isLt; have := r.isLt; have : cfg1.N = 250 := N_1; omega⟩ u) := by
  obtain ⟨-, -, -, -, -, -, -, -, -, -, e0, e1, -⟩ := idx1 t
  unfold iblk1
  rw [View.read_apply]
  show V c main_v4_1 _ = V c main_v4_1 _
  refine congrArg _ ?_
  funext a
  apply Fin.ext
  match a with
  | ⟨0, _⟩ => show win1_5.index t (0 : Fin 2) * 1024 + 1 * r.val = t.val / 125 * 1024 + r.val; rw [e0]; omega
  | ⟨1, _⟩ => show win1_5.index t (1 : Fin 2) * 1 + 1 * u.val = u.val; rw [e1]; omega

/-- Result window 6's block at point `t` sits at rows `t / 125 · 1024 + r` of its array. -/
theorem emb1_6 (t : Fin cfg1.N) (r : Fin 1024) (u : Fin 1) :
    (((cfg1.win 6).blk t).view.emb (ix2 r u) : S2048x1.Idx)
      = ix2 ⟨t.val / 125 * 1024 + r.val, by have := t.isLt; have := r.isLt; have : cfg1.N = 250 := N_1; omega⟩ u := by
  obtain ⟨-, -, -, -, -, -, -, -, -, -, -, -, e0, e1⟩ := idx1 t
  funext a
  apply Fin.ext
  match a with
  | ⟨0, _⟩ => show win1_6.index t (0 : Fin 2) * 1024 + 1 * r.val = t.val / 125 * 1024 + r.val; rw [e0]; omega
  | ⟨1, _⟩ => show win1_6.index t (1 : Fin 2) * 1 + 1 * u.val = u.val; rw [e1]; omega

/-- An index of the array is in point `t`'s block iff each coordinate is in the block's range on its axis. -/
theorem mem_blk1_6 (t : Fin cfg1.N) (i : S2048x1.Idx) :
    i ∈ ((cfg1.win 6).blk t).view.set ↔ ∀ a : Fin 2, win1_6.index t a * S1024x1.size a ≤ (i a).val ∧ (i a).val < win1_6.index t a * S1024x1.size a + S1024x1.size a := by
  show i ∈ ((View.whole main_v5).slice (win1_6.rect t)).set ↔ _
  rw [View.set_slice_whole, Rect.mem_set_unit]
  exact Iff.rfl

/-- Every index of result window 6's array is in the block of a point that writes it back: step 124 of its row block. -/
theorem covered1_6 (i : S2048x1.Idx) : ∃ t : Fin cfg1.N, (cfg1.win 6).flush t = true ∧ i ∈ ((cfg1.win 6).blk t).view.set := by
  have hi0 : (i 0).val < 2048 := (i 0).isLt
  have hi1 : (i 1).val < 1 := (i 1).isLt
  have hN : cfg1.N = 250 := N_1
  let t : Fin cfg1.N := ⟨(i 0).val / 1024 * 125 + 124, by omega⟩
  have ht : t.val = (i 0).val / 1024 * 125 + 124 := rfl
  obtain ⟨-, -, -, -, -, -, -, -, -, -, -, -, e0, e1⟩ := idx1 t
  refine ⟨t, (flush1_6 t).2 (by omega), ?_⟩
  rw [mem_blk1_6]
  intro a
  match a with
  | ⟨0, _⟩ => show win1_6.index t (0 : Fin 2) * 1024 ≤ (i 0).val ∧ (i 0).val < win1_6.index t (0 : Fin 2) * 1024 + 1024; rw [e0]; omega
  | ⟨1, _⟩ => show win1_6.index t (1 : Fin 2) * 1 ≤ (i 1).val ∧ (i 1).val < win1_6.index t (1 : Fin 2) * 1 + 1; rw [e1]; omega

end Cert.KernelIdeal.Hand

end
-- ==== Proof.Spec.lean ====
/-
  The mathematics of the claim, with no program in sight.

  A row of student logits `s` and a row of teacher logits `t` (32000 entries each, the product of a row of the
  hidden states with every row of the projection matrix) give the generalized Jensen–Shannon term
      c · Σ_k P_k (log P_k − log M_k) + c · Σ_k Q_k (log Q_k − log M_k),   M = c·P + c·Q,
  with log Q = log_softmax s and log P = log_softmax t.  The reference computes log_softmax a whole row at a time
  (`logSoft`); the kernel walks the row in 125 tiles of 256 entries, first keeping a running maximum and a running sum
  of exponentials rescaled to it (`upd`, `onl`) whose last values give the row's log-sum-exp (`lseK`), then adding
  the tiles' terms one after the other (`termK`, `accK`).
-/
import Idealize.ShloMosaic.PureOps.Ideal
import Idealize.ShloMosaic.Lib.ValueIdx

noncomputable section

namespace Cert.Spec

open Idealize.ShloMosaic Idealize.ShloMosaic.ValueIdx

/-- Entry `(p, k)` of the logits: row `p` of `X` against row `k` of `W`. -/
def logit {N V H : ℕ} (X : (⟨2, ![N, H]⟩ : Shape).Idx → EReal) (W : (⟨2, ![V, H]⟩ : Shape).Idx → EReal) (p : Fin N) (k : Fin V) : EReal :=
  ∑ h : Fin H, X (ix2 p h) * W (ix2 k h)

/-- The largest entry of a row (the fold of `max` from `⊥`). -/
def rowMax {V : ℕ} (f : Fin V → EReal) : EReal := (Finset.univ : Finset (Fin V)).fold max ⊥ f

/-- log_softmax of a row, as the reference computes it: shift by the maximum, subtract the logarithm of the sum of exponentials. -/
def logSoft {V : ℕ} (f : Fin V → EReal) (k : Fin V) : EReal :=
  (f k - rowMax f) - Ideal.log (∑ k' : Fin V, Ideal.exp (f k' - rowMax f))

/-- The two summands' integrands at one vocabulary entry, from the log-probabilities `a = log P`, `b = log Q`. -/
def iP (c a b : EReal) : EReal := Ideal.exp a * (a - Ideal.log (c * Ideal.exp a + c * Ideal.exp b))
def iQ (c a b : EReal) : EReal := Ideal.exp b * (b - Ideal.log (c * Ideal.exp a + c * Ideal.exp b))

/-- The reference's term of one row. -/
def jsdRef (c : EReal) (s t : Fin 32000 → EReal) : EReal :=
  c * (∑ k : Fin 32000, iP c (logSoft t k) (logSoft s k)) + c * (∑ k : Fin 32000, iQ c (logSoft t k) (logSoft s k))

/-- Tile `v` of a row: its entries `v·256 + j`. -/
def chunkOf (f : Fin 32000 → EReal) (v : ℕ) (j : Fin 256) : EReal :=
  if h : v * 256 + j.val < 32000 then f ⟨v * 256 + j.val, h⟩ else 0

/-- One update of (running maximum, running sum of exponentials) by a tile. -/
def upd (ML : EReal × EReal) (row : Fin 256 → EReal) : EReal × EReal :=
  (max ML.1 ((Finset.univ : Finset (Fin 256)).fold max ⊥ row),
   Ideal.exp (ML.1 - max ML.1 ((Finset.univ : Finset (Fin 256)).fold max ⊥ row)) * ML.2
     + ∑ j : Fin 256, Ideal.exp (row j - max ML.1 ((Finset.univ : Finset (Fin 256)).fold max ⊥ row)))

/-- The pair after tiles `0 … v`, started from (−∞, 0). -/
def onl (f : Fin 32000 → EReal) : ℕ → EReal × EReal
  | 0 => upd (⊥, 0) (chunkOf f 0)
  | v + 1 => upd (onl f v) (chunkOf f (v + 1))

/-- The kernel's log-sum-exp of a row: last running maximum plus the logarithm of the last running sum. -/
def lseK (f : Fin 32000 → EReal) : EReal := (onl f 124).1 + Ideal.log (onl f 124).2

/-- The kernel's term of tile `v`, the log-sum-exps `ls`, `lt` given. -/
def termK (c : EReal) (s t : Fin 32000 → EReal) (ls lt : EReal) (v : ℕ) : EReal :=
  c * (∑ j : Fin 256, iP c (chunkOf t v j - lt) (chunkOf s v j - ls))
    + c * (∑ j : Fin 256, iQ c (chunkOf t v j - lt) (chunkOf s v j - ls))

/-- The kernel's accumulator after tiles `0 … v`. -/
def accK (c : EReal) (s t : Fin 32000 → EReal) (ls lt : EReal) : ℕ → EReal
  | 0 => 0 + termK c s t ls lt 0
  | v + 1 => accK c s t ls lt v + termK c s t ls lt (v + 1)

end Cert.Spec

end
-- ==== Proof.FrameKernelIdeal.Rows.lean ====
/-
  The rows the two regions work on, from a region's entry contents: row p of the student logits is row p of the (cast)
  student hidden states against every row of the (cast) student projection, and likewise for the teacher.
-/
import proofs.«168479_j71159018160660_2_alg».proof.Proof.FrameKernelIdeal.StatsBase
import proofs.«168479_j71159018160660_2_alg».proof.Proof.Spec
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Spec

variable (V : (c : Dev nD) → (b : Ref sig .tc) → Buf (Elt Ideal) ((c : Thread nD τ).loc b))

/-- One half, the weight of both summands. -/
abbrev cH : EReal := Ideal.ofBits .f32 0x3F000000#32

/-- Array row `p` of the student and of the teacher logits. -/
def sRow (c : Dev nD) (p : Fin 2048) : Fin 32000 → EReal :=
  logit (V c main_v0 : S2048x2048.Idx → EReal) (V c main_v1 : S32000x2048.Idx → EReal) p
def tRow (c : Dev nD) (p : Fin 2048) : Fin 32000 → EReal :=
  logit (V c main_v2 : S2048x4096.Idx → EReal) (V c main_v3 : S32000x4096.Idx → EReal) p

/-- A tile product read at row `r`: when the left block's row `r` is array row `p` and the right block's rows are rows
    256·v … of the right array, the products' row is tile `v` of array row `p`'s logits. -/
theorem tile_gen {H : ℕ} (x : (⟨2, ![1024, H]⟩ : Shape).Idx → EReal) (w : (⟨2, ![256, H]⟩ : Shape).Idx → EReal)
    (X : (⟨2, ![2048, H]⟩ : Shape).Idx → EReal) (W : (⟨2, ![32000, H]⟩ : Shape).Idx → EReal) (p : Fin 2048) (v : ℕ) (hv : v < 125) (r : Fin 1024)
    (hx : ∀ h : Fin H, x (ix2 r h) = X (ix2 p h))
    (hw : ∀ (j : Fin 256) (h : Fin H), w (ix2 j h) = W (ix2 ⟨v * 256 + j.val, by have := j.isLt; omega⟩ h)) :
    (fun j : Fin 256 => ∑ h : Fin H, x (ix2 r h) * w (ix2 j h)) = chunkOf (logit X W p) v := by
  funext j
  have hj := j.isLt
  unfold chunkOf
  rw [dif_pos (by omega : v * 256 + j.val < 32000)]
  unfold logit
  simp only [hx, hw]

end Cert.KernelIdeal.Hand

end
-- ==== Proof.LibColumnLayout.lean ====
/-
  Two layout operations read at an index given by coordinates: the column forms a `keepdims` row reduction meets.
  A vector of `a` row values becomes an `[a, 1]` column by a shape cast, and that column is repeated along a new
  second axis of extent `b` by a broadcast; read at `(i, j)` the result is the vector's value at `i`, whatever `j`.
  General in the extents; stated over indices built from coordinates so that they apply by unification.
-/
import Idealize.ShloMosaic.Lib.ValueLayout

namespace Cert.Lib.ColumnLayout

open Idealize.ShloMosaic Idealize.ShloMosaic.ValueIdx

variable {α : Type}

/-- An `[a]` array cast to the column `[a, 1]` reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the unit axis is read at `0`,
    the row axis at `p` (when `a` is itself `1` the row coordinate is `0` either way). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColumnLayout
-- ==== Proof.LibReduceLayout.lean ====
/-
  Sums and one more column form, read at an index given by coordinates, over the extended reals.
    * a sum along the second axis of an `[a, n]` array, read at row `p`, is the sum over `k` of the entries `(p, k)`;
    * a sum along the first axis of a column `[a, 1]`, read at its one index, is the sum over `p` of the entries `(p, 0)`;
    * a column `[a, 1]` transposed to the row `[1, a]` and repeated along a new first axis of extent `b` reads, at
      `(p, q)`, the column's entry in row `q`.
  General in the extents; stated over indices built from coordinates so that they apply by unification.  The proofs of
  the reductions' side conditions are variables, so that whatever proof a program's text carries unifies with them.
-/
import Idealize.ShloMosaic.Lib.ValueLayout
import Idealize.ShloMosaic.PureOps.Ideal.Laws

namespace Cert.Lib.ReduceLayout

open Idealize.ShloMosaic Idealize.ShloMosaic.ValueIdx

/-- A sum along the second axis, read at row `p`. -/
theorem sum_axis1_apply {a n : ℕ} (v : FVec Ideal ⟨2, ![a, n]⟩ .f32) (acc : BitVec 32)
    (h : (⟨2, ![a, n]⟩ : Shape).Reduces [1] ⟨1, ![a]⟩) (hφ : FKind.Formats .f32) (hacc : acc = FKind.add.neutral .f32 hφ)
    (p : Fin a) :
    multiReduction .add [1] ⟨1, ![a]⟩ v acc h hφ hacc (ix1 p) = ∑ k : Fin n, v (ix2 p k) := by
  refine (Ideal.multiReduction_add_single v acc h hφ hacc (ix1 p)).trans ?_
  refine Finset.sum_congr rfl fun k _ => congrArg v (funext fun d => ?_)
  match d with
  | ⟨0, _⟩ => rfl
  | ⟨1, _⟩ => rfl

/-- A sum along the first axis of a column, read at its one index. -/
theorem sum_axis0_col_apply {a : ℕ} (v : FVec Ideal ⟨2, ![a, 1]⟩ .f32) (acc : BitVec 32)
    (h : (⟨2, ![a, 1]⟩ : Shape).Reduces [0] ⟨1, ![1]⟩) (hφ : FKind.Formats .f32) (hacc : acc = FKind.add.neutral .f32 hφ)
    (y : (⟨1, ![1]⟩ : Shape).Idx) :
    multiReduction .add [0] ⟨1, ![1]⟩ v acc h hφ hacc y = ∑ p : Fin a, v (ix2 p (0 : Fin 1)) := by
  refine (Ideal.multiReduction_add_single v acc h hφ hacc y).trans ?_
  refine Finset.sum_congr rfl fun p _ => congrArg v (funext fun d => ?_)
  match d with
  | ⟨0, _⟩ => rfl
  | ⟨1, _⟩ =>
    have h1 : (h.lift y p (1 : Fin 2)).val < 1 := (h.lift y p (1 : Fin 2)).isLt
    exact Fin.ext (by show (h.lift y p (1 : Fin 2)).val = 0; omega)

variable {α : Type}

/-- A column turned into a row and repeated over `b` rows reads, at `(p, q)`, the column's entry in row `q`. -/
theorem broadcastTo_transpose_col_apply {a b : ℕ} (v : (⟨2, ![a, 1]⟩ : Shape).Idx → α)
    (ht : (⟨2, ![a, 1]⟩ : Shape).Transposes [1, 0] ⟨2, ![1, a]⟩) (hb : (⟨2, ![1, a]⟩ : Shape).Broadcasts ⟨2, ![b, a]⟩)
    (p : Fin b) (q : Fin a) :
    broadcastTo ⟨2, ![b, a]⟩ (transpose ⟨2, ![1, a]⟩ [1, 0] v ht) hb (ix2 p q) = v (ix2 q (0 : Fin 1)) :=
  (broadcastTo_1b_ab_apply _ hb p q).trans (transpose_ix2_apply v ht (0 : Fin 1) q)

end Cert.Lib.ReduceLayout
-- ==== Proof.LibMaxLayout.lean ====
/-
  The largest entry of a row, read at an index given by coordinates, over the extended reals: a maximum along the
  second axis of an `[a, n]` array, read at row `p`, is the fold of `max`, from the starting value, over the entries
  `(p, k)` of that row — for the vector unit's reduction (started from the value its accumulator word denotes) and for
  the host's one-operand reduction with a `max` body (started from its initial value's one element) alike.  Both are the
  library's single-axis readings with the inserted index named by its two coordinates.
  General in the extents; stated over indices built from coordinates so that they apply by unification.  The proofs of
  the reductions' side conditions are variables, so that whatever proof a program's text carries unifies with them.
-/
import Idealize.ShloMosaic.Lib.ValueIdx
import Idealize.ShloMosaic.PureOps.Ideal.Laws

namespace Cert.Lib.MaxLayout

open Idealize.ShloMosaic Idealize.ShloMosaic.ValueIdx

/-- The vector unit's maximum along the second axis, read at row `p`. -/
theorem max_axis1_apply {a n : ℕ} (v : FVec Ideal ⟨2, ![a, n]⟩ .f32) (acc : BitVec 32)
    (h : (⟨2, ![a, n]⟩ : Shape).Reduces [1] ⟨1, ![a]⟩) (hφ : FKind.Formats .f32) (hacc : acc = FKind.maximumf.neutral .f32 hφ)
    (p : Fin a) :
    multiReduction .maximumf [1] ⟨1, ![a]⟩ v acc h hφ hacc (ix1 p)
      = (Finset.univ : Finset (Fin n)).fold max (Ideal.ofBits .f32 acc) fun k => v (ix2 p k) := by
  refine (Ideal.multiReduction_maximumf_single v acc h hφ hacc (ix1 p)).trans ?_
  refine congrArg (fun f => (Finset.univ : Finset (Fin n)).fold max (Ideal.ofBits .f32 acc) f) (funext fun k => congrArg v (funext fun d => ?_))
  match d with
  | ⟨0, _⟩ => rfl
  | ⟨1, _⟩ => rfl

/-- The host's maximum along the second axis, read at row `p`: the fold starts from the initial value's element. -/
theorem hostMax_axis1_apply {a n : ℕ} {u : Shape} (x : (⟨2, ![a, n]⟩ : Shape).Idx → EReal) (init : u.Idx → EReal)
    (h' : (⟨2, ![a, n]⟩ : Shape).ReducesTo [1] ⟨1, ![a]⟩) (h : (⟨2, ![a, n]⟩ : Shape).Reduces [1] ⟨1, ![a]⟩)
    (hu : 0 < u.numel) (p : Fin a) :
    Host.reduce (FloatOps.maximumf (F := Ideal) (φ := .f32)) x init h' hu (ix1 p)
      = (Finset.univ : Finset (Fin n)).fold max (init (Shape.Idx.first hu)) fun k => x (ix2 p k) := by
  refine (Host.reduce_eq_fold_single (FloatOps.maximumf (F := Ideal) (φ := .f32)) x init h' h hu (ix1 p)).trans ?_
  refine congrArg (fun f => (Finset.univ : Finset (Fin n)).fold max (init (Shape.Idx.first hu)) f) (funext fun k => congrArg x (funext fun d => ?_))
  match d with
  | ⟨0, _⟩ => rfl
  | ⟨1, _⟩ => rfl

end Cert.Lib.MaxLayout
-- ==== Proof.PayStats.lean ====
/-
  The statistics kernel's arithmetic read at an index, over the extended reals.

  For one tile of 256 vocabulary entries the kernel forms a model's logits (a row of hidden states against a row of the
  projection tile, summed over the hidden axis) and updates, row by row, the running maximum `M` and the running sum `L`
  of exponentials rescaled to it:
      M' = max M (max_j row_j),    L' = exp (M − M') · L + Σ_j exp (row_j − M'),
  the specification's `upd`.  The first tile starts from `(−∞, 0)`, and after the last one the row's log-sum-exp is
  `M + log L`.
-/
import proofs.«168479_j71159018160660_2_alg».proof.Proof.Spec
import proofs.«168479_j71159018160660_2_alg».proof.Proof.LibColumnLayout
import proofs.«168479_j71159018160660_2_alg».proof.Proof.LibReduceLayout
import proofs.«168479_j71159018160660_2_alg».proof.Proof.LibMaxLayout
import proofs.«168479_j71159018160660_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.PayStats

open Cert.KernelIdeal Cert.KernelIdeal.Gen Idealize.ShloMosaic Idealize.ShloMosaic.ValueIdx Cert.Spec

/-- The student's logits tile at `(r, j)`: row `r` of the hidden-state block against row `j` of the weight tile, both contracted along their second axis. -/
theorem matmul_student_apply (x : FVec Ideal S1024x2048 .bf16) (w : FVec Ideal S256x2048 .bf16) (r : Fin 1024) (j : Fin 256) :
    matmul dot_S1024x2048_S256x2048_S1024x256_1_1_0_0_n_n none x w (constant (F := Ideal) S1024x256 .f32 0x00000000#32) (ix2 r j)
      = ∑ h : Fin 2048, x (ix2 r h) * w (ix2 j h) := by
  refine (Ideal.matmul_constant_zero_apply dot_S1024x2048_S256x2048_S1024x256_1_1_0_0_n_n none x w (ix2 r j)).trans ?_
  rw [← Equiv.sum_comp (ValueIdx.contrEquiv1 dot_S1024x2048_S256x2048_S1024x256_1_1_0_0_n_n 2048 rfl rfl).symm]
  refine Finset.sum_congr rfl fun k _ => ?_
  have hk := ValueIdx.contrEquiv1_symm_val dot_S1024x2048_S256x2048_S1024x256_1_1_0_0_n_n 2048 rfl rfl k
  have el : dot_S1024x2048_S256x2048_S1024x256_1_1_0_0_n_n.lhsIdx (ix2 r j) ((ValueIdx.contrEquiv1 dot_S1024x2048_S256x2048_S1024x256_1_1_0_0_n_n 2048 rfl rfl).symm k) = ix2 r k := funext fun a => Fin.ext (by
    match a with
    | ⟨0, _⟩ => rfl
    | ⟨1, _⟩ => exact (DotDims.lhsIdx_val_of_single _ rfl _ _).trans hk)
  have er : dot_S1024x2048_S256x2048_S1024x256_1_1_0_0_n_n.rhsIdx (ix2 r j) ((ValueIdx.contrEquiv1 dot_S1024x2048_S256x2048_S1024x256_1_1_0_0_n_n 2048 rfl rfl).symm k) = ix2 j k := funext fun a => Fin.ext (by
    match a with
    | ⟨0, _⟩ => rfl
    | ⟨1, _⟩ => exact (DotDims.rhsIdx_val_of_single _ rfl _ _).trans hk)
  rw [el, er]

/-- The teacher's logits tile at `(r, j)`, likewise. -/
theorem matmul_teacher_apply (x : FVec Ideal S1024x4096 .bf16) (w : FVec Ideal S256x4096 .bf16) (r : Fin 1024) (j : Fin 256) :
    matmul dot_S1024x4096_S256x4096_S1024x256_1_1_0_0_n_n none x w (constant (F := Ideal) S1024x256 .f32 0x00000000#32) (ix2 r j)
      = ∑ h : Fin 4096, x (ix2 r h) * w (ix2 j h) := by
  refine (Ideal.matmul_constant_zero_apply dot_S1024x4096_S256x4096_S1024x256_1_1_0_0_n_n none x w (ix2 r j)).trans ?_
  rw [← Equiv.sum_comp (ValueIdx.contrEquiv1 dot_S1024x4096_S256x4096_S1024x256_1_1_0_0_n_n 4096 rfl rfl).symm]
  refine Finset.sum_congr rfl fun k _ => ?_
  have hk := ValueIdx.contrEquiv1_symm_val dot_S1024x4096_S256x4096_S1024x256_1_1_0_0_n_n 4096 rfl rfl k
  have el : dot_S1024x4096_S256x4096_S1024x256_1_1_0_0_n_n.lhsIdx (ix2 r j) ((ValueIdx.contrEquiv1 dot_S1024x4096_S256x4096_S1024x256_1_1_0_0_n_n 4096 rfl rfl).symm k) = ix2 r k := funext fun a => Fin.ext (by
    match a with
    | ⟨0, _⟩ => rfl
    | ⟨1, _⟩ => exact (DotDims.lhsIdx_val_of_single _ rfl _ _).trans hk)
  have er : dot_S1024x4096_S256x4096_S1024x256_1_1_0_0_n_n.rhsIdx (ix2 r j) ((ValueIdx.contrEquiv1 dot_S1024x4096_S256x4096_S1024x256_1_1_0_0_n_n 4096 rfl rfl).symm k) = ix2 j k := funext fun a => Fin.ext (by
    match a with
    | ⟨0, _⟩ => rfl
    | ⟨1, _⟩ => exact (DotDims.rhsIdx_val_of_single _ rfl _ _).trans hk)
  rw [el, er]

/-- The word `0xFF800000` is the f32 negative infinity: `⊥`. -/
theorem ofBits_neg_inf_f32 : Ideal.ofBits .f32 0xFF800000#32 = ⊥ := by simp [Ideal.ofBits, Ideal.ieee]

/-- The student's logits tile as the payload forms it. -/
theorem pay11_apply (x0 : Vec Ideal S1024x2048 .bf16) (x1 : Vec Ideal S256x2048 .bf16) (r : Fin 1024) (j : Fin 256) :
    k0_pay11 (F := Ideal) x0 x1 (ix2 r j) = ∑ h : Fin 2048, x0 (ix2 r h) * x1 (ix2 j h) := by
  unfold k0_pay11
  simp only [shapeCast_self]
  exact matmul_student_apply x0 x1 r j

/-- The teacher's logits tile as the payload forms it. -/
theorem pay12_apply (x2 : Vec Ideal S1024x4096 .bf16) (x3 : Vec Ideal S256x4096 .bf16) (r : Fin 1024) (j : Fin 256) :
    k0_pay12 (F := Ideal) x2 x3 (ix2 r j) = ∑ h : Fin 4096, x2 (ix2 r h) * x3 (ix2 j h) := by
  unfold k0_pay12
  simp only [shapeCast_self]
  exact matmul_teacher_apply x2 x3 r j

/-- A row maximum kept as a column: the maximum along the second axis started from `−∞`, cast from `[1024]` to `[1024, 1]`,
    read at row `r`. -/
theorem rowMax_col_apply (t : FVec Ideal S1024x256 .f32) (r : Fin 1024) :
    shapeCast S1024x1 (multiReduction .maximumf [1] S1024 t 0xFF800000#32 reduces_S1024x256_S1024 (.inl rfl) rfl) shapeCasts_S1024_S1024x1 (ix2 r (0 : Fin 1))
      = (Finset.univ : Finset (Fin 256)).fold max ⊥ fun j => t (ix2 r j) := by
  refine (Cert.Lib.ColumnLayout.shapeCast_a_a1_apply _ shapeCasts_S1024_S1024x1 r (0 : Fin 1)).trans ?_
  refine (Cert.Lib.MaxLayout.max_axis1_apply t 0xFF800000#32 reduces_S1024x256_S1024 (.inl rfl) rfl r).trans ?_
  rw [ofBits_neg_inf_f32]

/-- A row sum kept as a column: the sum along the second axis, cast from `[1024]` to `[1024, 1]`, read at row `r`. -/
theorem rowSum_col_apply (v : FVec Ideal S1024x256 .f32) (r : Fin 1024) :
    shapeCast S1024x1 (multiReduction .add [1] S1024 v 0x00000000#32 reduces_S1024x256_S1024 (.inl rfl) rfl) shapeCasts_S1024_S1024x1 (ix2 r (0 : Fin 1))
      = ∑ j : Fin 256, v (ix2 r j) :=
  (Cert.Lib.ColumnLayout.shapeCast_a_a1_apply _ shapeCasts_S1024_S1024x1 r (0 : Fin 1)).trans
    (Cert.Lib.ReduceLayout.sum_axis1_apply v 0x00000000#32 reduces_S1024x256_S1024 (.inl rfl) rfl r)

/-- The new running maximum of a tile `t` at row `r`. -/
theorem pay2_apply (t : FVec Ideal S1024x256 .f32) (m : Vec Ideal S1024x1 .f32) (r : Fin 1024) :
    k0_pay2 (F := Ideal) t m (ix2 r (0 : Fin 1)) = max (m (ix2 r (0 : Fin 1))) ((Finset.univ : Finset (Fin 256)).fold max ⊥ fun j => t (ix2 r j)) := by
  unfold k0_pay2
  show max (m (ix2 r (0 : Fin 1))) (shapeCast S1024x1 (multiReduction .maximumf [1] S1024 t 0xFF800000#32 reduces_S1024x256_S1024 (.inl rfl) rfl) shapeCasts_S1024_S1024x1 (ix2 r (0 : Fin 1))) = _
  exact congrArg (max (m (ix2 r (0 : Fin 1))) ·) (rowMax_col_apply t r)

/-- The new running sum of a tile `t` at row `r`, in terms of the new running maximum. -/
theorem pay3_apply (t : FVec Ideal S1024x256 .f32) (m m' l : Vec Ideal S1024x1 .f32) (r : Fin 1024) :
    k0_pay3 (F := Ideal) t m m' l (ix2 r (0 : Fin 1))
      = Ideal.exp (m' (ix2 r (0 : Fin 1)) - k0_pay2 (F := Ideal) t m (ix2 r (0 : Fin 1))) * l (ix2 r (0 : Fin 1))
        + ∑ j : Fin 256, Ideal.exp (t (ix2 r j) - k0_pay2 (F := Ideal) t m (ix2 r (0 : Fin 1))) := by
  unfold k0_pay3
  simp only [shapeCast_self]
  show Ideal.exp (m' (ix2 r (0 : Fin 1)) - k0_pay2 (F := Ideal) t m (ix2 r (0 : Fin 1))) * l (ix2 r (0 : Fin 1))
      + shapeCast S1024x1 (multiReduction .add [1] S1024 (exp (subf t (broadcastTo S1024x256 (k0_pay2 (F := Ideal) t m) broadcasts_S1024x1_S1024x256)))
          0x00000000#32 reduces_S1024x256_S1024 (.inl rfl) rfl) shapeCasts_S1024_S1024x1 (ix2 r (0 : Fin 1)) = _
  refine congrArg (Ideal.exp (m' (ix2 r (0 : Fin 1)) - k0_pay2 (F := Ideal) t m (ix2 r (0 : Fin 1))) * l (ix2 r (0 : Fin 1)) + ·) ?_
  refine (rowSum_col_apply _ r).trans (Finset.sum_congr rfl fun j _ => ?_)
  show Ideal.exp (t (ix2 r j) - broadcastTo S1024x256 (k0_pay2 (F := Ideal) t m) broadcasts_S1024x1_S1024x256 (ix2 r j)) = _
  rw [Cert.Lib.ColumnLayout.broadcastTo_a1_ab_apply]

/-- The student's new running maximum at row `r`. -/
theorem pay13_apply (x0 : Vec Ideal S1024x2048 .bf16) (x1 : Vec Ideal S256x2048 .bf16) (m : Vec Ideal S1024x1 .f32) (r : Fin 1024) :
    k0_pay13 (F := Ideal) x0 x1 m (ix2 r (0 : Fin 1))
      = max (m (ix2 r (0 : Fin 1))) ((Finset.univ : Finset (Fin 256)).fold max ⊥ fun j => ∑ h : Fin 2048, x0 (ix2 r h) * x1 (ix2 j h)) := by
  unfold k0_pay13
  show max (m (ix2 r (0 : Fin 1))) (shapeCast S1024x1 (multiReduction .maximumf [1] S1024 (k0_pay11 (F := Ideal) x0 x1) 0xFF800000#32 reduces_S1024x256_S1024 (.inl rfl) rfl) shapeCasts_S1024_S1024x1 (ix2 r (0 : Fin 1))) = _
  refine congrArg (max (m (ix2 r (0 : Fin 1))) ·) ((rowMax_col_apply _ r).trans ?_)
  exact congrArg (fun f => (Finset.univ : Finset (Fin 256)).fold max ⊥ f) (funext fun j => pay11_apply x0 x1 r j)

/-- The student's new running sum at row `r`, in terms of the new running maximum. -/
theorem pay14_apply (x0 : Vec Ideal S1024x2048 .bf16) (x1 : Vec Ideal S256x2048 .bf16) (m m' l : Vec Ideal S1024x1 .f32) (r : Fin 1024) :
    k0_pay14 (F := Ideal) x0 x1 m m' l (ix2 r (0 : Fin 1))
      = Ideal.exp (m' (ix2 r (0 : Fin 1)) - k0_pay13 (F := Ideal) x0 x1 m (ix2 r (0 : Fin 1))) * l (ix2 r (0 : Fin 1))
        + ∑ j : Fin 256, Ideal.exp ((∑ h : Fin 2048, x0 (ix2 r h) * x1 (ix2 j h)) - k0_pay13 (F := Ideal) x0 x1 m (ix2 r (0 : Fin 1))) := by
  unfold k0_pay14
  simp only [shapeCast_self]
  show Ideal.exp (m' (ix2 r (0 : Fin 1)) - k0_pay13 (F := Ideal) x0 x1 m (ix2 r (0 : Fin 1))) * l (ix2 r (0 : Fin 1))
      + shapeCast S1024x1 (multiReduction .add [1] S1024 (exp (subf (k0_pay11 (F := Ideal) x0 x1) (broadcastTo S1024x256 (k0_pay13 (F := Ideal) x0 x1 m) broadcasts_S1024x1_S1024x256)))
          0x00000000#32 reduces_S1024x256_S1024 (.inl rfl) rfl) shapeCasts_S1024_S1024x1 (ix2 r (0 : Fin 1)) = _
  refine congrArg (Ideal.exp (m' (ix2 r (0 : Fin 1)) - k0_pay13 (F := Ideal) x0 x1 m (ix2 r (0 : Fin 1))) * l (ix2 r (0 : Fin 1)) + ·) ?_
  refine (rowSum_col_apply _ r).trans (Finset.sum_congr rfl fun j _ => ?_)
  show Ideal.exp (k0_pay11 (F := Ideal) x0 x1 (ix2 r j) - broadcastTo S1024x256 (k0_pay13 (F := Ideal) x0 x1 m) broadcasts_S1024x1_S1024x256 (ix2 r j)) = _
  rw [Cert.Lib.ColumnLayout.broadcastTo_a1_ab_apply, pay11_apply]

/-- The student's running maximum after a tile. -/
theorem max_student (x0 : Vec Ideal S1024x2048 .bf16) (x1 : Vec Ideal S256x2048 .bf16) (s8 s9 : Vec Ideal S1024x1 .f32) (r : Fin 1024) :
    k0_pay1 (F := Ideal) (k0_pay13 x0 x1 s8) (ix2 r (0 : Fin 1)) = (upd (s8 (ix2 r (0 : Fin 1)), s9 (ix2 r (0 : Fin 1))) fun j => ∑ h : Fin 2048, x0 (ix2 r h) * x1 (ix2 j h)).1 := by
  unfold k0_pay1
  simp only [shapeCast_self]
  exact pay13_apply x0 x1 s8 r

/-- The student's running sum after a tile. -/
theorem sum_student (x0 : Vec Ideal S1024x2048 .bf16) (x1 : Vec Ideal S256x2048 .bf16) (s8 s9 : Vec Ideal S1024x1 .f32) (r : Fin 1024) :
    k0_pay14 (F := Ideal) x0 x1 s8 s8 s9 (ix2 r (0 : Fin 1)) = (upd (s8 (ix2 r (0 : Fin 1)), s9 (ix2 r (0 : Fin 1))) fun j => ∑ h : Fin 2048, x0 (ix2 r h) * x1 (ix2 j h)).2 := by
  rw [pay14_apply, pay13_apply]
  rfl

/-- The teacher's running maximum after a tile. -/
theorem max_teacher (x2 : Vec Ideal S1024x4096 .bf16) (x3 : Vec Ideal S256x4096 .bf16) (s10 s11 : Vec Ideal S1024x1 .f32) (r : Fin 1024) :
    k0_pay4 (F := Ideal) (k0_pay12 x2 x3) s10 (ix2 r (0 : Fin 1)) = (upd (s10 (ix2 r (0 : Fin 1)), s11 (ix2 r (0 : Fin 1))) fun j => ∑ h : Fin 4096, x2 (ix2 r h) * x3 (ix2 j h)).1 := by
  unfold k0_pay4
  simp only [shapeCast_self]
  refine (pay2_apply _ s10 r).trans ?_
  exact congrArg (fun f => max (s10 (ix2 r (0 : Fin 1))) ((Finset.univ : Finset (Fin 256)).fold max ⊥ f)) (funext fun j => pay12_apply x2 x3 r j)

/-- The teacher's running sum after a tile. -/
theorem sum_teacher (x2 : Vec Ideal S1024x4096 .bf16) (x3 : Vec Ideal S256x4096 .bf16) (s10 s11 : Vec Ideal S1024x1 .f32) (r : Fin 1024) :
    k0_pay3 (F := Ideal) (k0_pay12 x2 x3) s10 s10 s11 (ix2 r (0 : Fin 1)) = (upd (s10 (ix2 r (0 : Fin 1)), s11 (ix2 r (0 : Fin 1))) fun j => ∑ h : Fin 4096, x2 (ix2 r h) * x3 (ix2 j h)).2 := by
  have hM : k0_pay2 (F := Ideal) (k0_pay12 (F := Ideal) x2 x3) s10 (ix2 r (0 : Fin 1))
      = max (s10 (ix2 r (0 : Fin 1))) ((Finset.univ : Finset (Fin 256)).fold max ⊥ fun j => ∑ h : Fin 4096, x2 (ix2 r h) * x3 (ix2 j h)) :=
    (pay2_apply _ s10 r).trans (congrArg (fun f => max (s10 (ix2 r (0 : Fin 1))) ((Finset.univ : Finset (Fin 256)).fold max ⊥ f)) (funext fun j => pay12_apply x2 x3 r j))
  rw [pay3_apply, hM]
  simp only [pay12_apply]
  rfl

/-- A row's log-sum-exp from its last running maximum and running sum (the student's). -/
theorem lse (a b : Vec Ideal S1024x1 .f32) (r : Fin 1024) :
    k0_pay5 (F := Ideal) a b (ix2 r (0 : Fin 1)) = a (ix2 r (0 : Fin 1)) + Ideal.log (b (ix2 r (0 : Fin 1))) := rfl

/-- A row's log-sum-exp from its last running maximum and running sum (the teacher's). -/
theorem lse' (a b : Vec Ideal S1024x1 .f32) (r : Fin 1024) :
    k0_pay6 (F := Ideal) a b (ix2 r (0 : Fin 1)) = a (ix2 r (0 : Fin 1)) + Ideal.log (b (ix2 r (0 : Fin 1))) := rfl

/-- The student's running maximum starts from `−∞`. -/
theorem init_max (r : Fin 1024) : k0_pay7 (F := Ideal) (ix2 r (0 : Fin 1)) = ⊥ := by
  unfold k0_pay7
  simp only [shapeCast_self]
  exact ofBits_neg_inf_f32

/-- The teacher's running maximum starts from `−∞`. -/
theorem init_max' (r : Fin 1024) : k0_pay9 (F := Ideal) (ix2 r (0 : Fin 1)) = ⊥ := by
  unfold k0_pay9
  simp only [shapeCast_self]
  exact ofBits_neg_inf_f32

/-- The student's running sum starts from zero. -/
theorem init_sum (r : Fin 1024) : k0_pay8 (F := Ideal) (ix2 r (0 : Fin 1)) = 0 := by
  unfold k0_pay8
  simp only [shapeCast_self]
  exact Ideal.ofBits_zero_f32

/-- The teacher's running sum starts from zero. -/
theorem init_sum' (r : Fin 1024) : k0_pay10 (F := Ideal) (ix2 r (0 : Fin 1)) = 0 := by
  unfold k0_pay10
  simp only [shapeCast_self]
  exact Ideal.ofBits_zero_f32

end Cert.PayStats

end
-- ==== Proof.Consts.lean ====
/-
  The float constants the two programs spell, as the extended reals their words denote: one half (the Jensen–Shannon
  weight), which is a non-negative real — so it distributes over finite sums of extended reals —, minus infinity
  (the running maximum's start) and one (the reference's temperature).
-/
import Idealize.ShloMosaic.PureOps.Ideal
import Idealize.ShloMosaic.PureOps.Ideal.Laws

noncomputable section

namespace Cert.Consts

open Idealize.ShloMosaic

theorem ofBits_half : Ideal.ofBits .f32 0x3F000000#32 = ((1 / 2 : ℝ) : EReal) := by
  simp [Ideal.ofBits, Ideal.ieee, -EReal.coe_mul]; norm_num

theorem half_nonneg : (0 : EReal) ≤ Ideal.ofBits .f32 0x3F000000#32 := by
  rw [ofBits_half]; exact_mod_cast (by norm_num : (0 : ℝ) ≤ 1 / 2)

theorem half_ne_top : Ideal.ofBits .f32 0x3F000000#32 ≠ ⊤ := by
  rw [ofBits_half]; exact EReal.coe_ne_top _

theorem ofBits_neg_inf : Ideal.ofBits .f32 0xFF800000#32 = ⊥ := by
  simp [Ideal.ofBits, Ideal.ieee]

end Cert.Consts

end
-- ==== Proof.FrameKernelIdeal.ValueStats.lean ====
/-
  The first region's results, row by row.  At grid point (row block i, vocabulary step v) the four kept column buffers
  hold, in row r, the online-softmax pair (running maximum, running sum of exponentials rescaled to it) of the tiles
  0 … v of array row p = 1024·i + r, for the student and for the teacher logits — by induction on the point: step 0
  starts from (−∞, 0), every step updates by its tile, and a tile at a point is tile v of row p's logits.  The last step
  stores maximum plus logarithm of sum into the result columns' blocks, which the pipeline writes back to rows 1024·i …
-/
import proofs.«168479_j71159018160660_2_alg».proof.Proof.FrameKernelIdeal.Pieces
import proofs.«168479_j71159018160660_2_alg».proof.Proof.FrameKernelIdeal.Blocks
import proofs.«168479_j71159018160660_2_alg».proof.Proof.FrameKernelIdeal.Rows
import proofs.«168479_j71159018160660_2_alg».proof.Proof.PayStats
import proofs.«168479_j71159018160660_2_alg».proof.Proof.Consts

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Spec

variable (V : (c : Dev nD) → (b : Ref sig .tc) → Buf (Elt Ideal) ((c : Thread nD τ).loc b))

/-- The array row that row `r` of the block at position `n` is. -/
def rowOf0 (n : ℕ) (hn : n < cfg0.N) (r : Fin 1024) : Fin 2048 :=
  ⟨n / 125 * 1024 + r.val, by have : cfg0.N = 250 := N_0; have := r.isLt; omega⟩

/-- One step on the student pair, whatever the buffers held; and on the teacher pair. -/
theorem upd_gen_s (x0 : Vec Ideal S1024x2048 .bf16) (x1 : Vec Ideal S256x2048 .bf16) (xs0 xs1 : Vec Ideal S1024x1 .f32) (r : Fin 1024) (row : Fin 256 → EReal)
    (h : (fun j : Fin 256 => ∑ h : Fin 2048, x0 (ix2 r h) * x1 (ix2 j h)) = row) :
    (k0_pay1 (F := Ideal) (k0_pay13 x0 x1 xs0) (ix2 r (0 : Fin 1)), k0_pay14 (F := Ideal) x0 x1 xs0 xs0 xs1 (ix2 r (0 : Fin 1)))
      = upd (xs0 (ix2 r (0 : Fin 1)), xs1 (ix2 r (0 : Fin 1))) row := by
  rw [← h]
  exact Prod.ext (Cert.PayStats.max_student x0 x1 xs0 xs1 r) (Cert.PayStats.sum_student x0 x1 xs0 xs1 r)
theorem upd_gen_t (x2 : Vec Ideal S1024x4096 .bf16) (x3 : Vec Ideal S256x4096 .bf16) (xs2 xs3 : Vec Ideal S1024x1 .f32) (r : Fin 1024) (row : Fin 256 → EReal)
    (h : (fun j : Fin 256 => ∑ h : Fin 4096, x2 (ix2 r h) * x3 (ix2 j h)) = row) :
    (k0_pay4 (F := Ideal) (k0_pay12 x2 x3) xs2 (ix2 r (0 : Fin 1)), k0_pay3 (F := Ideal) (k0_pay12 x2 x3) xs2 xs2 xs3 (ix2 r (0 : Fin 1)))
      = upd (xs2 (ix2 r (0 : Fin 1)), xs3 (ix2 r (0 : Fin 1))) row := by
  rw [← h]
  exact Prod.ext (Cert.PayStats.max_teacher x2 x3 xs2 xs3 r) (Cert.PayStats.sum_teacher x2 x3 xs2 xs3 r)
theorem upd_s0 (c : Dev nD) (t : Fin cfg0.N) (xs0 xs1 : Vec Ideal S1024x1 .f32) (r : Fin 1024) :
    (k0_pay1 (F := Ideal) (k0_pay13 (iblk0 V c 0 t) (iblk0 V c 1 t) xs0) (ix2 r (0 : Fin 1)), k0_pay14 (F := Ideal) (iblk0 V c 0 t) (iblk0 V c 1 t) xs0 xs0 xs1 (ix2 r (0 : Fin 1)))
      = upd (xs0 (ix2 r (0 : Fin 1)), xs1 (ix2 r (0 : Fin 1))) (chunkOf (sRow V c (rowOf0 t.val t.isLt r)) (t.val % 125)) :=
  upd_gen_s (iblk0 V c 0 t) (iblk0 V c 1 t) xs0 xs1 r _
    (tile_gen (iblk0 V c 0 t) (iblk0 V c 1 t) (V c main_v0) (V c main_v1) (rowOf0 t.val t.isLt r) (t.val % 125) (Nat.mod_lt _ (by decide)) r
      (fun h => blk0_0 V c t r h) (fun j h => blk0_1 V c t j h))
theorem upd_t0 (c : Dev nD) (t : Fin cfg0.N) (xs2 xs3 : Vec Ideal S1024x1 .f32) (r : Fin 1024) :
    (k0_pay4 (F := Ideal) (k0_pay12 (iblk0 V c 2 t) (iblk0 V c 3 t)) xs2 (ix2 r (0 : Fin 1)), k0_pay3 (F := Ideal) (k0_pay12 (iblk0 V c 2 t) (iblk0 V c 3 t)) xs2 xs2 xs3 (ix2 r (0 : Fin 1)))
      = upd (xs2 (ix2 r (0 : Fin 1)), xs3 (ix2 r (0 : Fin 1))) (chunkOf (tRow V c (rowOf0 t.val t.isLt r)) (t.val % 125)) :=
  upd_gen_t (iblk0 V c 2 t) (iblk0 V c 3 t) xs2 xs3 r _
    (tile_gen (iblk0 V c 2 t) (iblk0 V c 3 t) (V c main_v2) (V c main_v3) (rowOf0 t.val t.isLt r) (t.val % 125) (Nat.mod_lt _ (by decide)) r
      (fun h => blk0_2 V c t r h) (fun j h => blk0_3 V c t j h))

/-- THE ONLINE PAIRS: after position `n` the kept buffers hold, in row `r`, the pairs after tiles 0 … n % 125. -/
theorem onl_eq0 (c : Dev nD) : ∀ (n : ℕ) (hn : n < cfg0.N) (r : Fin 1024),
    ((outsAt0 V c n hn).2.2.1 (ix2 r (0 : Fin 1)), (outsAt0 V c n hn).2.2.2.1 (ix2 r (0 : Fin 1))) = onl (sRow V c (rowOf0 n hn r)) (n % 125)
    ∧ ((outsAt0 V c n hn).2.2.2.2.1 (ix2 r (0 : Fin 1)), (outsAt0 V c n hn).2.2.2.2.2 (ix2 r (0 : Fin 1))) = onl (tRow V c (rowOf0 n hn r)) (n % 125)
  | 0, hn, r => by
    have e := outsAt0_A V c ⟨0, hn⟩ (Nat.zero_mod _) (by show ¬(0 : ℕ) % 125 = 124; decide)
    rw [show outsAt0 V c 0 hn = _ from e, sA0_0, sA0_1, sA0_2, sA0_3, upd_s0 V c ⟨0, hn⟩, upd_t0 V c ⟨0, hn⟩,
      Cert.PayStats.init_max, Cert.PayStats.init_sum, Cert.PayStats.init_max', Cert.PayStats.init_sum']
    exact ⟨rfl, rfl⟩
  | n + 1, hn, r => by
    have hN : cfg0.N = 250 := N_0
    by_cases h0 : (n + 1) % 125 = 0
    · have h1 : ¬(n + 1) % 125 = 124 := by omega
      have e := outsAt0_A V c ⟨n + 1, hn⟩ h0 h1
      rw [show outsAt0 V c (n + 1) hn = _ from e, sA0_0, sA0_1, sA0_2, sA0_3, upd_s0 V c ⟨n + 1, hn⟩, upd_t0 V c ⟨n + 1, hn⟩,
        Cert.PayStats.init_max, Cert.PayStats.init_sum, Cert.PayStats.init_max', Cert.PayStats.init_sum']
      show upd (⊥, 0) (chunkOf _ ((n + 1) % 125)) = onl _ ((n + 1) % 125) ∧ upd (⊥, 0) (chunkOf _ ((n + 1) % 125)) = onl _ ((n + 1) % 125)
      rw [h0]; exact ⟨rfl, rfl⟩
    · have hdiv : (n + 1) / 125 = n / 125 := by omega
      have hmod : (n + 1) % 125 = n % 125 + 1 := by omega
      have hrow : rowOf0 (n + 1) hn r = rowOf0 n (Nat.lt_of_succ_lt hn) r := Fin.ext (by show (n + 1) / 125 * 1024 + r.val = n / 125 * 1024 + r.val; rw [hdiv])
      obtain ⟨ihs, iht⟩ := onl_eq0 c n (Nat.lt_of_succ_lt hn) r
      by_cases h1 : (n + 1) % 125 = 124
      · have e := outsAt0_C V c ⟨n + 1, hn⟩ h0 h1
        rw [show outsAt0 V c (n + 1) hn = _ from e, sC0_0, sC0_1, sC0_2, sC0_3, upd_s0 V c ⟨n + 1, hn⟩, upd_t0 V c ⟨n + 1, hn⟩]
        show upd ((outsAt0 V c n _).2.2.1 (ix2 r (0 : Fin 1)), (outsAt0 V c n _).2.2.2.1 (ix2 r (0 : Fin 1))) (chunkOf _ ((n + 1) % 125)) = _
          ∧ upd ((outsAt0 V c n _).2.2.2.2.1 (ix2 r (0 : Fin 1)), (outsAt0 V c n _).2.2.2.2.2 (ix2 r (0 : Fin 1))) (chunkOf _ ((n + 1) % 125)) = _
        rw [ihs, iht, hrow, hmod]; exact ⟨rfl, rfl⟩
      · have e := outsAt0_B V c ⟨n + 1, hn⟩ h0 h1
        rw [show outsAt0 V c (n + 1) hn = _ from e, sB0_0, sB0_1, sB0_2, sB0_3, upd_s0 V c ⟨n + 1, hn⟩, upd_t0 V c ⟨n + 1, hn⟩]
        show upd ((outsAt0 V c n _).2.2.1 (ix2 r (0 : Fin 1)), (outsAt0 V c n _).2.2.2.1 (ix2 r (0 : Fin 1))) (chunkOf _ ((n + 1) % 125)) = _
          ∧ upd ((outsAt0 V c n _).2.2.2.2.1 (ix2 r (0 : Fin 1)), (outsAt0 V c n _).2.2.2.2.2 (ix2 r (0 : Fin 1))) (chunkOf _ ((n + 1) % 125)) = _
        rw [ihs, iht, hrow, hmod]; exact ⟨rfl, rfl⟩

/-- At the last step of a row block the two result columns' staging buffers hold the rows' log-sum-exps. -/
theorem out_eq0 (c : Dev nD) (t : Fin cfg0.N) (h124 : t.val % 125 = 124) (r : Fin 1024) :
    (outsAt0 V c t.val t.isLt).1 (ix2 r (0 : Fin 1)) = lseK (sRow V c (rowOf0 t.val t.isLt r))
    ∧ (outsAt0 V c t.val t.isLt).2.1 (ix2 r (0 : Fin 1)) = lseK (tRow V c (rowOf0 t.val t.isLt r)) := by
  have h0 : ¬t.val % 125 = 0 := by omega
  obtain ⟨es, et⟩ := onl_eq0 V c t.val t.isLt r
  rw [outsAt0_C V c t h0 h124, sC0_0, sC0_1] at es
  rw [outsAt0_C V c t h0 h124, sC0_2, sC0_3] at et
  rw [outsAt0_C V c t h0 h124, oC0_4, oC0_5, Cert.PayStats.lse, Cert.PayStats.lse']
  rw [h124] at es et
  unfold lseK
  rw [← es, ← et]
  exact ⟨rfl, rfl⟩

/-- The two result arrays after the region, as functions of the index: the log-sum-exp of the index's row. -/
def lseArrS (c : Dev nD) : S2048x1.Idx → EReal := fun i => lseK (sRow V c (i 0))
def lseArrT (c : Dev nD) : S2048x1.Idx → EReal := fun i => lseK (tRow V c (i 0))

theorem flushed_eq0_4 (c : Dev nD) (t : Fin cfg0.N) (hf : (cfg0.win 4).flush t = true) :
    (dat0 V c).flushed 4 t = ((cfg0.win 4).blk t).view.read (Elt Ideal) (lseArrS V c) := by
  have h124 : t.val % 125 = 124 := (flush0_4 t).mp hf
  show (cfg0.win 4).cut (grid0.coords t) ((dat0 V c).after 4 t) = _
  rw [after0_4]
  funext y
  obtain ⟨r, u, rfl⟩ : ∃ (r : Fin 1024) (u : Fin 1), y = ix2 r u := ⟨y 0, y 1, eq_ix2 y⟩
  obtain rfl : u = 0 := Subsingleton.elim _ _
  rw [View.read_apply]
  show (outsAt0 V c t.val t.isLt).1 (ix2 r (0 : Fin 1)) = lseArrS V c (((cfg0.win 4).blk t).view.emb (ix2 r (0 : Fin 1)))
  rw [(out_eq0 V c t h124 r).1, emb0_4]
  rfl
theorem flushed_eq0_5 (c : Dev nD) (t : Fin cfg0.N) (hf : (cfg0.win 5).flush t = true) :
    (dat0 V c).flushed 5 t = ((cfg0.win 5).blk t).view.read (Elt Ideal) (lseArrT V c) := by
  have h124 : t.val % 125 = 124 := (flush0_5 t).mp hf
  show (cfg0.win 5).cut (grid0.coords t) ((dat0 V c).after 5 t) = _
  rw [after0_5]
  funext y
  obtain ⟨r, u, rfl⟩ : ∃ (r : Fin 1024) (u : Fin 1), y = ix2 r u := ⟨y 0, y 1, eq_ix2 y⟩
  obtain rfl : u = 0 := Subsingleton.elim _ _
  rw [View.read_apply]
  show (outsAt0 V c t.val t.isLt).2.1 (ix2 r (0 : Fin 1)) = lseArrT V c (((cfg0.win 5).blk t).view.emb (ix2 r (0 : Fin 1)))
  rw [(out_eq0 V c t h124 r).2, emb0_5]
  rfl

/-- So the two result arrays end holding them. -/
theorem final0_4 (c : Dev nD) : (dat0 V c).arrAt 4 cfg0.N = lseArrS V c :=
  (dat0 V c).arrAt_eq_of_cover 4 (lseArrS V c) (flushed_eq0_4 V c) covered0_4
theorem final0_5 (c : Dev nD) : (dat0 V c).arrAt 5 cfg0.N = lseArrT V c :=
  (dat0 V c).arrAt_eq_of_cover 5 (lseArrT V c) (flushed_eq0_5 V c) covered0_5

end Cert.KernelIdeal.Hand

end
-- ==== Proof.PayLoss.lean ====
/-
  The loss kernel's arithmetic read at an index, over the extended reals.

  For one tile of 256 vocabulary entries the kernel forms the student's and the teacher's logits (a row of hidden states
  against a row of the projection tile, summed over the hidden axis), subtracts each row's log-sum-exp to get the
  log-probabilities `b = log Q` and `a = log P`, takes `log M = log (c·exp a + c·exp b)`, and adds to the row's accumulator
      c · Σ_j exp a_j (a_j − log M_j)  +  c · Σ_j exp b_j (b_j − log M_j),
  the two sums being the integrands `iP`, `iQ` of the specification summed along the tile's row.
-/
import proofs.«168479_j71159018160660_2_alg».proof.Proof.Spec
import proofs.«168479_j71159018160660_2_alg».proof.Proof.LibColumnLayout
import proofs.«168479_j71159018160660_2_alg».proof.Proof.LibReduceLayout
import proofs.«168479_j71159018160660_2_alg».proof.Proof.LibMaxLayout
import proofs.«168479_j71159018160660_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.PayLoss

open Cert.KernelIdeal Cert.KernelIdeal.Gen Idealize.ShloMosaic Idealize.ShloMosaic.ValueIdx Cert.Spec

/-- The student's logits tile at `(r, j)`: row `r` of the hidden-state block against row `j` of the weight tile, both contracted along their second axis. -/
theorem matmul_student_apply (x : FVec Ideal S1024x2048 .bf16) (w : FVec Ideal S256x2048 .bf16) (r : Fin 1024) (j : Fin 256) :
    matmul dot_S1024x2048_S256x2048_S1024x256_1_1_0_0_n_n none x w (constant (F := Ideal) S1024x256 .f32 0x00000000#32) (ix2 r j)
      = ∑ h : Fin 2048, x (ix2 r h) * w (ix2 j h) := by
  refine (Ideal.matmul_constant_zero_apply dot_S1024x2048_S256x2048_S1024x256_1_1_0_0_n_n none x w (ix2 r j)).trans ?_
  rw [← Equiv.sum_comp (ValueIdx.contrEquiv1 dot_S1024x2048_S256x2048_S1024x256_1_1_0_0_n_n 2048 rfl rfl).symm]
  refine Finset.sum_congr rfl fun k _ => ?_
  have hk := ValueIdx.contrEquiv1_symm_val dot_S1024x2048_S256x2048_S1024x256_1_1_0_0_n_n 2048 rfl rfl k
  have el : dot_S1024x2048_S256x2048_S1024x256_1_1_0_0_n_n.lhsIdx (ix2 r j) ((ValueIdx.contrEquiv1 dot_S1024x2048_S256x2048_S1024x256_1_1_0_0_n_n 2048 rfl rfl).symm k) = ix2 r k := funext fun a => Fin.ext (by
    match a with
    | ⟨0, _⟩ => rfl
    | ⟨1, _⟩ => exact (DotDims.lhsIdx_val_of_single _ rfl _ _).trans hk)
  have er : dot_S1024x2048_S256x2048_S1024x256_1_1_0_0_n_n.rhsIdx (ix2 r j) ((ValueIdx.contrEquiv1 dot_S1024x2048_S256x2048_S1024x256_1_1_0_0_n_n 2048 rfl rfl).symm k) = ix2 j k := funext fun a => Fin.ext (by
    match a with
    | ⟨0, _⟩ => rfl
    | ⟨1, _⟩ => exact (DotDims.rhsIdx_val_of_single _ rfl _ _).trans hk)
  rw [el, er]

/-- The teacher's logits tile at `(r, j)`, likewise. -/
theorem matmul_teacher_apply (x : FVec Ideal S1024x4096 .bf16) (w : FVec Ideal S256x4096 .bf16) (r : Fin 1024) (j : Fin 256) :
    matmul dot_S1024x4096_S256x4096_S1024x256_1_1_0_0_n_n none x w (constant (F := Ideal) S1024x256 .f32 0x00000000#32) (ix2 r j)
      = ∑ h : Fin 4096, x (ix2 r h) * w (ix2 j h) := by
  refine (Ideal.matmul_constant_zero_apply dot_S1024x4096_S256x4096_S1024x256_1_1_0_0_n_n none x w (ix2 r j)).trans ?_
  rw [← Equiv.sum_comp (ValueIdx.contrEquiv1 dot_S1024x4096_S256x4096_S1024x256_1_1_0_0_n_n 4096 rfl rfl).symm]
  refine Finset.sum_congr rfl fun k _ => ?_
  have hk := ValueIdx.contrEquiv1_symm_val dot_S1024x4096_S256x4096_S1024x256_1_1_0_0_n_n 4096 rfl rfl k
  have el : dot_S1024x4096_S256x4096_S1024x256_1_1_0_0_n_n.lhsIdx (ix2 r j) ((ValueIdx.contrEquiv1 dot_S1024x4096_S256x4096_S1024x256_1_1_0_0_n_n 4096 rfl rfl).symm k) = ix2 r k := funext fun a => Fin.ext (by
    match a with
    | ⟨0, _⟩ => rfl
    | ⟨1, _⟩ => exact (DotDims.lhsIdx_val_of_single _ rfl _ _).trans hk)
  have er : dot_S1024x4096_S256x4096_S1024x256_1_1_0_0_n_n.rhsIdx (ix2 r j) ((ValueIdx.contrEquiv1 dot_S1024x4096_S256x4096_S1024x256_1_1_0_0_n_n 4096 rfl rfl).symm k) = ix2 j k := funext fun a => Fin.ext (by
    match a with
    | ⟨0, _⟩ => rfl
    | ⟨1, _⟩ => exact (DotDims.rhsIdx_val_of_single _ rfl _ _).trans hk)
  rw [el, er]

/-- The student's log-probability tile: logit minus the row's log-sum-exp. -/
theorem pay3_apply (x0 : Vec Ideal S1024x2048 .bf16) (x1 : Vec Ideal S256x2048 .bf16) (x4 : Vec Ideal S1024x1 .f32) (r : Fin 1024) (j : Fin 256) :
    k1_pay3 (F := Ideal) x0 x1 x4 (ix2 r j) = (∑ h : Fin 2048, x0 (ix2 r h) * x1 (ix2 j h)) - x4 (ix2 r (0 : Fin 1)) := by
  unfold k1_pay3
  simp only [shapeCast_self]
  exact congrArg₂ (· - ·) (matmul_student_apply x0 x1 r j) (Cert.Lib.ColumnLayout.broadcastTo_a1_ab_apply x4 _ r j)

/-- The teacher's log-probability tile. -/
theorem pay4_apply (x2 : Vec Ideal S1024x4096 .bf16) (x3 : Vec Ideal S256x4096 .bf16) (x5 : Vec Ideal S1024x1 .f32) (r : Fin 1024) (j : Fin 256) :
    k1_pay4 (F := Ideal) x2 x3 x5 (ix2 r j) = (∑ h : Fin 4096, x2 (ix2 r h) * x3 (ix2 j h)) - x5 (ix2 r (0 : Fin 1)) := by
  unfold k1_pay4
  simp only [shapeCast_self]
  exact congrArg₂ (· - ·) (matmul_teacher_apply x2 x3 r j) (Cert.Lib.ColumnLayout.broadcastTo_a1_ab_apply x5 _ r j)

/-- The logarithm of the mean probability, from the two log-probability tiles. -/
theorem pay7_apply (x0 : Vec Ideal S1024x2048 .bf16) (x1 : Vec Ideal S256x2048 .bf16) (x2 : Vec Ideal S1024x4096 .bf16) (x3 : Vec Ideal S256x4096 .bf16)
    (x4 x5 : Vec Ideal S1024x1 .f32) (i : S1024x256.Idx) :
    k1_pay7 (F := Ideal) x0 x1 x2 x3 x4 x5 i
      = Ideal.log (Ideal.ofBits .f32 0x3F000000#32 * Ideal.exp (k1_pay4 (F := Ideal) x2 x3 x5 i)
          + Ideal.ofBits .f32 0x3F000000#32 * Ideal.exp (k1_pay3 (F := Ideal) x0 x1 x4 i)) := rfl

/-- The first summand's integrand at an index. -/
theorem integrandP_apply (x0 : Vec Ideal S1024x2048 .bf16) (x1 : Vec Ideal S256x2048 .bf16) (x2 : Vec Ideal S1024x4096 .bf16) (x3 : Vec Ideal S256x4096 .bf16)
    (x4 x5 : Vec Ideal S1024x1 .f32) (i : S1024x256.Idx) :
    mulf (k1_pay5 (F := Ideal) x2 x3 x5) (subf (k1_pay4 (F := Ideal) x2 x3 x5) (k1_pay7 (F := Ideal) x0 x1 x2 x3 x4 x5)) i
      = iP (Ideal.ofBits .f32 0x3F000000#32) (k1_pay4 (F := Ideal) x2 x3 x5 i) (k1_pay3 (F := Ideal) x0 x1 x4 i) := rfl

/-- The second summand's integrand at an index. -/
theorem pay9_apply (x0 : Vec Ideal S1024x2048 .bf16) (x1 : Vec Ideal S256x2048 .bf16) (x2 : Vec Ideal S1024x4096 .bf16) (x3 : Vec Ideal S256x4096 .bf16)
    (x4 x5 : Vec Ideal S1024x1 .f32) (i : S1024x256.Idx) :
    k1_pay9 (F := Ideal) x0 x1 x2 x3 x4 x5 i
      = iQ (Ideal.ofBits .f32 0x3F000000#32) (k1_pay4 (F := Ideal) x2 x3 x5 i) (k1_pay3 (F := Ideal) x0 x1 x4 i) := rfl

/-- A row sum kept as a column: the sum along the second axis, cast from `[1024]` to `[1024, 1]`, read at row `r`. -/
theorem rowSum_col_apply (v : FVec Ideal S1024x256 .f32) (r : Fin 1024) :
    shapeCast S1024x1 (multiReduction .add [1] S1024 v 0x00000000#32 reduces_S1024x256_S1024 (.inl rfl) rfl) shapeCasts_S1024_S1024x1 (ix2 r (0 : Fin 1))
      = ∑ j : Fin 256, v (ix2 r j) :=
  (Cert.Lib.ColumnLayout.shapeCast_a_a1_apply _ shapeCasts_S1024_S1024x1 r (0 : Fin 1)).trans
    (Cert.Lib.ReduceLayout.sum_axis1_apply v 0x00000000#32 reduces_S1024x256_S1024 (.inl rfl) rfl r)

/-- The first summand of a tile's term at row `r`. -/
theorem pay8_apply (x0 : Vec Ideal S1024x2048 .bf16) (x1 : Vec Ideal S256x2048 .bf16) (x2 : Vec Ideal S1024x4096 .bf16) (x3 : Vec Ideal S256x4096 .bf16)
    (x4 x5 : Vec Ideal S1024x1 .f32) (r : Fin 1024) :
    k1_pay8 (F := Ideal) x0 x1 x2 x3 x4 x5 (ix2 r (0 : Fin 1))
      = Ideal.ofBits .f32 0x3F000000#32 * (∑ j : Fin 256, iP (Ideal.ofBits .f32 0x3F000000#32)
          ((∑ h : Fin 4096, x2 (ix2 r h) * x3 (ix2 j h)) - x5 (ix2 r (0 : Fin 1))) ((∑ h : Fin 2048, x0 (ix2 r h) * x1 (ix2 j h)) - x4 (ix2 r (0 : Fin 1)))) := by
  unfold k1_pay8
  show Ideal.ofBits .f32 0x3F000000#32 * shapeCast S1024x1 (multiReduction .add [1] S1024
      (mulf (k1_pay5 (F := Ideal) x2 x3 x5) (subf (k1_pay4 (F := Ideal) x2 x3 x5) (k1_pay7 (F := Ideal) x0 x1 x2 x3 x4 x5)))
      0x00000000#32 reduces_S1024x256_S1024 (.inl rfl) rfl) shapeCasts_S1024_S1024x1 (ix2 r (0 : Fin 1)) = _
  refine congrArg (Ideal.ofBits .f32 0x3F000000#32 * ·) ((rowSum_col_apply _ r).trans (Finset.sum_congr rfl fun j _ => ?_))
  refine (integrandP_apply x0 x1 x2 x3 x4 x5 (ix2 r j)).trans ?_
  rw [pay4_apply, pay3_apply]

/-- One step of the accumulator at row `r`: the old value plus the tile's term. -/
theorem step (x0 : Vec Ideal S1024x2048 .bf16) (x1 : Vec Ideal S256x2048 .bf16) (x2 : Vec Ideal S1024x4096 .bf16) (x3 : Vec Ideal S256x4096 .bf16) (x4 x5 xs : Vec Ideal S1024x1 .f32) (r : Fin 1024) :
    k1_pay1 (F := Ideal) (k1_pay8 x0 x1 x2 x3 x4 x5) (k1_pay9 x0 x1 x2 x3 x4 x5) xs (ix2 r (0 : Fin 1))
      = xs (ix2 r (0 : Fin 1))
        + (Ideal.ofBits .f32 0x3F000000#32 * (∑ j : Fin 256, iP (Ideal.ofBits .f32 0x3F000000#32) ((∑ h : Fin 4096, x2 (ix2 r h) * x3 (ix2 j h)) - x5 (ix2 r (0 : Fin 1))) ((∑ h : Fin 2048, x0 (ix2 r h) * x1 (ix2 j h)) - x4 (ix2 r (0 : Fin 1))))
           + Ideal.ofBits .f32 0x3F000000#32 * (∑ j : Fin 256, iQ (Ideal.ofBits .f32 0x3F000000#32) ((∑ h : Fin 4096, x2 (ix2 r h) * x3 (ix2 j h)) - x5 (ix2 r (0 : Fin 1))) ((∑ h : Fin 2048, x0 (ix2 r h) * x1 (ix2 j h)) - x4 (ix2 r (0 : Fin 1))))) := by
  unfold k1_pay1
  simp only [shapeCast_self]
  show xs (ix2 r (0 : Fin 1)) + (k1_pay8 (F := Ideal) x0 x1 x2 x3 x4 x5 (ix2 r (0 : Fin 1))
      + Ideal.ofBits .f32 0x3F000000#32 * shapeCast S1024x1 (multiReduction .add [1] S1024 (k1_pay9 (F := Ideal) x0 x1 x2 x3 x4 x5)
          0x00000000#32 reduces_S1024x256_S1024 (.inl rfl) rfl) shapeCasts_S1024_S1024x1 (ix2 r (0 : Fin 1))) = _
  refine congrArg (xs (ix2 r (0 : Fin 1)) + ·) (congrArg₂ (· + ·) (pay8_apply x0 x1 x2 x3 x4 x5 r) (congrArg (Ideal.ofBits .f32 0x3F000000#32 * ·) ?_))
  refine (rowSum_col_apply _ r).trans (Finset.sum_congr rfl fun j _ => ?_)
  rw [pay9_apply, pay4_apply, pay3_apply]

/-- The accumulator starts from zero. -/
theorem reset (r : Fin 1024) : k1_pay2 (F := Ideal) (ix2 r (0 : Fin 1)) = 0 := by
  unfold k1_pay2
  simp only [shapeCast_self]
  exact Ideal.ofBits_zero_f32

end Cert.PayLoss

end
-- ==== Proof.FrameKernelIdeal.ValueLoss.lean ====
/-
  The second region's result, row by row.  At grid point (row block i, vocabulary step v) the kept column buffer holds,
  in row r, the sum of the tiles' Jensen–Shannon terms of steps 0 … v for the array row p = 1024·i + r — by induction on
  the point: step 0 resets the buffer and adds the first tile's term, every later step adds its tile's term, and a
  tile's term is the specification's, because the point's blocks are row p of the hidden states against rows
  256·v … 256·v + 255 of the projection matrices, and the two log-sum-exp columns read at row p.  The last step copies
  the buffer into the result column's block, which the pipeline writes back to rows 1024·i … of the result array.
-/
import proofs.«168479_j71159018160660_2_alg».proof.Proof.FrameKernelIdeal.Pieces
import proofs.«168479_j71159018160660_2_alg».proof.Proof.FrameKernelIdeal.Blocks
import proofs.«168479_j71159018160660_2_alg».proof.Proof.PayLoss
import proofs.«168479_j71159018160660_2_alg».proof.Proof.FrameKernelIdeal.Rows

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Spec

variable (V : (c : Dev nD) → (b : Ref sig .tc) → Buf (Elt Ideal) ((c : Thread nD τ).loc b))

/-- The two log-sum-exp columns at row `p`. -/
def lsAt (c : Dev nD) (p : Fin 2048) : EReal := (V c main_v4_0 : S2048x1.Idx → EReal) (ix2 p (0 : Fin 1))
def ltAt (c : Dev nD) (p : Fin 2048) : EReal := (V c main_v4_1 : S2048x1.Idx → EReal) (ix2 p (0 : Fin 1))

/-- The array row that row `r` of the block at position `n` is. -/
def rowOf1 (n : ℕ) (hn : n < cfg1.N) (r : Fin 1024) : Fin 2048 :=
  ⟨n / 125 * 1024 + r.val, by have : cfg1.N = 250 := N_1; have := r.isLt; omega⟩

/-- A step over blocks that are a tile of rows `s`, `t` and the two log-sum-exps adds the specification's term. -/
theorem step_gen1 (x0 : Vec Ideal S1024x2048 .bf16) (x1 : Vec Ideal S256x2048 .bf16) (x2 : Vec Ideal S1024x4096 .bf16) (x3 : Vec Ideal S256x4096 .bf16)
    (x4 x5 xs : Vec Ideal S1024x1 .f32) (r : Fin 1024) (s t : Fin 32000 → EReal) (ls lt : EReal) (v : ℕ)
    (hs : (fun j : Fin 256 => ∑ h : Fin 2048, x0 (ix2 r h) * x1 (ix2 j h)) = chunkOf s v)
    (ht : (fun j : Fin 256 => ∑ h : Fin 4096, x2 (ix2 r h) * x3 (ix2 j h)) = chunkOf t v)
    (h4 : x4 (ix2 r (0 : Fin 1)) = ls) (h5 : x5 (ix2 r (0 : Fin 1)) = lt) :
    k1_pay1 (F := Ideal) (k1_pay8 x0 x1 x2 x3 x4 x5) (k1_pay9 x0 x1 x2 x3 x4 x5) xs (ix2 r (0 : Fin 1))
      = xs (ix2 r (0 : Fin 1)) + termK cH s t ls lt v := by
  refine (Cert.PayLoss.step x0 x1 x2 x3 x4 x5 xs r).trans ?_
  unfold termK
  rw [← hs, ← ht, ← h4, ← h5]

/-- What a step adds to row `r`, whatever the buffer held: the specification's term of the tile. -/
theorem step_eq1 (c : Dev nD) (t : Fin cfg1.N) (xs : Vec Ideal S1024x1 .f32) (r : Fin 1024) :
    k1_pay1 (F := Ideal) (k1_pay8 (iblk1 V c 0 t) (iblk1 V c 1 t) (iblk1 V c 2 t) (iblk1 V c 3 t) (iblk1 V c 4 t) (iblk1 V c 5 t)) (k1_pay9 (iblk1 V c 0 t) (iblk1 V c 1 t) (iblk1 V c 2 t) (iblk1 V c 3 t) (iblk1 V c 4 t) (iblk1 V c 5 t)) xs (ix2 r (0 : Fin 1))
      = xs (ix2 r (0 : Fin 1)) + termK cH (sRow V c (rowOf1 t.val t.isLt r)) (tRow V c (rowOf1 t.val t.isLt r))
          (lsAt V c (rowOf1 t.val t.isLt r)) (ltAt V c (rowOf1 t.val t.isLt r)) (t.val % 125) := by
  exact step_gen1 (iblk1 V c 0 t) (iblk1 V c 1 t) (iblk1 V c 2 t) (iblk1 V c 3 t) (iblk1 V c 4 t) (iblk1 V c 5 t) xs r _ _ _ _ _
    (tile_gen (iblk1 V c 0 t) (iblk1 V c 1 t) (V c main_v0) (V c main_v1) (rowOf1 t.val t.isLt r) (t.val % 125) (Nat.mod_lt _ (by decide)) r
      (fun h => blk1_0 V c t r h) (fun j h => blk1_1 V c t j h))
    (tile_gen (iblk1 V c 2 t) (iblk1 V c 3 t) (V c main_v2) (V c main_v3) (rowOf1 t.val t.isLt r) (t.val % 125) (Nat.mod_lt _ (by decide)) r
      (fun h => blk1_2 V c t r h) (fun j h => blk1_3 V c t j h))
    (blk1_4 V c t r 0) (blk1_5 V c t r 0)

/-- THE RUNNING SUM: after position `n` the kept buffer holds, in row `r`, the accumulated terms of steps 0 … n % 125. -/
theorem acc_eq1 (c : Dev nD) : ∀ (n : ℕ) (hn : n < cfg1.N) (r : Fin 1024),
    (outsAt1 V c n hn).2 (ix2 r (0 : Fin 1))
      = accK cH (sRow V c (rowOf1 n hn r)) (tRow V c (rowOf1 n hn r)) (lsAt V c (rowOf1 n hn r)) (ltAt V c (rowOf1 n hn r)) (n % 125)
  | 0, hn, r => by
    have e := outsAt1_A V c ⟨0, hn⟩ (Nat.zero_mod _) (by show ¬(0 : ℕ) % 125 = 124; decide)
    rw [show outsAt1 V c 0 hn = _ from e, sA1, step_eq1 V c ⟨0, hn⟩, Cert.PayLoss.reset]
    rfl
  | n + 1, hn, r => by
    have hN : cfg1.N = 250 := N_1
    by_cases h0 : (n + 1) % 125 = 0
    · have h1 : ¬(n + 1) % 125 = 124 := by omega
      have e := outsAt1_A V c ⟨n + 1, hn⟩ h0 h1
      rw [show outsAt1 V c (n + 1) hn = _ from e, sA1, step_eq1 V c ⟨n + 1, hn⟩, Cert.PayLoss.reset]
      show 0 + termK cH _ _ _ _ ((n + 1) % 125) = accK cH _ _ _ _ ((n + 1) % 125)
      rw [h0]; rfl
    · have hdiv : (n + 1) / 125 = n / 125 := by omega
      have hmod : (n + 1) % 125 = n % 125 + 1 := by omega
      have hrow : rowOf1 (n + 1) hn r = rowOf1 n (Nat.lt_of_succ_lt hn) r := Fin.ext (by show (n + 1) / 125 * 1024 + r.val = n / 125 * 1024 + r.val; rw [hdiv])
      have ih := acc_eq1 c n (Nat.lt_of_succ_lt hn) r
      by_cases h1 : (n + 1) % 125 = 124
      · have e := outsAt1_C V c ⟨n + 1, hn⟩ h0 h1
        rw [show outsAt1 V c (n + 1) hn = _ from e, sC1s, step_eq1 V c ⟨n + 1, hn⟩]
        show (outsAt1 V c n _).2 (ix2 r (0 : Fin 1)) + termK cH _ _ _ _ ((n + 1) % 125) = _
        rw [ih, hrow, hmod]; rfl
      · have e := outsAt1_B V c ⟨n + 1, hn⟩ h0 h1
        rw [show outsAt1 V c (n + 1) hn = _ from e, sB1, step_eq1 V c ⟨n + 1, hn⟩]
        show (outsAt1 V c n _).2 (ix2 r (0 : Fin 1)) + termK cH _ _ _ _ ((n + 1) % 125) = _
        rw [ih, hrow, hmod]; rfl

/-- At the last step of a row block the result column's staging buffer holds what the kept buffer ends with. -/
theorem out_eq1 (c : Dev nD) (t : Fin cfg1.N) (h124 : t.val % 125 = 124) (r : Fin 1024) :
    (outsAt1 V c t.val t.isLt).1 (ix2 r (0 : Fin 1))
      = accK cH (sRow V c (rowOf1 t.val t.isLt r)) (tRow V c (rowOf1 t.val t.isLt r)) (lsAt V c (rowOf1 t.val t.isLt r)) (ltAt V c (rowOf1 t.val t.isLt r)) 124 := by
  have h0 : ¬t.val % 125 = 0 := by omega
  have e := acc_eq1 V c t.val t.isLt r
  rw [outsAt1_C V c t h0 h124, sC1s] at e
  rw [outsAt1_C V c t h0 h124, sC1, e, h124]

/-- The result array after the region, as one function of the index: the accumulated terms of the index's row. -/
def lossArr (c : Dev nD) : S2048x1.Idx → EReal := fun i =>
  accK cH (sRow V c (i 0)) (tRow V c (i 0)) (lsAt V c (i 0)) (ltAt V c (i 0)) 124

/-- What a flushing point writes back is its block of that function. -/
theorem flushed_eq1 (c : Dev nD) (t : Fin cfg1.N) (hf : (cfg1.win 6).flush t = true) :
    (dat1 V c).flushed 6 t = ((cfg1.win 6).blk t).view.read (Elt Ideal) (lossArr V c) := by
  have h124 : t.val % 125 = 124 := (flush1_6 t).mp hf
  show (cfg1.win 6).cut (grid1.coords t) ((dat1 V c).after 6 t) = _
  rw [after1_6]
  funext y
  obtain ⟨r, u, rfl⟩ : ∃ (r : Fin 1024) (u : Fin 1), y = ix2 r u := ⟨y 0, y 1, eq_ix2 y⟩
  obtain rfl : u = 0 := Subsingleton.elim _ _
  rw [View.read_apply]
  show (outsAt1 V c t.val t.isLt).1 (ix2 r (0 : Fin 1)) = lossArr V c (((cfg1.win 6).blk t).view.emb (ix2 r (0 : Fin 1)))
  rw [out_eq1 V c t h124 r, emb1_6]
  rfl

/-- So the result array ends holding it. -/
theorem final1 (c : Dev nD) : (dat1 V c).arrAt 6 cfg1.N = lossArr V c :=
  (dat1 V c).arrAt_eq_of_cover 6 (lossArr V c) (flushed_eq1 V c) covered1_6

end Cert.KernelIdeal.Hand

end
-- ==== Proof.FrameKernelIdeal.Run.lean ====
/-
  The whole program as a list of segments: the four casts of the inputs, the first region, the second region,
  then the masked mean over the rows in three stretches of host operations.  The buffer contents at every segment
  boundary are a fold from the launch memory — a host stretch applies its operations, a region leaves its arrays at
  what its write-backs leave and every other buffer as it found it — and the run ends with every unscoped buffer
  at the last boundary's contents.  The argument arrays are written by no segment.
-/
import proofs.«168479_j71159018160660_2_alg».proof.Proof.FrameKernelIdeal.StatsFrame
import proofs.«168479_j71159018160660_2_alg».proof.Proof.FrameKernelIdeal.LossFrame
import proofs.«168479_j71159018160660_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- At launch. -/
abbrev mem0 : Dev nD → Valuation τ sig (Elt F) := fun c b => m (c, b)
/-- After the four casts (the first region's entry). -/
abbrev mem1 : Dev nD → Valuation τ sig (Elt F) := fun c => StableHlo.after hostOps0 (mem0 m c)
abbrev ent0 : (c : Dev nD) → (b : Ref sig .tc) → Buf (Elt F) ((c : Thread nD τ).loc b) := fun c b => mem1 m c b
/-- After the first region: its arrays at what the pipeline leaves, every other buffer as entered. -/
def mem2 (c : Dev nD) : Valuation τ sig (Elt F) :=
  Pipeline.withArrays spec0 c (mem1 m c) fun w => (dat0 (ent0 m) c).arrAt w cfg0.N
theorem mem2_arr (c : Dev nD) (w : Fin cfg0.W) :
    mem2 m c (Proc.devRef .tc (Pipeline.arrRef spec0 w)) = (dat0 (ent0 m) c).arrAt w cfg0.N := by
  unfold mem2; exact Pipeline.withArrays_arr spec0 launch0.win.arr_inj c _ _ w
theorem mem2_of_ne (c : Dev nD) (b : Ref sig .tc) (hb : ∀ w, Pipeline.arrRef spec0 w ≠ b) :
    mem2 m c (Proc.devRef .tc b) = mem1 m c (Proc.devRef .tc b) := by
  unfold mem2; exact Pipeline.withArrays_of_ne spec0 c _ _ b hb
abbrev ent1 : (c : Dev nD) → (b : Ref sig .tc) → Buf (Elt F) ((c : Thread nD τ).loc b) := fun c b => mem2 m c b
theorem hF0 (c : Dev nD) (w : Fin cfg0.W) : (dat0 (ent0 m) c).arrAt w cfg0.N = ent1 m c (Pipeline.arrRef spec0 w) :=
  (mem2_arr m c w).symm
theorem hrest0 (c : Dev nD) : ∀ b, b ∉ Finset.univ.image (Pipeline.arrRef spec0) → ent1 m c b = ent0 m c b :=
  fun b hb => mem2_of_ne m c b fun w e => hb (Finset.mem_image.mpr ⟨w, Finset.mem_univ _, e⟩)
/-- After the second region. -/
def mem3 (c : Dev nD) : Valuation τ sig (Elt F) :=
  Pipeline.withArrays spec1 c (mem2 m c) fun w => (dat1 (ent1 m) c).arrAt w cfg1.N
theorem mem3_arr (c : Dev nD) (w : Fin cfg1.W) :
    mem3 m c (Proc.devRef .tc (Pipeline.arrRef spec1 w)) = (dat1 (ent1 m) c).arrAt w cfg1.N := by
  unfold mem3; exact Pipeline.withArrays_arr spec1 launch1.win.arr_inj c _ _ w
theorem mem3_of_ne (c : Dev nD) (b : Ref sig .tc) (hb : ∀ w, Pipeline.arrRef spec1 w ≠ b) :
    mem3 m c (Proc.devRef .tc b) = mem2 m c (Proc.devRef .tc b) := by
  unfold mem3; exact Pipeline.withArrays_of_ne spec1 c _ _ b hb
abbrev ext1 : (c : Dev nD) → (b : Ref sig .tc) → Buf (Elt F) ((c : Thread nD τ).loc b) := fun c b => mem3 m c b
theorem hF1 (c : Dev nD) (w : Fin cfg1.W) : (dat1 (ent1 m) c).arrAt w cfg1.N = ext1 m c (Pipeline.arrRef spec1 w) :=
  (mem3_arr m c w).symm
theorem hrest1 (c : Dev nD) : ∀ b, b ∉ Finset.univ.image (Pipeline.arrRef spec1) → ext1 m c b = ent1 m c b :=
  fun b hb => mem3_of_ne m c b fun w e => hb (Finset.mem_image.mpr ⟨w, Finset.mem_univ _, e⟩)
/-- After each of the three closing stretches of host operations. -/
abbrev mem4 : Dev nD → Valuation τ sig (Elt F) := fun c => StableHlo.after hostOps2 (mem3 m c)
abbrev mem5 : Dev nD → Valuation τ sig (Elt F) := fun c => StableHlo.after hostOps2_1 (mem4 m c)
abbrev mem6 : Dev nD → Valuation τ sig (Elt F) := fun c => StableHlo.after hostOps2_2 (mem5 m c)

/-! ### No segment writes an argument array -/
theorem mem6_main_arg0 (c : Dev nD) : mem6 m c (Proc.devRef .tc main_arg0) = m ((c : Thread nD τ).loc main_arg0) :=
  calc mem6 m c (Proc.devRef .tc main_arg0)
    _ = mem5 m c (Proc.devRef .tc main_arg0) := StableHlo.after_of_writes_sub hostOps2_2 _ hostOps2_2_writes (by decide : main_arg0 ∉ hostOps2_2_W)
    _ = mem4 m c (Proc.devRef .tc main_arg0) := StableHlo.after_of_writes_sub hostOps2_1 _ hostOps2_1_writes (by decide : main_arg0 ∉ hostOps2_1_W)
    _ = mem3 m c (Proc.devRef .tc main_arg0) := StableHlo.after_of_writes_sub hostOps2 _ hostOps2_writes (by decide : main_arg0 ∉ hostOps2_W)
    _ = mem2 m c (Proc.devRef .tc main_arg0) := mem3_of_ne m c main_arg0 (by decide)
    _ = mem1 m c (Proc.devRef .tc main_arg0) := mem2_of_ne m c main_arg0 (by decide)
    _ = mem0 m c (Proc.devRef .tc main_arg0) := StableHlo.after_of_writes_sub hostOps0 _ hostOps0_writes (by decide : main_arg0 ∉ hostOps0_W)
    _ = m ((c : Thread nD τ).loc main_arg0) := rfl

theorem mem6_main_arg1 (c : Dev nD) : mem6 m c (Proc.devRef .tc main_arg1) = m ((c : Thread nD τ).loc main_arg1) :=
  calc mem6 m c (Proc.devRef .tc main_arg1)
    _ = mem5 m c (Proc.devRef .tc main_arg1) := StableHlo.after_of_writes_sub hostOps2_2 _ hostOps2_2_writes (by decide : main_arg1 ∉ hostOps2_2_W)
    _ = mem4 m c (Proc.devRef .tc main_arg1) := StableHlo.after_of_writes_sub hostOps2_1 _ hostOps2_1_writes (by decide : main_arg1 ∉ hostOps2_1_W)
    _ = mem3 m c (Proc.devRef .tc main_arg1) := StableHlo.after_of_writes_sub hostOps2 _ hostOps2_writes (by decide : main_arg1 ∉ hostOps2_W)
    _ = mem2 m c (Proc.devRef .tc main_arg1) := mem3_of_ne m c main_arg1 (by decide)
    _ = mem1 m c (Proc.devRef .tc main_arg1) := mem2_of_ne m c main_arg1 (by decide)
    _ = mem0 m c (Proc.devRef .tc main_arg1) := StableHlo.after_of_writes_sub hostOps0 _ hostOps0_writes (by decide : main_arg1 ∉ hostOps0_W)
    _ = m ((c : Thread nD τ).loc main_arg1) := rfl

theorem mem6_main_arg2 (c : Dev nD) : mem6 m c (Proc.devRef .tc main_arg2) = m ((c : Thread nD τ).loc main_arg2) :=
  calc mem6 m c (Proc.devRef .tc main_arg2)
    _ = mem5 m c (Proc.devRef .tc main_arg2) := StableHlo.after_of_writes_sub hostOps2_2 _ hostOps2_2_writes (by decide : main_arg2 ∉ hostOps2_2_W)
    _ = mem4 m c (Proc.devRef .tc main_arg2) := StableHlo.after_of_writes_sub hostOps2_1 _ hostOps2_1_writes (by decide : main_arg2 ∉ hostOps2_1_W)
    _ = mem3 m c (Proc.devRef .tc main_arg2) := StableHlo.after_of_writes_sub hostOps2 _ hostOps2_writes (by decide : main_arg2 ∉ hostOps2_W)
    _ = mem2 m c (Proc.devRef .tc main_arg2) := mem3_of_ne m c main_arg2 (by decide)
    _ = mem1 m c (Proc.devRef .tc main_arg2) := mem2_of_ne m c main_arg2 (by decide)
    _ = mem0 m c (Proc.devRef .tc main_arg2) := StableHlo.after_of_writes_sub hostOps0 _ hostOps0_writes (by decide : main_arg2 ∉ hostOps0_W)
    _ = m ((c : Thread nD τ).loc main_arg2) := rfl

theorem mem6_main_arg3 (c : Dev nD) : mem6 m c (Proc.devRef .tc main_arg3) = m ((c : Thread nD τ).loc main_arg3) :=
  calc mem6 m c (Proc.devRef .tc main_arg3)
    _ = mem5 m c (Proc.devRef .tc main_arg3) := StableHlo.after_of_writes_sub hostOps2_2 _ hostOps2_2_writes (by decide : main_arg3 ∉ hostOps2_2_W)
    _ = mem4 m c (Proc.devRef .tc main_arg3) := StableHlo.after_of_writes_sub hostOps2_1 _ hostOps2_1_writes (by decide : main_arg3 ∉ hostOps2_1_W)
    _ = mem3 m c (Proc.devRef .tc main_arg3) := StableHlo.after_of_writes_sub hostOps2 _ hostOps2_writes (by decide : main_arg3 ∉ hostOps2_W)
    _ = mem2 m c (Proc.devRef .tc main_arg3) := mem3_of_ne m c main_arg3 (by decide)
    _ = mem1 m c (Proc.devRef .tc main_arg3) := mem2_of_ne m c main_arg3 (by decide)
    _ = mem0 m c (Proc.devRef .tc main_arg3) := StableHlo.after_of_writes_sub hostOps0 _ hostOps0_writes (by decide : main_arg3 ∉ hostOps0_W)
    _ = m ((c : Thread nD τ).loc main_arg3) := rfl

theorem mem6_main_arg4 (c : Dev nD) : mem6 m c (Proc.devRef .tc main_arg4) = m ((c : Thread nD τ).loc main_arg4) :=
  calc mem6 m c (Proc.devRef .tc main_arg4)
    _ = mem5 m c (Proc.devRef .tc main_arg4) := StableHlo.after_of_writes_sub hostOps2_2 _ hostOps2_2_writes (by decide : main_arg4 ∉ hostOps2_2_W)
    _ = mem4 m c (Proc.devRef .tc main_arg4) := StableHlo.after_of_writes_sub hostOps2_1 _ hostOps2_1_writes (by decide : main_arg4 ∉ hostOps2_1_W)
    _ = mem3 m c (Proc.devRef .tc main_arg4) := StableHlo.after_of_writes_sub hostOps2 _ hostOps2_writes (by decide : main_arg4 ∉ hostOps2_W)
    _ = mem2 m c (Proc.devRef .tc main_arg4) := mem3_of_ne m c main_arg4 (by decide)
    _ = mem1 m c (Proc.devRef .tc main_arg4) := mem2_of_ne m c main_arg4 (by decide)
    _ = mem0 m c (Proc.devRef .tc main_arg4) := StableHlo.after_of_writes_sub hostOps0 _ hostOps0_writes (by decide : main_arg4 ∉ hostOps0_W)
    _ = m ((c : Thread nD τ).loc main_arg4) := rfl

/-! ## The proof data family and the thread states -/

abbrev padm : (p : Fin 2) → (pcfgs (F := F) p).Adm := fun p => (cfgs p).toPCfg_adm
def pdat : (p : Fin 2) → (c : Dev nD) → Dat τ (Elt F) Unit ℕ (UR sig nD τ) ℕ (Pipeline.pin (pcfgs (F := F)) padm p) c
  | ⟨0, _⟩ => fun c => dat0 (ent0 m) c
  | ⟨1, _⟩ => fun c => dat1 (ent1 m) c
abbrev vrs : Variants := Variants.none
abbrev Ls : GSem nD τ sig → Finset Unit := fun _ => ∅
abbrev lvs : GSem nD τ sig → Unit → ℕ := fun _ _ => 0
/-- What rides beside the buffers through every segment: the generator register at some state, nothing owed. -/
abbrev Rr (c : Dev nD) : sProp 𝕄 := iprop((∃ r, prngReg c r) ∗ ∃ W, owes (c : Thread nD τ) (0 : CellTallies nD τ sig Unit) W)
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ vrs Ls lvs :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tn (c : Dev nD) : sProp 𝕄 := iprop(StableHlo.held (c : Thread nD τ) (Pipeline.ucRefs τ sig) (mem6 m c) ∗ ∃ r, prngReg c r)

/-! ## The regions as segments -/

set_option backward.isDefEq.respectTransparency.types false in
def rseg0 : Pipeline.RegionSeg (pcfgs (F := F)) padm (pdat m) () defs₀ vrs Ls lvs 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ Ls lvs 0 fun _ _ => rfl
  pre c := iprop(StableHlo.held (c : Thread nD τ) (Pipeline.ucRefs τ sig) (mem1 m c) ∗ Rr c)
  post c := iprop(StableHlo.held (c : Thread nD τ) (Pipeline.ucRefs τ sig) (mem2 m c) ∗ Rr c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) padm (pdat m) launch0.win launch0.arr_whole c
      ((pdat m 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdat m 0 c).Φ (Fin.last _) ⊢ Pipeline.ΦA spec0 c from hout0 (ent0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdat m) ((pdat m 0 c).share_full fun _ => rfl)
      (ent0 m c) (ent1 m c) ((pdat m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def rseg1 : Pipeline.RegionSeg (pcfgs (F := F)) padm (pdat m) () defs₀ vrs Ls lvs 1 where
  win := launch1.win.to₀
  block_pos := launch1.block_pos
  stage_whole := launch1.stage_whole
  K := PEmpty
  osem k := k.elim
  ho := Pipeline.OwnSemFacts.none _
  hbody c := (body_obligation1 (ent1 m) c).loose
  hwaits := Pipeline.hwaits_of_owed_zero _ _ _ _ Ls lvs 1 fun _ _ => rfl
  pre c := iprop(StableHlo.held (c : Thread nD τ) (Pipeline.ucRefs τ sig) (mem2 m c) ∗ Rr c)
  post c := iprop(StableHlo.held (c : Thread nD τ) (Pipeline.ucRefs τ sig) (mem3 m c) ∗ Rr c)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none]
    have hsplit := Pipeline.arrays_of_unscopedBufs (p := 1) (pcfgs (F := F)) padm (pdat m) launch1.win launch1.arr_whole c
      ((pdat m 1 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdat m 1 c).Φ (Fin.last _) ⊢ Pipeline.ΦA spec1 c from hout1 (ent1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdat m) ((pdat m 1 c).share_full fun _ => rfl)
      (ent1 m c) (ext1 m c) ((pdat m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev allSegs : List (Pipeline.Seg (pcfgs (F := F)) padm (pdat m) () defs₀ vrs Ls lvs) :=
  [ .host (hostSeg hostOps0 hostOps0_sub hostOps0_fresh (mem0 m)),
    .region (rseg0 m),
    .region (rseg1 m),
    .host (hostSeg hostOps2 hostOps2_sub hostOps2_fresh (mem3 m)),
    .host (hostSeg hostOps2_1 hostOps2_1_sub hostOps2_1_fresh (mem4 m)),
    .host (hostSeg hostOps2_2 hostOps2_2_sub hostOps2_2_fresh (mem5 m)) ]

set_option backward.isDefEq.respectTransparency.types false in
/-- THE RUN: from any memory with zero counters every weakly fair execution of @main terminates, nothing faulting, and
    every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = mem6 m c b) :=
  Pipeline.θ_run_regions_kit (pcfgs (F := F)) padm (pdat m) () cellOf_inj emb₁ defs₀ vrs Ls lvs m ρ main (allSegs m)
    (fun c Q => by
      rewrite [main_chain c, Pipeline.Seg.run_eq_chain,
        show (allSegs m).map Pipeline.Seg.prog = [
          StableHlo.seq hostOps0,
          Prog.lift (.customCall (Pipeline.entry 0) ()),
          Prog.lift (.customCall (Pipeline.entry 1) ()),
          StableHlo.seq hostOps2,
          StableHlo.seq hostOps2_1,
          StableHlo.seq hostOps2_2 ] from rfl]
      exact .rfl)
    (by simp only [allSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (mem0 m c) ∗ Rr c)) (Tₙ := Tn m)
    (hch := ⟨fun _ => .rfl, fun _ => .rfl, fun _ => .rfl, fun _ => .rfl, fun _ => .rfl, fun _ => .rfl, fun c => by
      show iprop(StableHlo.held (c : Thread nD τ) (Pipeline.ucRefs τ sig) (mem6 m c) ∗ Rr c)
        ⊢ iprop(Tn m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach Ls lvs fun c => ?_
      rw [show unscopedBufs c (fun b => m ((c : Thread nD τ).loc b)) = StableHlo.held (c : Thread nD τ) (Pipeline.ucRefs τ sig) (mem0 m c)
        from Pipeline.unscopedBufs_held c (mem0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = mem6 m c b)
    (hfin := fun c s' => by
      iintro ⟨⟨Hh, -⟩, HSI⟩
      unfold StableHlo.held
      imodintro
      iapply (pointsTo_read_all (Pipeline.ucRefs τ sig) (fun b => (((c : Thread nD τ)).1, b)) (mem6 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (mem6_main_arg0 m c),
     (h c _ (mem_uc main_arg1 (by decide))).trans (mem6_main_arg1 m c),
     (h c _ (mem_uc main_arg2 (by decide))).trans (mem6_main_arg2 m c),
     (h c _ (mem_uc main_arg3 (by decide))).trans (mem6_main_arg3 m c),
     (h c _ (mem_uc main_arg4 (by decide))).trans (mem6_main_arg4 m c)⟩) (run_all m ρ)

end Cert.KernelIdeal.Hand

end
-- ==== Proof.LibTypedRef.lean ====
/-
  A typed reference carries a proof that its buffer's type is the tensor value's type, and moves contents between the
  two types along that proof.  Moving a value to the buffer's type and back gives the value again: the two moves are
  transports along an equation and its inverse.  General in the signature, the type and the values.
-/
import Idealize.ShloMosaic.Lib.StableHlo

namespace Cert.Lib.TypedRef

open Idealize.ShloMosaic Idealize.ShloMosaic.StableHlo

/-- Contents moved to the buffer's own type and back are unchanged. -/
theorem ofBuf_toBuf {sig : RefSig} {T : BufTy} {Val : EltTy → Type} (x : TRef sig T) (v : T.Contents Val) :
    x.ofBuf (x.toBuf v) = v := by
  obtain ⟨r, h, _, _⟩ := x
  subst h
  rfl

end Cert.Lib.TypedRef
-- ==== Proof.HostSide.lean ====
/-
  The host side of the kernel program: what the two regions find on entry, and the closing masked mean.

  The four casts of the inputs to the narrower format are the identity over the extended reals, and no region changes
  an array it only reads, so both regions find the arguments themselves.  After the second region the program reshapes
  the column of per-row terms to a vector and applies the masked mean over the rows — keep the rows whose target is not
  the ignored index, sum them, divide by the number kept (at least one) — which are the closing operations of the
  reference on its own per-row vector: equal per-row vectors give equal results.
-/
import proofs.«168479_j71159018160660_2_alg».proof.Proof.FrameKernelIdeal.Run
import proofs.«168479_j71159018160660_2_alg».proof.Proof.RefReadP
import Idealize.ShloMosaic.Lib.StableHlo.Run

set_option maxRecDepth 16384

noncomputable section

namespace Cert.HostSide

open Cert.KernelIdeal Cert.KernelIdeal.Gen Cert.KernelIdeal.Hand Idealize.ShloMosaic Idealize.ShloMosaic.TcCoe

variable (m : (ℓ : Loc nD τ sig) → Buf (Elt Ideal) ℓ) (c : Dev nD)

/-! ## What the regions find on entry -/

/-- The first region finds the first argument in its first window's array: the cast is the identity. -/
theorem entry_v0 : (ent0 (F := Ideal) m c main_v0 : S2048x2048.Idx → EReal) = m ((c : Thread nD τ).loc main_arg0) := by
  show StableHlo.after hostOps0 (fun b => m (c, b)) (Proc.devRef .tc main_v0) = _
  after_results
  rfl

/-- The first region finds the second argument in its second window's array: the cast is the identity. -/
theorem entry_v1 : (ent0 (F := Ideal) m c main_v1 : S32000x2048.Idx → EReal) = m ((c : Thread nD τ).loc main_arg1) := by
  show StableHlo.after hostOps0 (fun b => m (c, b)) (Proc.devRef .tc main_v1) = _
  after_results
  rfl

/-- The first region finds the third argument in its third window's array: the cast is the identity. -/
theorem entry_v2 : (ent0 (F := Ideal) m c main_v2 : S2048x4096.Idx → EReal) = m ((c : Thread nD τ).loc main_arg2) := by
  show StableHlo.after hostOps0 (fun b => m (c, b)) (Proc.devRef .tc main_v2) = _
  after_results
  rfl

/-- The first region finds the fourth argument in its fourth window's array: the cast is the identity. -/
theorem entry_v3 : (ent0 (F := Ideal) m c main_v3 : S32000x4096.Idx → EReal) = m ((c : Thread nD τ).loc main_arg3) := by
  show StableHlo.after hostOps0 (fun b => m (c, b)) (Proc.devRef .tc main_v3) = _
  after_results
  rfl

/-- The second region finds the first window's array as the first region found it: the first region only reads it. -/
theorem entry1_v0 : ent1 (F := Ideal) m c main_v0 = ent0 m c main_v0 :=
  (mem2_arr m c 0).trans (((dat0 (ent0 m) c).arrAt_in 0 rfl _).trans (A_eq0 (ent0 m) c 0))

/-- The second region finds the second window's array as the first region found it: the first region only reads it. -/
theorem entry1_v1 : ent1 (F := Ideal) m c main_v1 = ent0 m c main_v1 :=
  (mem2_arr m c 1).trans (((dat0 (ent0 m) c).arrAt_in 1 rfl _).trans (A_eq0 (ent0 m) c 1))

/-- The second region finds the third window's array as the first region found it: the first region only reads it. -/
theorem entry1_v2 : ent1 (F := Ideal) m c main_v2 = ent0 m c main_v2 :=
  (mem2_arr m c 2).trans (((dat0 (ent0 m) c).arrAt_in 2 rfl _).trans (A_eq0 (ent0 m) c 2))

/-- The second region finds the fourth window's array as the first region found it: the first region only reads it. -/
theorem entry1_v3 : ent1 (F := Ideal) m c main_v3 = ent0 m c main_v3 :=
  (mem2_arr m c 3).trans (((dat0 (ent0 m) c).arrAt_in 3 rfl _).trans (A_eq0 (ent0 m) c 3))

/-! ## The closing masked mean -/

/-- No segment before the closing operations writes the targets. -/
theorem mem3_main_arg4 : mem3 (F := Ideal) m c (Proc.devRef .tc main_arg4) = m ((c : Thread nD τ).loc main_arg4) :=
  (mem3_of_ne m c main_arg4 (by decide)).trans ((mem2_of_ne m c main_arg4 (by decide)).trans
    (StableHlo.after_of_writes_sub hostOps0 _ hostOps0_writes (by decide : main_arg4 ∉ hostOps0_W)))

/-- If the column the second region leaves, as a vector, is the reference's per-row vector, the program's result is the
    reference's: both apply the same masked mean over the rows, on the same targets. -/
theorem result_eq (x0 : (⟨Cert.ReferenceIdeal.S2048x2048, .f32⟩ : BufTy).Contents (Elt Ideal)) (x1 : (⟨Cert.ReferenceIdeal.S32000x2048, .f32⟩ : BufTy).Contents (Elt Ideal))
    (x2 : (⟨Cert.ReferenceIdeal.S2048x4096, .f32⟩ : BufTy).Contents (Elt Ideal)) (x3 : (⟨Cert.ReferenceIdeal.S32000x4096, .f32⟩ : BufTy).Contents (Elt Ideal))
    (h : (shapeCast S2048 (mem3 (F := Ideal) m c (Proc.devRef .tc main_v5)) shapeCasts_S2048x1_S2048 : S2048.Idx → EReal)
      = Cert.ReferenceIdeal.ReadP.val_main_v28 (F := Ideal) x0 x1 x2 x3) :
    (mem6 (F := Ideal) m c (Proc.devRef .tc main_v15) : S_.Idx → EReal)
      = Cert.ReferenceIdeal.ReadP.val_main_v37 (F := Ideal) x0 x1 x2 x3 (m ((c : Thread nD τ).loc main_arg4)) := by
  unfold Cert.ReferenceIdeal.ReadP.val_main_v37 Cert.ReferenceIdeal.ReadP.val_main_v36 Cert.ReferenceIdeal.ReadP.val_main_v35
    Cert.ReferenceIdeal.ReadP.val_main_v34 Cert.ReferenceIdeal.ReadP.val_main_v33 Cert.ReferenceIdeal.ReadP.val_main_v32
    Cert.ReferenceIdeal.ReadP.val_main_v31 Cert.ReferenceIdeal.ReadP.val_main_v30 Cert.ReferenceIdeal.ReadP.val_main_v29
    Cert.ReferenceIdeal.ReadP.val_main_c Cert.ReferenceIdeal.ReadP.val_main_c_7 Cert.ReferenceIdeal.ReadP.val_main_c_8
    Cert.ReferenceIdeal.ReadP.val_main_cst_10 Cert.ReferenceIdeal.ReadP.val_main_call2_v1 Cert.ReferenceIdeal.ReadP.val_main_call2_v0
    Cert.ReferenceIdeal.ReadP.val_main_cst_9
  rw [← h]
  show StableHlo.after hostOps2_2 _ (Proc.devRef .tc main_v15) = _
  after_results
  rw [mem3_main_arg4 m c]
  rfl

end Cert.HostSide

end
-- ==== Proof.RefSide.lean ====
/-
  The reference program's per-row term, read one row at a time.

  Row `p` of the student logits is the product of row `p` of the hidden states with every row of the projection
  matrix (the division by the temperature 1 changes nothing); likewise the teacher's.  Each log_softmax subtracts the
  row's maximum and then the logarithm of the row's sum of exponentials.  The two Jensen–Shannon integrands are summed
  along the row, each sum is multiplied by one half, and the two products are added: that is the specification's
  `jsdRef` of the two rows of logits.
-/
import proofs.«168479_j71159018160660_2_alg».proof.Proof.RefReadP
import proofs.«168479_j71159018160660_2_alg».proof.Proof.Spec
import proofs.«168479_j71159018160660_2_alg».proof.Proof.LibMaxLayout

noncomputable section

namespace Cert.RefSide

open Cert.ReferenceIdeal Cert.ReferenceIdeal.Gen Cert.ReferenceIdeal.ReadP Idealize.ShloMosaic Idealize.ShloMosaic.ValueIdx Cert.Spec Cert.Lib.MaxLayout

/-! ## The literal words -/

/-- The word of `1.0` denotes `1`. -/
theorem ofBits_one : Ideal.ofBits .f32 0x3F800000#32 = 1 := by
  simp [Ideal.ofBits, Ideal.ieee, -EReal.coe_mul]; norm_num

/-- The word of `-inf` denotes `⊥`. -/
theorem ofBits_negInf : Ideal.ofBits .f32 0xFF800000#32 = ⊥ := by
  simp [Ideal.ofBits, Ideal.ieee]

/-- Division by one changes nothing. -/
theorem div_one (x : EReal) : Ideal.div x 1 = x := by
  have h := Ideal.div_coe (y := 1) one_ne_zero x
  rw [EReal.coe_one] at h
  rw [h]; norm_num

/-! ## The student's logits -/

/-- Entry `(p, k)` of the student logits. -/
theorem logitS_apply (x0 : (⟨S2048x2048, .f32⟩ : BufTy).Contents (Elt Ideal)) (x1 : (⟨S32000x2048, .f32⟩ : BufTy).Contents (Elt Ideal))
    (p : Fin 2048) (k : Fin 32000) :
    val_main_v3 (F := Ideal) x0 x1 (ix2 p k) = logit x0 x1 p k := by
  rw [val_main_v3_apply, val_main_v1_apply, val_main_v2_apply, val_main_cst_apply]
  simp only [Ideal.hostDivf_def, Ideal.ofBits_def, ofBits_one, div_one]
  unfold logit
  refine Finset.sum_congr rfl fun h _ => ?_
  rw [val_main_v0_apply]
  have el : lidx_main_v1 (ix2 p k) h = ix2 p h := funext fun a => by
    match a with | ⟨0, _⟩ => rfl | ⟨1, _⟩ => rfl
  have er : idx_main_v0 (ridx_main_v1 (ix2 p k) h) = ix2 k h := funext fun a => by
    match a with | ⟨0, _⟩ => rfl | ⟨1, _⟩ => rfl
  rw [el, er]

/-! ## log_softmax of the student logits -/

/-- The maximum of row `p` of the student logits (the extra maximum with `-inf` changes nothing). -/
theorem rowMaxS_apply (x0 : (⟨S2048x2048, .f32⟩ : BufTy).Contents (Elt Ideal)) (x1 : (⟨S32000x2048, .f32⟩ : BufTy).Contents (Elt Ideal))
    (p : Fin 2048) :
    val_main_call0_v2 (F := Ideal) x0 x1 (ix1 p) = rowMax (logit x0 x1 p) := by
  rw [val_main_call0_v2_apply, val_main_call0_v1_apply, val_main_call0_cst_0_apply]
  unfold val_main_call0_v0
  rw [hostMax_axis1_apply (val_main_v3 (F := Ideal) x0 x1) (val_main_call0_cst (F := Ideal)) reducesTo_S2048x32000_S2048_d1
    (by decide) h_S_ p, val_main_call0_cst_apply]
  simp only [Ideal.maximumf_def, Ideal.ofBits_def, ofBits_negInf]
  rw [max_eq_right bot_le]
  unfold rowMax
  exact congrArg (fun f => (Finset.univ : Finset (Fin 32000)).fold max ⊥ f) (funext fun k => logitS_apply x0 x1 p k)

/-- Entry `(p, k)` of the student logits less the row's maximum. -/
theorem shiftS_apply (x0 : (⟨S2048x2048, .f32⟩ : BufTy).Contents (Elt Ideal)) (x1 : (⟨S32000x2048, .f32⟩ : BufTy).Contents (Elt Ideal))
    (p : Fin 2048) (k : Fin 32000) :
    val_main_call0_v5 (F := Ideal) x0 x1 (ix2 p k) = logit x0 x1 p k - rowMax (logit x0 x1 p) := by
  rw [val_main_call0_v5_apply, val_main_call0_v4_apply, val_main_call0_v3_apply]
  have e : idx_main_call0_v3 (idx_main_call0_v4 (ix2 p k)) = ix1 p := funext fun a => by
    match a with | ⟨0, _⟩ => rfl
  rw [e, rowMaxS_apply, logitS_apply, Ideal.subf_def]

/-- The sum of exponentials of row `p` of the shifted student logits. -/
theorem sumExpS_apply (x0 : (⟨S2048x2048, .f32⟩ : BufTy).Contents (Elt Ideal)) (x1 : (⟨S32000x2048, .f32⟩ : BufTy).Contents (Elt Ideal))
    (p : Fin 2048) :
    val_main_call0_v7 (F := Ideal) x0 x1 (ix1 p)
      = ∑ k : Fin 32000, Ideal.exp (logit x0 x1 p k - rowMax (logit x0 x1 p)) := by
  rw [val_main_call0_v7_apply, val_main_call0_cst_1_apply]
  simp only [Ideal.ofBits_def, Ideal.ofBits_zero_f32, zero_add]
  refine Finset.sum_congr rfl fun k _ => ?_
  have e : idx_main_call0_v7 (ix1 p) k = ix2 p k := funext fun a => by
    match a with | ⟨0, _⟩ => rfl | ⟨1, _⟩ => rfl
  rw [e, val_main_call0_v6_apply, shiftS_apply, Ideal.hostUnary_exp_def]

/-- Entry `(p, k)` of the student log-probabilities. -/
theorem logSoftS_apply (x0 : (⟨S2048x2048, .f32⟩ : BufTy).Contents (Elt Ideal)) (x1 : (⟨S32000x2048, .f32⟩ : BufTy).Contents (Elt Ideal))
    (p : Fin 2048) (k : Fin 32000) :
    val_main_v8 (F := Ideal) x0 x1 (ix2 p k) = logSoft (logit x0 x1 p) k := by
  rw [val_main_v8_apply, val_main_call0_v10_apply, val_main_call0_v9_apply, val_main_call0_v8_apply]
  have e : idx_main_call0_v8 (idx_main_call0_v10 (ix2 p k)) = ix1 p := funext fun a => by
    match a with | ⟨0, _⟩ => rfl
  rw [e, sumExpS_apply, shiftS_apply, Ideal.subf_def, Ideal.hostUnary_log_def]
  unfold logSoft
  rfl

/-! ## The teacher's logits -/

/-- Entry `(p, k)` of the teacher logits. -/
theorem logitT_apply (x2 : (⟨S2048x4096, .f32⟩ : BufTy).Contents (Elt Ideal)) (x3 : (⟨S32000x4096, .f32⟩ : BufTy).Contents (Elt Ideal))
    (p : Fin 2048) (k : Fin 32000) :
    val_main_v7 (F := Ideal) x2 x3 (ix2 p k) = logit x2 x3 p k := by
  rw [val_main_v7_apply, val_main_v5_apply, val_main_v6_apply, val_main_cst_0_apply]
  simp only [Ideal.hostDivf_def, Ideal.ofBits_def, ofBits_one, div_one]
  unfold logit
  refine Finset.sum_congr rfl fun h _ => ?_
  rw [val_main_v4_apply]
  have el : lidx_main_v5 (ix2 p k) h = ix2 p h := funext fun a => by
    match a with | ⟨0, _⟩ => rfl | ⟨1, _⟩ => rfl
  have er : idx_main_v4 (ridx_main_v5 (ix2 p k) h) = ix2 k h := funext fun a => by
    match a with | ⟨0, _⟩ => rfl | ⟨1, _⟩ => rfl
  rw [el, er]

/-! ## log_softmax of the teacher logits -/

/-- The maximum of row `p` of the teacher logits (the extra maximum with `-inf` changes nothing). -/
theorem rowMaxT_apply (x2 : (⟨S2048x4096, .f32⟩ : BufTy).Contents (Elt Ideal)) (x3 : (⟨S32000x4096, .f32⟩ : BufTy).Contents (Elt Ideal))
    (p : Fin 2048) :
    val_main_call1_v2 (F := Ideal) x2 x3 (ix1 p) = rowMax (logit x2 x3 p) := by
  rw [val_main_call1_v2_apply, val_main_call1_v1_apply, val_main_call1_cst_0_apply]
  unfold val_main_call1_v0
  rw [hostMax_axis1_apply (val_main_v7 (F := Ideal) x2 x3) (val_main_call1_cst (F := Ideal)) reducesTo_S2048x32000_S2048_d1
    (by decide) h_S_ p, val_main_call1_cst_apply]
  simp only [Ideal.maximumf_def, Ideal.ofBits_def, ofBits_negInf]
  rw [max_eq_right bot_le]
  unfold rowMax
  exact congrArg (fun f => (Finset.univ : Finset (Fin 32000)).fold max ⊥ f) (funext fun k => logitT_apply x2 x3 p k)

/-- Entry `(p, k)` of the teacher logits less the row's maximum. -/
theorem shiftT_apply (x2 : (⟨S2048x4096, .f32⟩ : BufTy).Contents (Elt Ideal)) (x3 : (⟨S32000x4096, .f32⟩ : BufTy).Contents (Elt Ideal))
    (p : Fin 2048) (k : Fin 32000) :
    val_main_call1_v5 (F := Ideal) x2 x3 (ix2 p k) = logit x2 x3 p k - rowMax (logit x2 x3 p) := by
  rw [val_main_call1_v5_apply, val_main_call1_v4_apply, val_main_call1_v3_apply]
  have e : idx_main_call1_v3 (idx_main_call1_v4 (ix2 p k)) = ix1 p := funext fun a => by
    match a with | ⟨0, _⟩ => rfl
  rw [e, rowMaxT_apply, logitT_apply, Ideal.subf_def]

/-- The sum of exponentials of row `p` of the shifted teacher logits. -/
theorem sumExpT_apply (x2 : (⟨S2048x4096, .f32⟩ : BufTy).Contents (Elt Ideal)) (x3 : (⟨S32000x4096, .f32⟩ : BufTy).Contents (Elt Ideal))
    (p : Fin 2048) :
    val_main_call1_v7 (F := Ideal) x2 x3 (ix1 p)
      = ∑ k : Fin 32000, Ideal.exp (logit x2 x3 p k - rowMax (logit x2 x3 p)) := by
  rw [val_main_call1_v7_apply, val_main_call1_cst_1_apply]
  simp only [Ideal.ofBits_def, Ideal.ofBits_zero_f32, zero_add]
  refine Finset.sum_congr rfl fun k _ => ?_
  have e : idx_main_call1_v7 (ix1 p) k = ix2 p k := funext fun a => by
    match a with | ⟨0, _⟩ => rfl | ⟨1, _⟩ => rfl
  rw [e, val_main_call1_v6_apply, shiftT_apply, Ideal.hostUnary_exp_def]

/-- Entry `(p, k)` of the teacher log-probabilities. -/
theorem logSoftT_apply (x2 : (⟨S2048x4096, .f32⟩ : BufTy).Contents (Elt Ideal)) (x3 : (⟨S32000x4096, .f32⟩ : BufTy).Contents (Elt Ideal))
    (p : Fin 2048) (k : Fin 32000) :
    val_main_v9 (F := Ideal) x2 x3 (ix2 p k) = logSoft (logit x2 x3 p) k := by
  rw [val_main_v9_apply, val_main_call1_v10_apply, val_main_call1_v9_apply, val_main_call1_v8_apply]
  have e : idx_main_call1_v8 (idx_main_call1_v10 (ix2 p k)) = ix1 p := funext fun a => by
    match a with | ⟨0, _⟩ => rfl
  rw [e, sumExpT_apply, shiftT_apply, Ideal.subf_def, Ideal.hostUnary_log_def]
  unfold logSoft
  rfl

/-! ## The two integrands, their row sums, and the term -/

/-- Entry `(p, k)` of the logarithm of the mixture. -/
theorem logMix_apply (x0 : (⟨S2048x2048, .f32⟩ : BufTy).Contents (Elt Ideal)) (x1 : (⟨S32000x2048, .f32⟩ : BufTy).Contents (Elt Ideal))
    (x2 : (⟨S2048x4096, .f32⟩ : BufTy).Contents (Elt Ideal)) (x3 : (⟨S32000x4096, .f32⟩ : BufTy).Contents (Elt Ideal))
    (p : Fin 2048) (k : Fin 32000) :
    val_main_v17 (F := Ideal) x0 x1 x2 x3 (ix2 p k)
      = Ideal.log (Ideal.ofBits .f32 0x3F000000#32 * Ideal.exp (logSoft (logit x2 x3 p) k)
          + Ideal.ofBits .f32 0x3F000000#32 * Ideal.exp (logSoft (logit x0 x1 p) k)) := by
  rw [val_main_v17_apply, val_main_v16_apply, val_main_v13_apply, val_main_v15_apply, val_main_v12_apply, val_main_v14_apply,
    val_main_cst_1_apply, val_main_cst_2_apply, val_main_v10_apply, val_main_v11_apply, logSoftT_apply, logSoftS_apply]
  rfl

/-- Entry `(p, k)` of the teacher's integrand. -/
theorem integrandP_apply (x0 : (⟨S2048x2048, .f32⟩ : BufTy).Contents (Elt Ideal)) (x1 : (⟨S32000x2048, .f32⟩ : BufTy).Contents (Elt Ideal))
    (x2 : (⟨S2048x4096, .f32⟩ : BufTy).Contents (Elt Ideal)) (x3 : (⟨S32000x4096, .f32⟩ : BufTy).Contents (Elt Ideal))
    (p : Fin 2048) (k : Fin 32000) :
    val_main_v19 (F := Ideal) x0 x1 x2 x3 (ix2 p k)
      = iP (Ideal.ofBits .f32 0x3F000000#32) (logSoft (logit x2 x3 p) k) (logSoft (logit x0 x1 p) k) := by
  rw [val_main_v19_apply, val_main_v18_apply, logMix_apply, val_main_v10_apply, logSoftT_apply]
  rfl

/-- Entry `(p, k)` of the student's integrand. -/
theorem integrandQ_apply (x0 : (⟨S2048x2048, .f32⟩ : BufTy).Contents (Elt Ideal)) (x1 : (⟨S32000x2048, .f32⟩ : BufTy).Contents (Elt Ideal))
    (x2 : (⟨S2048x4096, .f32⟩ : BufTy).Contents (Elt Ideal)) (x3 : (⟨S32000x4096, .f32⟩ : BufTy).Contents (Elt Ideal))
    (p : Fin 2048) (k : Fin 32000) :
    val_main_v24 (F := Ideal) x0 x1 x2 x3 (ix2 p k)
      = iQ (Ideal.ofBits .f32 0x3F000000#32) (logSoft (logit x2 x3 p) k) (logSoft (logit x0 x1 p) k) := by
  rw [val_main_v24_apply, val_main_v23_apply, logMix_apply, val_main_v11_apply, logSoftS_apply]
  rfl

/-- Row `p` of the reference's per-row term (its buffer main_v28, a [2048] vector) is the specification's term of that row's logits. -/
theorem perTok_eq (x0 : (⟨S2048x2048, .f32⟩ : BufTy).Contents (Elt Ideal)) (x1 : (⟨S32000x2048, .f32⟩ : BufTy).Contents (Elt Ideal))
    (x2 : (⟨S2048x4096, .f32⟩ : BufTy).Contents (Elt Ideal)) (x3 : (⟨S32000x4096, .f32⟩ : BufTy).Contents (Elt Ideal))
    (p : Fin 2048) :
    val_main_v28 (F := Ideal) x0 x1 x2 x3 (ix1 p)
      = jsdRef (Ideal.ofBits .f32 0x3F000000#32) (logit x0 x1 p) (logit x2 x3 p) := by
  rw [val_main_v28_apply, val_main_v22_apply, val_main_v27_apply, val_main_v21_apply, val_main_v26_apply, val_main_cst_4_apply,
    val_main_cst_6_apply, val_main_v20_apply, val_main_v25_apply, val_main_cst_3_apply, val_main_cst_5_apply]
  simp only [Ideal.addf_def, Ideal.mulf_def, Ideal.ofBits_def, Ideal.ofBits_zero_f32, zero_add]
  have e20 : ∀ k : Fin 32000, idx_main_v20 (ix1 p) k = ix2 p k := fun k => funext fun a => by
    match a with | ⟨0, _⟩ => rfl | ⟨1, _⟩ => rfl
  have e25 : ∀ k : Fin 32000, idx_main_v25 (ix1 p) k = ix2 p k := fun k => funext fun a => by
    match a with | ⟨0, _⟩ => rfl | ⟨1, _⟩ => rfl
  simp only [e20, e25, integrandP_apply, integrandQ_apply]
  rfl

end Cert.RefSide

end
-- ==== Proof.LibScaledSum.lean ====
/-
  Scaling a finite sum of extended reals by a non-negative real, and the degree normaliser as such a factor.

  The two facts join a graph convolution whose edge weights are applied per edge to one whose weights are split into a
  scaling of the rows before the neighbourhood sum and a scaling after it. General: any finite index type, any summands.

  * A factor that is non-negative and not `+∞` distributes over a finite sum of extended reals (for such a factor the
    product is monotone, sends `±∞` to `±∞` or everything to `0`, and so commutes with the extended sum, whose only
    irregular case is `+∞ + -∞ = -∞`).
  * The degree normaliser `d = where(deg > 0, rsqrt(max(deg, ε)), 0)` is such a factor whatever `deg` and `ε` are: where it is
    not the zero, `max(deg, ε) ≥ deg > 0`, and the reciprocal square root of a positive extended real is a non-negative real
    (`+∞ ↦ 0`).
-/
import Idealize.ShloMosaic.PureOps.Ideal
import Idealize.ShloMosaic.PureOps.Ideal.Laws

noncomputable section

namespace Cert.Lib.ScaledSum

open Idealize.ShloMosaic

/-- A factor that is non-negative and not `+∞` distributes over a finite sum of extended reals. -/
theorem mul_sum_of_nonneg_of_ne_top {ι : Type*} (s : Finset ι) {c : EReal} (h0 : 0 ≤ c) (ht : c ≠ ⊤) (f : ι → EReal) :
    c * ∑ e ∈ s, f e = ∑ e ∈ s, c * f e := by
  classical
  induction s using Finset.induction_on with
  | empty => simp
  | insert a s ha ih =>
    rw [Finset.sum_insert ha, Finset.sum_insert ha, EReal.left_distrib_of_nonneg_of_ne_top h0 ht, ih]

/-- Scaling a sum over the edges that land on one node: if on every such edge `c * a e = b e`, then `c` times the sum of the
    `a e` over those edges is the sum of the `b e` over them. -/
theorem scale_landing_sum {ι : Type*} [Fintype ι] {c : EReal} (h0 : 0 ≤ c) (ht : c ≠ ⊤)
    (P : ι → Prop) [DecidablePred P] (a b : ι → EReal) (hab : ∀ e, P e → c * a e = b e) :
    c * ∑ e, (if P e then a e else 0) = ∑ e, (if P e then b e else 0) := by
  rw [mul_sum_of_nonneg_of_ne_top Finset.univ h0 ht]
  refine Finset.sum_congr rfl fun e _ => ?_
  by_cases h : P e
  · rw [if_pos h, if_pos h, hab e h]
  · rw [if_neg h, if_neg h, mul_zero]

/-- The reciprocal square root of a positive extended real is a non-negative real. -/
theorem rsqrt_nonneg_ne_top {y : EReal} (hy : 0 < y) : 0 ≤ Ideal.rsqrt y ∧ Ideal.rsqrt y ≠ ⊤ := by
  induction y using EReal.rec with
  | bot => exact absurd hy (by simp)
  | coe r =>
    have hr : 0 < r := by exact_mod_cast hy
    rw [Ideal.rsqrt_coe, if_neg (not_lt.mpr hr.le), if_neg hr.ne']
    exact ⟨by exact_mod_cast (inv_nonneg.mpr (Real.sqrt_nonneg r)), EReal.coe_ne_top _⟩
  | top => rw [Ideal.rsqrt_top]; exact ⟨le_rfl, EReal.zero_ne_top⟩

/-- The degree normaliser — where the degree is positive the reciprocal square root of the degree floored at `ε`, elsewhere
    zero — is non-negative and not `+∞`, whatever the degree and the floor. -/
theorem normaliser_nonneg_ne_top (deg ε : EReal) :
    0 ≤ Scalar.select (Ideal.cmp .ogt deg 0) (Ideal.rsqrt (max deg ε)) (0 : EReal)
      ∧ Scalar.select (Ideal.cmp .ogt deg 0) (Ideal.rsqrt (max deg ε)) (0 : EReal) ≠ ⊤ := by
  unfold Scalar.select
  split
  · rename_i h
    have hd : 0 < deg := by
      by_contra hn
      simp only [Ideal.cmp, decide_eq_false hn] at h
      exact absurd h (by decide)
    exact rsqrt_nonneg_ne_top (lt_of_lt_of_le hd (le_max_left _ _))
  · exact ⟨le_rfl, EReal.zero_ne_top⟩

end Cert.Lib.ScaledSum

end
-- ==== Proof.LibBlockRuns.lean ====
/-
  Sums over `Fin (A·B)` taken as `A` runs of `B`, and the sum of a family that vanishes outside one run.

  A kernel that packs `A` small matrices into one block-diagonal matrix (a Kronecker product with the identity)
  contracts over every (block, lane) pair `k = a·B + r` with a factor that is zero unless `a` is the output's block:
  such a sum is the sum over the one surviving run.  Stated in any additive commutative monoid, so on the extended
  reals no finiteness is involved.  `N` is a separate variable with `hN : N = A * B`, so that the lemmas apply to a
  literal `Fin 2048` with `A B := 16 128` and `hN := rfl`.
-/
import Mathlib.Algebra.BigOperators.Fin
import Mathlib.Tactic.Linarith

namespace Cert.Lib.BlockRuns

/-- Position `r` of run `a`: the index `a·B + r` of `Fin N`, `N = A·B`. -/
def runIdx (A B N : ℕ) (hN : N = A * B) (a : Fin A) (r : Fin B) : Fin N :=
  ⟨a.val * B + r.val, by subst hN; have := a.isLt; have := r.isLt; nlinarith⟩

/-- A sum over `Fin (A·B)`, taken as `A` runs of `B`. -/
theorem sum_runs {M : Type*} [AddCommMonoid M] (A B N : ℕ) (hN : N = A * B) (f : Fin N → M) :
    ∑ k : Fin N, f k = ∑ a : Fin A, ∑ r : Fin B, f (runIdx A B N hN a r) := by
  subst hN
  rw [← Fintype.sum_prod_type' (f := fun (a : Fin A) (r : Fin B) => f (runIdx A B (A * B) rfl a r))]
  refine (Fintype.sum_equiv finProdFinEquiv.symm _ _ fun k => ?_)
  refine congrArg f (Fin.ext ?_)
  simp only [runIdx, finProdFinEquiv_symm_apply, Fin.coe_divNat, Fin.coe_modNat]
  exact (Nat.div_add_mod' k.val B).symm

/-- If only run `a0` carries anything — every other run's terms are zero — the sum is that run's. -/
theorem sum_one_run {M : Type*} [AddCommMonoid M] (A B N : ℕ) (hN : N = A * B) (f : Fin N → M) (g : Fin B → M) (a0 : Fin A)
    (hin : ∀ r : Fin B, f (runIdx A B N hN a0 r) = g r)
    (hout : ∀ (a : Fin A) (r : Fin B), a ≠ a0 → f (runIdx A B N hN a r) = 0) :
    ∑ k : Fin N, f k = ∑ r : Fin B, g r := by
  rw [sum_runs A B N hN f, Finset.sum_eq_single a0]
  · exact Finset.sum_congr rfl fun r _ => hin r
  · intro a _ ha
    exact Finset.sum_eq_zero fun r _ => hout a r ha
  · intro h; exact absurd (Finset.mem_univ a0) h

end Cert.Lib.BlockRuns
-- ==== Proof.Bridge.lean ====
/-
  The kernel's tile-by-tile accumulation against the reference's whole-row term, for rows of real logits.

  Online softmax: walking a row of reals in tiles, the pair (running maximum, running sum of exponentials rescaled to
  it) stays a pair of reals `(m, Σ exp (x − m))` over the entries met so far, since
  `exp (m − m') · Σ exp (x − m) = Σ exp (x − m')`.  After the last tile, `m + log Σ_k exp (x_k − m)` is the row's
  log-sum-exp, which does not depend on the shift `m`; so an entry less it is the reference's log_softmax, computed with
  the row's maximum as the shift.  The accumulator is the sum of the tiles' terms, and a factor `0 ≤ c ≠ ⊤` distributes over
  finite sums of extended reals, so the 125 tile terms regroup into the two whole-row sums.
-/
import proofs.«168479_j71159018160660_2_alg».proof.Proof.Spec
import proofs.«168479_j71159018160660_2_alg».proof.Proof.LibScaledSum
import proofs.«168479_j71159018160660_2_alg».proof.Proof.LibBlockRuns
import Idealize.ShloMosaic.PureOps.Ideal.Laws
import Mathlib.Analysis.SpecialFunctions.Log.Basic
import Mathlib.Data.EReal.Operations

noncomputable section

namespace Cert.Bridge

open Idealize.ShloMosaic Cert.Spec

/-- The coercion of a finite sum of reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The fold of `max` from `⊥` over a non-empty family of reals is one of them, hence a real. -/
theorem fold_max_real {ι : Type*} (s : Finset ι) (hs : s.Nonempty) (row : ι → ℝ) :
    ∃ m : ℝ, s.fold max ⊥ (fun j => (row j : EReal)) = (m : EReal) := by
  obtain ⟨i, _, hi⟩ := Finset.exists_mem_eq_sup s hs (fun j => (row j : EReal))
  exact ⟨row i, hi⟩

/-- One update from a real pair by a tile of reals whose maximum is `m'`. -/
theorem upd_coe (m L m' : ℝ) (row : Fin 256 → ℝ)
    (h : (Finset.univ : Finset (Fin 256)).fold max ⊥ (fun j => (row j : EReal)) = (m' : EReal)) :
    upd ((m : EReal), (L : EReal)) (fun j => (row j : EReal))
      = (((max m m' : ℝ) : EReal), ((Real.exp (m - max m m') * L + ∑ j : Fin 256, Real.exp (row j - max m m') : ℝ) : EReal)) := by
  unfold upd
  simp only [h]
  rw [← (EReal.coe_strictMono.monotone.map_max : ((max m m' : ℝ) : EReal) = max (m : EReal) (m' : EReal))]
  refine Prod.ext rfl ?_
  simp only [← EReal.coe_sub, Ideal.exp_coe, ← EReal.coe_mul, ← coe_sum, ← EReal.coe_add]

/-- The first update, from `(⊥, 0)`. -/
theorem upd_bot (m' : ℝ) (row : Fin 256 → ℝ)
    (h : (Finset.univ : Finset (Fin 256)).fold max ⊥ (fun j => (row j : EReal)) = (m' : EReal)) :
    upd ((⊥ : EReal), (0 : EReal)) (fun j => (row j : EReal))
      = ((m' : EReal), ((∑ j : Fin 256, Real.exp (row j - m') : ℝ) : EReal)) := by
  unfold upd
  simp only [h]
  rw [max_eq_right bot_le]
  refine Prod.ext rfl ?_
  simp only [mul_zero, zero_add, ← EReal.coe_sub, Ideal.exp_coe, ← coe_sum]

/-- Tile `v` of a row of reals: its entries `v·256 + j`. -/
def chunkR (g : Fin 32000 → ℝ) (v : ℕ) (j : Fin 256) : ℝ :=
  if h : v * 256 + j.val < 32000 then g ⟨v * 256 + j.val, h⟩ else 0

/-- A tile of a row of reals is a tile of reals. -/
theorem chunkOf_coe (g : Fin 32000 → ℝ) (v : ℕ) :
    chunkOf (fun k => (g k : EReal)) v = fun j => (chunkR g v j : EReal) := by
  funext j
  unfold chunkOf chunkR
  split_ifs
  · rfl
  · exact EReal.coe_zero.symm

/-- Online softmax: after tiles `0 … v` the pair is a real `m` and the sum of `exp (x − m)` over the entries met so far. -/
theorem onl_inv (g : Fin 32000 → ℝ) : ∀ v : ℕ, ∃ m : ℝ, onl (fun k => (g k : EReal)) v
      = ((m : EReal), ((∑ a ∈ Finset.range (v + 1), ∑ j : Fin 256, Real.exp (chunkR g a j - m) : ℝ) : EReal))
  | 0 => by
    obtain ⟨m', h⟩ := fold_max_real Finset.univ Finset.univ_nonempty (chunkR g 0)
    refine ⟨m', ?_⟩
    show upd (⊥, 0) (chunkOf _ 0) = _
    rw [chunkOf_coe, upd_bot m' _ h, Finset.sum_range_one]
  | v + 1 => by
    obtain ⟨m, ih⟩ := onl_inv g v
    obtain ⟨m', h⟩ := fold_max_real Finset.univ Finset.univ_nonempty (chunkR g (v + 1))
    refine ⟨max m m', ?_⟩
    show upd (onl _ v) (chunkOf _ (v + 1)) = _
    rw [ih, chunkOf_coe, upd_coe m _ m' _ h, Finset.sum_range_succ _ (v + 1), Finset.mul_sum]
    refine congrArg (fun x : ℝ => (((max m m' : ℝ) : EReal), ((x + ∑ j : Fin 256, Real.exp (chunkR g (v + 1) j - max m m') : ℝ) : EReal)))
      (Finset.sum_congr rfl fun a _ => ?_)
    rw [Finset.mul_sum]
    refine Finset.sum_congr rfl fun j _ => ?_
    rw [← Real.exp_add]
    congr 1
    ring

/-- Entry `r` of tile `a` is the row's entry `a·256 + r`. -/
theorem chunkR_run (g : Fin 32000 → ℝ) (a : Fin 125) (r : Fin 256) :
    chunkR g a.val r = g (Cert.Lib.BlockRuns.runIdx 125 256 32000 rfl a r) := by
  unfold chunkR
  have h : a.val * 256 + r.val < 32000 := (Cert.Lib.BlockRuns.runIdx 125 256 32000 rfl a r).isLt
  rw [dif_pos h]
  rfl

theorem chunkOf_run (f : Fin 32000 → EReal) (a : Fin 125) (r : Fin 256) :
    chunkOf f a.val r = f (Cert.Lib.BlockRuns.runIdx 125 256 32000 rfl a r) := by
  unfold chunkOf
  have h : a.val * 256 + r.val < 32000 := (Cert.Lib.BlockRuns.runIdx 125 256 32000 rfl a r).isLt
  rw [dif_pos h]
  rfl

/-- A sum over the 125 tiles of 256 is the sum over the row. -/
theorem sum_chunks (g : Fin 32000 → ℝ) (φ : ℝ → ℝ) :
    ∑ a ∈ Finset.range 125, ∑ j : Fin 256, φ (chunkR g a j) = ∑ k : Fin 32000, φ (g k) := by
  rw [Cert.Lib.BlockRuns.sum_runs 125 256 32000 rfl, ← Fin.sum_univ_eq_sum_range (fun a => ∑ j : Fin 256, φ (chunkR g a j)) 125]
  refine Finset.sum_congr rfl fun a _ => Finset.sum_congr rfl fun r _ => ?_
  rw [chunkR_run]

theorem sum_exp_pos (g : Fin 32000 → ℝ) (m : ℝ) : 0 < ∑ k : Fin 32000, Real.exp (g k - m) :=
  Finset.sum_pos (fun k _ => Real.exp_pos _) ⟨⟨0, by norm_num⟩, Finset.mem_univ _⟩

/-- The kernel's log-sum-exp of a row of reals: for some real `m`, `m + log Σ exp (x − m)`. -/
theorem lseK_coe (g : Fin 32000 → ℝ) :
    ∃ m : ℝ, lseK (fun k => (g k : EReal)) = ((m + Real.log (∑ k : Fin 32000, Real.exp (g k - m)) : ℝ) : EReal) := by
  obtain ⟨m, h⟩ := onl_inv g 124
  refine ⟨m, ?_⟩
  unfold lseK
  rw [h]
  show (m : EReal) + Ideal.log ((∑ a ∈ Finset.range 125, ∑ j : Fin 256, Real.exp (chunkR g a j - m) : ℝ) : EReal) = _
  rw [sum_chunks g (fun x => Real.exp (x - m)), Ideal.log_coe, if_neg (not_le.mpr (sum_exp_pos g m)), ← EReal.coe_add]

/-- The reference's log_softmax of a row of reals: for some real `M`, `(x − M) − log Σ exp (x' − M)`. -/
theorem logSoft_coe (g : Fin 32000 → ℝ) :
    ∃ M : ℝ, ∀ k : Fin 32000, logSoft (fun k => (g k : EReal)) k
      = (((g k - M) - Real.log (∑ k' : Fin 32000, Real.exp (g k' - M)) : ℝ) : EReal) := by
  obtain ⟨M, hM⟩ := fold_max_real (Finset.univ : Finset (Fin 32000)) ⟨⟨0, by norm_num⟩, Finset.mem_univ _⟩ g
  refine ⟨M, fun k => ?_⟩
  unfold logSoft rowMax
  rw [hM]
  simp only [← EReal.coe_sub, Ideal.exp_coe, ← coe_sum]
  rw [Ideal.log_coe, if_neg (not_le.mpr (sum_exp_pos g M)), ← EReal.coe_sub]

/-- Log-sum-exp does not depend on the shift. -/
theorem lse_shift (g : Fin 32000 → ℝ) (m M x : ℝ) :
    x - (m + Real.log (∑ k : Fin 32000, Real.exp (g k - m))) = (x - M) - Real.log (∑ k : Fin 32000, Real.exp (g k - M)) := by
  have h : ∑ k : Fin 32000, Real.exp (g k - m) = Real.exp (M - m) * ∑ k : Fin 32000, Real.exp (g k - M) := by
    rw [Finset.mul_sum]
    refine Finset.sum_congr rfl fun k _ => ?_
    rw [← Real.exp_add]
    congr 1
    ring
  rw [h, Real.log_mul (Real.exp_pos _).ne' (sum_exp_pos g M).ne', Real.log_exp]
  ring

/-- An entry less the kernel's log-sum-exp is the reference's log_softmax at that entry. -/
theorem sub_lseK_eq_logSoft (g : Fin 32000 → ℝ) (k : Fin 32000) :
    (g k : EReal) - lseK (fun k => (g k : EReal)) = logSoft (fun k => (g k : EReal)) k := by
  obtain ⟨m, hm⟩ := lseK_coe g
  obtain ⟨M, hM⟩ := logSoft_coe g
  rw [hm, hM k, ← EReal.coe_sub, lse_shift g m M]

/-- The accumulator after tiles `0 … v` is the sum of their terms. -/
theorem accK_eq_sum (c : EReal) (s t : Fin 32000 → EReal) (ls lt : EReal) :
    ∀ v : ℕ, accK c s t ls lt v = ∑ a ∈ Finset.range (v + 1), termK c s t ls lt a
  | 0 => by
    show 0 + termK c s t ls lt 0 = _
    rw [zero_add, Finset.sum_range_one]
  | v + 1 => by
    show accK c s t ls lt v + termK c s t ls lt (v + 1) = _
    rw [accK_eq_sum c s t ls lt v, Finset.sum_range_succ _ (v + 1)]

/-- For rows of REAL logits the kernel's tile-by-tile accumulation equals the reference's whole-row term. -/
theorem accK_eq_jsdRef (c : EReal) (hc0 : 0 ≤ c) (hct : c ≠ ⊤) (gs gt : Fin 32000 → ℝ) :
    accK c (fun k => (gs k : EReal)) (fun k => (gt k : EReal)) (lseK fun k => (gs k : EReal)) (lseK fun k => (gt k : EReal)) 124
      = jsdRef c (fun k => (gs k : EReal)) (fun k => (gt k : EReal)) := by
  have key : ∀ (g : Fin 32000 → ℝ) (a : Fin 125) (j : Fin 256),
      chunkOf (fun k => (g k : EReal)) a.val j - lseK (fun k => (g k : EReal))
        = logSoft (fun k => (g k : EReal)) (Cert.Lib.BlockRuns.runIdx 125 256 32000 rfl a j) := fun g a j => by
    rw [chunkOf_run]
    exact sub_lseK_eq_logSoft g _
  rw [accK_eq_sum, ← Fin.sum_univ_eq_sum_range (fun a => termK c _ _ _ _ a) 125]
  unfold jsdRef
  rw [Cert.Lib.BlockRuns.sum_runs 125 256 32000 rfl (fun k => iP c _ _),
    Cert.Lib.BlockRuns.sum_runs 125 256 32000 rfl (fun k => iQ c _ _),
    Cert.Lib.ScaledSum.mul_sum_of_nonneg_of_ne_top Finset.univ hc0 hct,
    Cert.Lib.ScaledSum.mul_sum_of_nonneg_of_ne_top Finset.univ hc0 hct, ← Finset.sum_add_distrib]
  refine Finset.sum_congr rfl fun a _ => ?_
  unfold termK
  simp only [key]

end Cert.Bridge

end
-- ==== Proof.Finite.lean ====
/-
  Finite inputs: the precondition says of each of the four float inputs that every entry's absolute value is below `+∞`;
  an extended real with `max x (−x) < ⊤` is neither `⊥` nor `⊤`, so every entry is a real.  A finite sum of products of
  reals is a real, so every logit of two such arrays is a real.
-/
import proofs.«168479_j71159018160660_2_alg».proof.Pre_finite_inputs
import proofs.«168479_j71159018160660_2_alg».proof.Proof.Gen.Pre_finite_inputs
import proofs.«168479_j71159018160660_2_alg».proof.Proof.Spec
import Idealize.ShloMosaic.Lib.ReduceAll

noncomputable section

namespace Cert.Finite

open Idealize.ShloMosaic Idealize.ShloMosaic.ValueIdx

/-- The pattern of `+∞`. -/
theorem top_f32 : Ideal.ofBits .f32 0x7F800000#32 = ⊤ := by simp [Ideal.ofBits, Ideal.ieee]

/-- `|x| < +∞` says `x` is a real. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

instance : Subsingleton Cert.Pre_finite_inputs.S_.Idx := ⟨fun a b => funext fun d => d.elim0⟩

/-- An array all of whose entries pass `|x| < +∞` is an array of reals. -/
theorem all_real {s u : Shape} {axes : List (Fin s.rank)} (x : FVec Ideal s .f32)
    (bc : Cert.Pre_finite_inputs.S_.BroadcastsInDim s (![] : Fin 0 → Fin s.rank))
    (h' : s.ReducesTo axes Cert.Pre_finite_inputs.S_) (init : u.Idx → BitVec 1) (hu : 0 < u.numel)
    (j : Cert.Pre_finite_inputs.S_.Idx)
    (e : Host.reduce IntOp.andi
        (cmpf .olt (Host.absf x) (broadcastInDim s ![] bc (constant (F := Ideal) Cert.Pre_finite_inputs.S_ .f32 0x7F800000#32)))
        init h' hu j = 1#1) (i : s.Idx) : ∃ r : ℝ, x i = (r : EReal) := by
  have hi := Host.reduce_andi_all _ init h' hu j e i
  refine real_of_abs_lt_top (x i) ?_
  rw [← top_f32]
  exact hi

/-- THE PRECONDITION DECODED: every entry of the four float inputs is a real. -/
theorem inputs_real [Cert.Pre_finite_inputs.Facts] (a0 : FVec Ideal Cert.Pre_finite_inputs.S2048x2048 .f32) (a1 : FVec Ideal Cert.Pre_finite_inputs.S32000x2048 .f32) (a2 : FVec Ideal Cert.Pre_finite_inputs.S2048x4096 .f32) (a3 : FVec Ideal Cert.Pre_finite_inputs.S32000x4096 .f32) (a4 : IVec Cert.Pre_finite_inputs.S2048 32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal)) := by
  have e := congrFun h ix0
  dsimp only [Cert.Pre_finite_inputs.fn, Cert.Pre_finite_inputs.fn_part1] at e
  simp only [andi, IntOp.andi_eq_one] at e
  obtain ⟨⟨⟨e0, e1⟩, e2⟩, e3⟩ := e
  exact ⟨all_real a0 _ _ _ _ _ e0, all_real a1 _ _ _ _ _ e1, all_real a2 _ _ _ _ _ e2, all_real a3 _ _ _ _ _ e3⟩

/-- The coercion of a finite sum of reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The logits of two arrays of reals are reals. -/
theorem logit_real {N V H : ℕ} (X : (⟨2, ![N, H]⟩ : Shape).Idx → EReal) (W : (⟨2, ![V, H]⟩ : Shape).Idx → EReal) (hX : ∀ i, ∃ r : ℝ, X i = (r : EReal)) (hW : ∀ i, ∃ r : ℝ, W i = (r : EReal)) (p : Fin N) :
    ∃ g : Fin V → ℝ, ∀ k, Cert.Spec.logit X W p k = (g k : EReal) := by
  choose x hx using hX
  choose w hw using hW
  refine ⟨fun k => ∑ h : Fin H, x (ix2 p h) * w (ix2 k h), fun k => ?_⟩
  unfold Cert.Spec.logit
  rw [coe_sum]
  refine Finset.sum_congr rfl fun h _ => ?_
  rw [hx, hw, EReal.coe_mul]

end Cert.Finite

end
-- ==== Proof.LibColumnVector.lean ====
/-
  A column taken back to a vector, read at an index given by its coordinate: an `[a, 1]` array cast to `[a]` reads, at
  `i`, the column's entry in row `i` — both indices have row-major position `i`.  General in the extent.
-/
import Idealize.ShloMosaic.Lib.ValueLayout

namespace Cert.Lib.ColumnVector

open Idealize.ShloMosaic Idealize.ShloMosaic.ValueIdx

variable {α : Type}

/-- An `[a, 1]` column cast to the vector `[a]` reads, at `i`, the column at `(i, 0)`. -/
theorem shapeCast_a1_a_apply {a : ℕ} (v : (⟨2, ![a, 1]⟩ : Shape).Idx → α) (h : (⟨2, ![a, 1]⟩ : Shape).ShapeCasts ⟨1, ![a]⟩)
    (i : Fin a) : shapeCast ⟨1, ![a]⟩ v h (ix1 i) = v (ix2 i (0 : Fin 1)) :=
  shapeCast_apply v h _ _ (by
    rw [Shape.rowMajor_val_two, Shape.rowMajor_val_one]
    show i.val * 1 + 0 = i.val
    rw [Nat.mul_one, Nat.add_zero])

end Cert.Lib.ColumnVector
-- ==== Proof.Algebraic.lean ====
/-
  The value claim's core: after the second region, row p of the result array holds the reference's per-row term.
  The first region leaves the rows' log-sum-exps (running maximum plus logarithm of running sum after the last tile),
  the second the accumulated tile terms computed with them; for finite inputs every logit is a real number, and then
  the accumulated tile terms are the whole-row Jensen–Shannon term with log_softmax as the reference computes it.
-/
import proofs.«168479_j71159018160660_2_alg».proof.Proof.FrameKernelIdeal.ValueStats
import proofs.«168479_j71159018160660_2_alg».proof.Proof.FrameKernelIdeal.ValueLoss
import proofs.«168479_j71159018160660_2_alg».proof.Proof.HostSide
import proofs.«168479_j71159018160660_2_alg».proof.Proof.RefSide
import proofs.«168479_j71159018160660_2_alg».proof.Proof.Bridge
import proofs.«168479_j71159018160660_2_alg».proof.Proof.Finite
import proofs.«168479_j71159018160660_2_alg».proof.Proof.LibColumnVector
import proofs.«168479_j71159018160660_2_alg».proof.Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Spec

variable (m : (ℓ : Loc nD τ sig) → Buf (Elt Ideal) ℓ)

/-- The second region reads the rows the first one read: the cast inputs, which at the extended reals are the inputs. -/
theorem sRow_ent0 (c : Dev nD) (p : Fin 2048) :
    sRow (ent0 m) c p = logit (m ((c : Thread nD τ).loc main_arg0) : S2048x2048.Idx → EReal) (m ((c : Thread nD τ).loc main_arg1) : S32000x2048.Idx → EReal) p := by
  unfold sRow; rw [Cert.HostSide.entry_v0, Cert.HostSide.entry_v1]
theorem tRow_ent0 (c : Dev nD) (p : Fin 2048) :
    tRow (ent0 m) c p = logit (m ((c : Thread nD τ).loc main_arg2) : S2048x4096.Idx → EReal) (m ((c : Thread nD τ).loc main_arg3) : S32000x4096.Idx → EReal) p := by
  unfold tRow; rw [Cert.HostSide.entry_v2, Cert.HostSide.entry_v3]
theorem sRow_ent1 (c : Dev nD) (p : Fin 2048) : sRow (ent1 m) c p = sRow (ent0 m) c p := by
  unfold sRow; rw [Cert.HostSide.entry1_v0, Cert.HostSide.entry1_v1]
theorem tRow_ent1 (c : Dev nD) (p : Fin 2048) : tRow (ent1 m) c p = tRow (ent0 m) c p := by
  unfold tRow; rw [Cert.HostSide.entry1_v2, Cert.HostSide.entry1_v3]

/-- The log-sum-exp columns the second region reads are what the first region left. -/
theorem lsAt_ent1 (c : Dev nD) (p : Fin 2048) : lsAt (ent1 m) c p = lseK (sRow (ent0 m) c p) := by
  unfold lsAt
  show mem2 m c (Proc.devRef .tc (Pipeline.arrRef spec0 4)) (ix2 p (0 : Fin 1)) = _
  rw [mem2_arr, final0_4]
  rfl
theorem ltAt_ent1 (c : Dev nD) (p : Fin 2048) : ltAt (ent1 m) c p = lseK (tRow (ent0 m) c p) := by
  unfold ltAt
  show mem2 m c (Proc.devRef .tc (Pipeline.arrRef spec0 5)) (ix2 p (0 : Fin 1)) = _
  rw [mem2_arr, final0_5]
  rfl

/-- Row `p` of the result array after the second region: the accumulated tile terms of the inputs' rows. -/
theorem loss_row (c : Dev nD) (p : Fin 2048) :
    mem3 m c (Proc.devRef .tc main_v5) (ix2 p (0 : Fin 1))
      = accK cH (logit (m ((c : Thread nD τ).loc main_arg0) : S2048x2048.Idx → EReal) (m ((c : Thread nD τ).loc main_arg1) : S32000x2048.Idx → EReal) p)
          (logit (m ((c : Thread nD τ).loc main_arg2) : S2048x4096.Idx → EReal) (m ((c : Thread nD τ).loc main_arg3) : S32000x4096.Idx → EReal) p)
          (lseK (logit (m ((c : Thread nD τ).loc main_arg0) : S2048x2048.Idx → EReal) (m ((c : Thread nD τ).loc main_arg1) : S32000x2048.Idx → EReal) p))
          (lseK (logit (m ((c : Thread nD τ).loc main_arg2) : S2048x4096.Idx → EReal) (m ((c : Thread nD τ).loc main_arg3) : S32000x4096.Idx → EReal) p)) 124 := by
  show mem3 m c (Proc.devRef .tc (Pipeline.arrRef spec1 6)) (ix2 p (0 : Fin 1)) = _
  rw [mem3_arr, final1]
  show accK cH (sRow (ent1 m) c p) (tRow (ent1 m) c p) (lsAt (ent1 m) c p) (ltAt (ent1 m) c p) 124 = _
  rw [lsAt_ent1, ltAt_ent1, sRow_ent1, tRow_ent1, sRow_ent0, tRow_ent0]

/-- For finite inputs it is the reference's term of that row. -/
theorem loss_rows [Cert.Pre_finite_inputs.Facts] (c : Dev nD)
    (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) = fun _ => 1#1) :
    (shapeCast S2048 (mem3 m c (Proc.devRef .tc main_v5)) shapeCasts_S2048x1_S2048 : S2048.Idx → EReal)
      = Cert.ReferenceIdeal.ReadP.val_main_v28 (F := Ideal) (m ((c : Thread nD τ).loc main_arg0)) (m ((c : Thread nD τ).loc main_arg1)) (m ((c : Thread nD τ).loc main_arg2)) (m ((c : Thread nD τ).loc main_arg3)) := by
  obtain ⟨h0, h1, h2, h3⟩ := Cert.Finite.inputs_real _ _ _ _ _ hpre
  funext i
  obtain ⟨p, rfl⟩ : ∃ p : Fin 2048, i = ix1 p := ⟨i 0, eq_ix1 i⟩
  rw [Cert.Lib.ColumnVector.shapeCast_a1_a_apply, Cert.RefSide.perTok_eq, loss_row]
  obtain ⟨gs, hgs⟩ := Cert.Finite.logit_real (m ((c : Thread nD τ).loc main_arg0) : S2048x2048.Idx → EReal) (m ((c : Thread nD τ).loc main_arg1) : S32000x2048.Idx → EReal) h0 h1 p
  obtain ⟨gt, hgt⟩ := Cert.Finite.logit_real (m ((c : Thread nD τ).loc main_arg2) : S2048x4096.Idx → EReal) (m ((c : Thread nD τ).loc main_arg3) : S32000x4096.Idx → EReal) h2 h3 p
  rw [show logit (m ((c : Thread nD τ).loc main_arg0) : S2048x2048.Idx → EReal) (m ((c : Thread nD τ).loc main_arg1) : S32000x2048.Idx → EReal) p = fun k => (gs k : EReal) from funext hgs,
    show logit (m ((c : Thread nD τ).loc main_arg2) : S2048x4096.Idx → EReal) (m ((c : Thread nD τ).loc main_arg3) : S32000x4096.Idx → EReal) p = fun k => (gt k : EReal) from funext hgt]
  exact Cert.Bridge.accK_eq_jsdRef cH Cert.Consts.half_nonneg Cert.Consts.half_ne_top gs gt

end Cert.KernelIdeal.Hand

end
-- ==== Proof.FrameKernel.StatsBase.lean ====
/-
  The first kernel region (the running row maximum and the running sum of exponentials of both logit
  tiles, kept in four column buffers across the 125 vocabulary steps of a row block): what its three control
  cases and its proof data are stated over.  A grid point is (row block, vocabulary step); the buffers are
  reset at step 0, updated at every step, and turned into the two log-sum-exp columns at step 124.
-/
import proofs.«168479_j71159018160660_2_alg».proof.Proof.Gen.Kernel.Launch
import proofs.«168479_j71159018160660_2_alg».proof.Proof.Gen.Kernel.Skeleton
import proofs.«168479_j71159018160660_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the buffer contents when the region is entered
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

end

/-! ## The two conditions of the body, over the grid -/

/-- "This is vocabulary step 0" as the body computes it. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 125 = 0 :=
  (by decide +kernel : ∀ t : Fin grid0.N, cond0_0 (grid0.coords t) ↔ t.val % 125 = 0)
/-- "This is vocabulary step 124", the last. -/
abbrev cond0_1 (i : grid0.Coords) : Prop := k0_cond2 i = 1#1
theorem hcond0_1 : ∀ t : Fin cfg0.N, cond0_1 (grid0.coords t) ↔ t.val % 125 = 124 :=
  (by decide +kernel : ∀ t : Fin grid0.N, cond0_1 (grid0.coords t) ↔ t.val % 125 = 124)

/-! ## Where the windows are live -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last step nothing is stored into the two result columns, and they are not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The memrefs the body is called with -/
abbrev VO0_4 : View sig .tc .vmem S1024x1 .f32 := (Memref.whole cc0_stg4_0 : Memref sig .tc .vmem S1024x1 .f32).view
abbrev VO0_5 : View sig .tc .vmem S1024x1 .f32 := (Memref.whole cc0_stg5_0 : Memref sig .tc .vmem S1024x1 .f32).view
abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x4096 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x4096 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1 .f32 := win0_5.stage (cfg0.slots t 5)
abbrev hs0_5 (t : Fin cfg0.N) : (ms0_5 t).IsWhole := hstage0_5 ((cfg0.slots t 5).cast nbuf0_5)
/-- The four column buffers the kernel keeps between steps: running maximum and running sum, for each of the two logit tiles. -/
abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x1 .f32 := Memref.whole cc0_scratch2
abbrev scM0_3 : Memref sig .tc .vmem S1024x1 .f32 := Memref.whole cc0_scratch3
abbrev VS0_0 : View sig .tc .vmem S1024x1 .f32 := scM0_0.view
abbrev VS0_1 : View sig .tc .vmem S1024x1 .f32 := scM0_1.view
abbrev VS0_2 : View sig .tc .vmem S1024x1 .f32 := scM0_2.view
abbrev VS0_3 : View sig .tc .vmem S1024x1 .f32 := scM0_3.view

/-- The core's other scoped buffers (the second region's), each at some contents: they ride through the first region untouched. -/
abbrev others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f))

/-- What the region's invariant is before its first point: the four column buffers at anything, the other scoped buffers, the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ others0 c) ∗ (∃ r, prngReg c r)) := by
  unfold Pipeline.ΦA; rw [scopedRest0_eq]; simp only [scM0_0, scM0_1, scM0_2, scM0_3, owns_whole]; try rfl

end Cert.Kernel.Hand

end
-- ==== Proof.FrameKernel.StatsRunA.lean ====
/-
  The first region's body at vocabulary step 0 of a row block: the four column buffers are reset (maximum to minus infinity, sum to zero) whatever they held, then updated with the first tile; the result columns are not touched.
-/
import proofs.«168479_j71159018160660_2_alg».proof.Proof.FrameKernel.StatsBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at step 0, on whole memrefs: the input blocks at their contents, the result columns at contents handed back untouched,
    the four column buffers at anything.  The pieces each column buffer ends with are found by running the body. -/
noncomputable def kernelRun0_A (c : Dev nD) (i : grid0.Coords) (arg2 : Memref sig .tc .vmem S1024x2048 .bf16) (harg2 : arg2.IsWhole) (arg3 : Memref sig .tc .vmem S256x2048 .bf16) (harg3 : arg3.IsWhole) (arg4 : Memref sig .tc .vmem S1024x4096 .bf16) (harg4 : arg4.IsWhole) (arg5 : Memref sig .tc .vmem S256x4096 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x2048 .bf16) (x1 : Vec F S256x2048 .bf16) (x2 : Vec F S1024x4096 .bf16) (x3 : Vec F S256x4096 .bf16) :
    Σ' (L4 : List (View.Piece (Elt F) S1024x1 .f32)), Σ' (L5 : List (View.Piece (Elt F) S1024x1 .f32)), Σ' (LS0 : List (View.Piece (Elt F) S1024x1 .f32)), Σ' (LS1 : List (View.Piece (Elt F) S1024x1 .f32)), Σ' (LS2 : List (View.Piece (Elt F) S1024x1 .f32)), { LS3 : List (View.Piece (Elt F) S1024x1 .f32) //
      ∀ (xi4 xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__stats_kernel i arg2 harg2 arg3 harg3 arg4 harg4 arg5 harg5 arg6 harg6 arg7 harg7 arg8 harg8 arg9 harg9 arg10 harg10 arg11 harg11) K } := by
  refine ⟨[], [], ?_, ?_, ?_, ?_, fun xi4 xi5 E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    isplitl [HS2]; · iexists _; iexact HS2
    iexists _; iexact HS3

end Cert.Kernel.Hand

end
-- ==== Proof.FrameKernel.StatsRunB.lean ====
/-
  The first region's body at a middle vocabulary step (neither the first nor the last): the four column buffers are read at what the step before left and end at the updated running maximum and running sum; the result columns are not touched.
-/
import proofs.«168479_j71159018160660_2_alg».proof.Proof.FrameKernel.StatsBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle step, on whole memrefs: the input blocks at their contents, the result columns at contents handed back untouched,
    the four column buffers at the contents `xs·` the step before left.  The pieces each column buffer ends with are found by running the body. -/
noncomputable def kernelRun0_B (c : Dev nD) (i : grid0.Coords) (arg2 : Memref sig .tc .vmem S1024x2048 .bf16) (harg2 : arg2.IsWhole) (arg3 : Memref sig .tc .vmem S256x2048 .bf16) (harg3 : arg3.IsWhole) (arg4 : Memref sig .tc .vmem S1024x4096 .bf16) (harg4 : arg4.IsWhole) (arg5 : Memref sig .tc .vmem S256x4096 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x2048 .bf16) (x1 : Vec F S256x2048 .bf16) (x2 : Vec F S1024x4096 .bf16) (x3 : Vec F S256x4096 .bf16) (xs0 xs1 xs2 xs3 : Vec F S1024x1 .f32) :
    Σ' (L4 : List (View.Piece (Elt F) S1024x1 .f32)), Σ' (L5 : List (View.Piece (Elt F) S1024x1 .f32)), Σ' (LS0 : List (View.Piece (Elt F) S1024x1 .f32)), Σ' (LS1 : List (View.Piece (Elt F) S1024x1 .f32)), Σ' (LS2 : List (View.Piece (Elt F) S1024x1 .f32)), { LS3 : List (View.Piece (Elt F) S1024x1 .f32) //
      ∀ (xi4 xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__stats_kernel i arg2 harg2 arg3 harg3 arg4 harg4 arg5 harg5 arg6 harg6 arg7 harg7 arg8 harg8 arg9 harg9 arg10 harg10 arg11 harg11) K } := by
  refine ⟨[], [], ?_, ?_, ?_, ?_, fun xi4 xi5 E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    isplitl [HS2]; · iexists _; iexact HS2
    iexists _; iexact HS3

end Cert.Kernel.Hand

end
-- ==== Proof.FrameKernel.StatsRunC.lean ====
/-
  The first region's body at the last vocabulary step of a row block: the four column buffers are updated as at a middle step, and the two result columns are stored whole: running maximum plus the logarithm of the running sum.
-/
import proofs.«168479_j71159018160660_2_alg».proof.Proof.FrameKernel.StatsBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last step, on whole memrefs: the input blocks at their contents, the result columns at anything,
    the four column buffers at the contents `xs·` the step before left.  The pieces each buffer ends with are found by running the body. -/
noncomputable def kernelRun0_C (c : Dev nD) (i : grid0.Coords) (arg2 : Memref sig .tc .vmem S1024x2048 .bf16) (harg2 : arg2.IsWhole) (arg3 : Memref sig .tc .vmem S256x2048 .bf16) (harg3 : arg3.IsWhole) (arg4 : Memref sig .tc .vmem S1024x4096 .bf16) (harg4 : arg4.IsWhole) (arg5 : Memref sig .tc .vmem S256x4096 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x2048 .bf16) (x1 : Vec F S256x2048 .bf16) (x2 : Vec F S1024x4096 .bf16) (x3 : Vec F S256x4096 .bf16) (xs0 xs1 xs2 xs3 : Vec F S1024x1 .f32) :
    Σ' (L4 : List (View.Piece (Elt F) S1024x1 .f32)), Σ' (L5 : List (View.Piece (Elt F) S1024x1 .f32)), Σ' (LS0 : List (View.Piece (Elt F) S1024x1 .f32)), Σ' (LS1 : List (View.Piece (Elt F) S1024x1 .f32)), Σ' (LS2 : List (View.Piece (Elt F) S1024x1 .f32)), { LS3 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__stats_kernel i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    isplitl [HS1]; · iexists _; iexact HS1
    isplitl [HS2]; · iexists _; iexact HS2
    iexists _; iexact HS3

end Cert.Kernel.Hand

end
-- ==== Proof.FrameKernel.StatsFrame.lean ====
/-
  The first region's proof data.  What the four kept column buffers hold after each grid point is defined by
  recursion on the point — reset and first update at step 0 of a row block, update at the later steps — and the
  two result columns' staging buffers hold, at the last step of a row block, running maximum plus logarithm of
  running sum.  From that: the region's invariant point by point, and the body obligation by the three cases' runs.
-/
import proofs.«168479_j71159018160660_2_alg».proof.Proof.FrameKernel.StatsRunA
import proofs.«168479_j71159018160660_2_alg».proof.Proof.FrameKernel.StatsRunB
import proofs.«168479_j71159018160660_2_alg».proof.Proof.FrameKernel.StatsRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three cases at a grid point -/

def runAt0_A (c : Dev nD) (t : Fin cfg0.N) (h0 : cond0_0 (grid0.coords t)) (h1 : ¬cond0_1 (grid0.coords t)) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) h0 h1 (iblk0 V c 0 t) (iblk0 V c 1 t) (iblk0 V c 2 t) (iblk0 V c 3 t)
def runAt0_B (c : Dev nD) (t : Fin cfg0.N) (h0 : ¬cond0_0 (grid0.coords t)) (h1 : ¬cond0_1 (grid0.coords t)) (xs0 xs1 xs2 xs3 : Vec F S1024x1 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) h0 h1 (iblk0 V c 0 t) (iblk0 V c 1 t) (iblk0 V c 2 t) (iblk0 V c 3 t) xs0 xs1 xs2 xs3
def runAt0_C (c : Dev nD) (t : Fin cfg0.N) (h0 : ¬cond0_0 (grid0.coords t)) (h1 : cond0_1 (grid0.coords t)) (xs0 xs1 xs2 xs3 : Vec F S1024x1 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) h0 h1 (iblk0 V c 0 t) (iblk0 V c 1 t) (iblk0 V c 2 t) (iblk0 V c 3 t) xs0 xs1 xs2 xs3

theorem scover0_A_0 (c : Dev nD) (t : Fin cfg0.N) (h0 : cond0_0 (grid0.coords t)) (h1 : ¬cond0_1 (grid0.coords t)) (y : S1024x1.Idx) :
    ∃ pc ∈ (runAt0_A V c t h0 h1).2.2.1, y ∈ pc.1.set :=
  View.cover_of_tiledL (runAt0_A V c t h0 h1).2.2.1 S1024x1.size (by unfold runAt0_A; sl_kernel_rfl) y
theorem scover0_A_1 (c : Dev nD) (t : Fin cfg0.N) (h0 : cond0_0 (grid0.coords t)) (h1 : ¬cond0_1 (grid0.coords t)) (y : S1024x1.Idx) :
    ∃ pc ∈ (runAt0_A V c t h0 h1).2.2.2.1, y ∈ pc.1.set :=
  View.cover_of_tiledL (runAt0_A V c t h0 h1).2.2.2.1 S1024x1.size (by unfold runAt0_A; sl_kernel_rfl) y
theorem scover0_A_2 (c : Dev nD) (t : Fin cfg0.N) (h0 : cond0_0 (grid0.coords t)) (h1 : ¬cond0_1 (grid0.coords t)) (y : S1024x1.Idx) :
    ∃ pc ∈ (runAt0_A V c t h0 h1).2.2.2.2.1, y ∈ pc.1.set :=
  View.cover_of_tiledL (runAt0_A V c t h0 h1).2.2.2.2.1 S1024x1.size (by unfold runAt0_A; sl_kernel_rfl) y
theorem scover0_A_3 (c : Dev nD) (t : Fin cfg0.N) (h0 : cond0_0 (grid0.coords t)) (h1 : ¬cond0_1 (grid0.coords t)) (y : S1024x1.Idx) :
    ∃ pc ∈ (runAt0_A V c t h0 h1).2.2.2.2.2.1, y ∈ pc.1.set :=
  View.cover_of_tiledL (runAt0_A V c t h0 h1).2.2.2.2.2.1 S1024x1.size (by unfold runAt0_A; sl_kernel_rfl) y
theorem scover0_B_0 (c : Dev nD) (t : Fin cfg0.N) (h0 : ¬cond0_0 (grid0.coords t)) (h1 : ¬cond0_1 (grid0.coords t)) (xs0 xs1 xs2 xs3 : Vec F S1024x1 .f32) (y : S1024x1.Idx) :
    ∃ pc ∈ (runAt0_B V c t h0 h1 xs0 xs1 xs2 xs3).2.2.1, y ∈ pc.1.set :=
  View.cover_of_tiledL (runAt0_B V c t h0 h1 xs0 xs1 xs2 xs3).2.2.1 S1024x1.size (by unfold runAt0_B; sl_kernel_rfl) y
theorem scover0_B_1 (c : Dev nD) (t : Fin cfg0.N) (h0 : ¬cond0_0 (grid0.coords t)) (h1 : ¬cond0_1 (grid0.coords t)) (xs0 xs1 xs2 xs3 : Vec F S1024x1 .f32) (y : S1024x1.Idx) :
    ∃ pc ∈ (runAt0_B V c t h0 h1 xs0 xs1 xs2 xs3).2.2.2.1, y ∈ pc.1.set :=
  View.cover_of_tiledL (runAt0_B V c t h0 h1 xs0 xs1 xs2 xs3).2.2.2.1 S1024x1.size (by unfold runAt0_B; sl_kernel_rfl) y
theorem scover0_B_2 (c : Dev nD) (t : Fin cfg0.N) (h0 : ¬cond0_0 (grid0.coords t)) (h1 : ¬cond0_1 (grid0.coords t)) (xs0 xs1 xs2 xs3 : Vec F S1024x1 .f32) (y : S1024x1.Idx) :
    ∃ pc ∈ (runAt0_B V c t h0 h1 xs0 xs1 xs2 xs3).2.2.2.2.1, y ∈ pc.1.set :=
  View.cover_of_tiledL (runAt0_B V c t h0 h1 xs0 xs1 xs2 xs3).2.2.2.2.1 S1024x1.size (by unfold runAt0_B; sl_kernel_rfl) y
theorem scover0_B_3 (c : Dev nD) (t : Fin cfg0.N) (h0 : ¬cond0_0 (grid0.coords t)) (h1 : ¬cond0_1 (grid0.coords t)) (xs0 xs1 xs2 xs3 : Vec F S1024x1 .f32) (y : S1024x1.Idx) :
    ∃ pc ∈ (runAt0_B V c t h0 h1 xs0 xs1 xs2 xs3).2.2.2.2.2.1, y ∈ pc.1.set :=
  View.cover_of_tiledL (runAt0_B V c t h0 h1 xs0 xs1 xs2 xs3).2.2.2.2.2.1 S1024x1.size (by unfold runAt0_B; sl_kernel_rfl) y
theorem scover0_C_0 (c : Dev nD) (t : Fin cfg0.N) (h0 : ¬cond0_0 (grid0.coords t)) (h1 : cond0_1 (grid0.coords t)) (xs0 xs1 xs2 xs3 : Vec F S1024x1 .f32) (y : S1024x1.Idx) :
    ∃ pc ∈ (runAt0_C V c t h0 h1 xs0 xs1 xs2 xs3).2.2.1, y ∈ pc.1.set :=
  View.cover_of_tiledL (runAt0_C V c t h0 h1 xs0 xs1 xs2 xs3).2.2.1 S1024x1.size (by unfold runAt0_C; sl_kernel_rfl) y
theorem scover0_C_1 (c : Dev nD) (t : Fin cfg0.N) (h0 : ¬cond0_0 (grid0.coords t)) (h1 : cond0_1 (grid0.coords t)) (xs0 xs1 xs2 xs3 : Vec F S1024x1 .f32) (y : S1024x1.Idx) :
    ∃ pc ∈ (runAt0_C V c t h0 h1 xs0 xs1 xs2 xs3).2.2.2.1, y ∈ pc.1.set :=
  View.cover_of_tiledL (runAt0_C V c t h0 h1 xs0 xs1 xs2 xs3).2.2.2.1 S1024x1.size (by unfold runAt0_C; sl_kernel_rfl) y
theorem scover0_C_2 (c : Dev nD) (t : Fin cfg0.N) (h0 : ¬cond0_0 (grid0.coords t)) (h1 : cond0_1 (grid0.coords t)) (xs0 xs1 xs2 xs3 : Vec F S1024x1 .f32) (y : S1024x1.Idx) :
    ∃ pc ∈ (runAt0_C V c t h0 h1 xs0 xs1 xs2 xs3).2.2.2.2.1, y ∈ pc.1.set :=
  View.cover_of_tiledL (runAt0_C V c t h0 h1 xs0 xs1 xs2 xs3).2.2.2.2.1 S1024x1.size (by unfold runAt0_C; sl_kernel_rfl) y
theorem scover0_C_3 (c : Dev nD) (t : Fin cfg0.N) (h0 : ¬cond0_0 (grid0.coords t)) (h1 : cond0_1 (grid0.coords t)) (xs0 xs1 xs2 xs3 : Vec F S1024x1 .f32) (y : S1024x1.Idx) :
    ∃ pc ∈ (runAt0_C V c t h0 h1 xs0 xs1 xs2 xs3).2.2.2.2.2.1, y ∈ pc.1.set :=
  View.cover_of_tiledL (runAt0_C V c t h0 h1 xs0 xs1 xs2 xs3).2.2.2.2.2.1 S1024x1.size (by unfold runAt0_C; sl_kernel_rfl) y
theorem cover0_C_4 (c : Dev nD) (t : Fin cfg0.N) (h0 : ¬cond0_0 (grid0.coords t)) (h1 : cond0_1 (grid0.coords t)) (xs0 xs1 xs2 xs3 : Vec F S1024x1 .f32) (y : S1024x1.Idx) :
    ∃ pc ∈ (runAt0_C V c t h0 h1 xs0 xs1 xs2 xs3).1, y ∈ pc.1.set :=
  View.cover_of_tiledL (runAt0_C V c t h0 h1 xs0 xs1 xs2 xs3).1 S1024x1.size (by unfold runAt0_C; sl_kernel_rfl) y
theorem cover0_C_5 (c : Dev nD) (t : Fin cfg0.N) (h0 : ¬cond0_0 (grid0.coords t)) (h1 : cond0_1 (grid0.coords t)) (xs0 xs1 xs2 xs3 : Vec F S1024x1 .f32) (y : S1024x1.Idx) :
    ∃ pc ∈ (runAt0_C V c t h0 h1 xs0 xs1 xs2 xs3).2.1, y ∈ pc.1.set :=
  View.cover_of_tiledL (runAt0_C V c t h0 h1 xs0 xs1 xs2 xs3).2.1 S1024x1.size (by unfold runAt0_C; sl_kernel_rfl) y

/-- What a case leaves: (the two result columns' staging buffers, the four kept column buffers).  Where the case
    stores nothing into the result columns their components are placeholders nothing consults. -/
def tup0_A (c : Dev nD) (t : Fin cfg0.N) (h0 : cond0_0 (grid0.coords t)) (h1 : ¬cond0_1 (grid0.coords t)) : Vec F S1024x1 .f32 × Vec F S1024x1 .f32 × Vec F S1024x1 .f32 × Vec F S1024x1 .f32 × Vec F S1024x1 .f32 × Vec F S1024x1 .f32 :=
  (VO0_4.read (Elt F) VO0_4.junk, VO0_5.read (Elt F) VO0_5.junk, VS0_0.read (Elt F) (VS0_0.writes (Elt F) VS0_0.junk (runAt0_A V c t h0 h1).2.2.1), VS0_1.read (Elt F) (VS0_1.writes (Elt F) VS0_1.junk (runAt0_A V c t h0 h1).2.2.2.1), VS0_2.read (Elt F) (VS0_2.writes (Elt F) VS0_2.junk (runAt0_A V c t h0 h1).2.2.2.2.1), VS0_3.read (Elt F) (VS0_3.writes (Elt F) VS0_3.junk (runAt0_A V c t h0 h1).2.2.2.2.2.1))
def tup0_B (c : Dev nD) (t : Fin cfg0.N) (h0 : ¬cond0_0 (grid0.coords t)) (h1 : ¬cond0_1 (grid0.coords t)) (xs0 xs1 xs2 xs3 : Vec F S1024x1 .f32) : Vec F S1024x1 .f32 × Vec F S1024x1 .f32 × Vec F S1024x1 .f32 × Vec F S1024x1 .f32 × Vec F S1024x1 .f32 × Vec F S1024x1 .f32 :=
  (VO0_4.read (Elt F) VO0_4.junk, VO0_5.read (Elt F) VO0_5.junk, VS0_0.read (Elt F) (VS0_0.writes (Elt F) VS0_0.junk (runAt0_B V c t h0 h1 xs0 xs1 xs2 xs3).2.2.1), VS0_1.read (Elt F) (VS0_1.writes (Elt F) VS0_1.junk (runAt0_B V c t h0 h1 xs0 xs1 xs2 xs3).2.2.2.1), VS0_2.read (Elt F) (VS0_2.writes (Elt F) VS0_2.junk (runAt0_B V c t h0 h1 xs0 xs1 xs2 xs3).2.2.2.2.1), VS0_3.read (Elt F) (VS0_3.writes (Elt F) VS0_3.junk (runAt0_B V c t h0 h1 xs0 xs1 xs2 xs3).2.2.2.2.2.1))
def tup0_C (c : Dev nD) (t : Fin cfg0.N) (h0 : ¬cond0_0 (grid0.coords t)) (h1 : cond0_1 (grid0.coords t)) (xs0 xs1 xs2 xs3 : Vec F S1024x1 .f32) : Vec F S1024x1 .f32 × Vec F S1024x1 .f32 × Vec F S1024x1 .f32 × Vec F S1024x1 .f32 × Vec F S1024x1 .f32 × Vec F S1024x1 .f32 :=
  (VO0_4.read (Elt F) (VO0_4.writes (Elt F) VO0_4.junk (runAt0_C V c t h0 h1 xs0 xs1 xs2 xs3).1), VO0_5.read (Elt F) (VO0_5.writes (Elt F) VO0_5.junk (runAt0_C V c t h0 h1 xs0 xs1 xs2 xs3).2.1), VS0_0.read (Elt F) (VS0_0.writes (Elt F) VS0_0.junk (runAt0_C V c t h0 h1 xs0 xs1 xs2 xs3).2.2.1), VS0_1.read (Elt F) (VS0_1.writes (Elt F) VS0_1.junk (runAt0_C V c t h0 h1 xs0 xs1 xs2 xs3).2.2.2.1), VS0_2.read (Elt F) (VS0_2.writes (Elt F) VS0_2.junk (runAt0_C V c t h0 h1 xs0 xs1 xs2 xs3).2.2.2.2.1), VS0_3.read (Elt F) (VS0_3.writes (Elt F) VS0_3.junk (runAt0_C V c t h0 h1 xs0 xs1 xs2 xs3).2.2.2.2.2.1))

/-! ## What the buffers hold after each point -/

def outsAt0 (c : Dev nD) : (n : ℕ) → n < cfg0.N → Vec F S1024x1 .f32 × Vec F S1024x1 .f32 × Vec F S1024x1 .f32 × Vec F S1024x1 .f32 × Vec F S1024x1 .f32 × Vec F S1024x1 .f32
  | 0, hn => tup0_A V c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 125 = 0 then
      if h1 : (n + 1) % 125 = 124 then False.elim (by omega)
      else tup0_A V c ⟨n + 1, hn⟩ ((hcond0_0 ⟨n + 1, hn⟩).mpr h0) (fun h => h1 ((hcond0_1 ⟨n + 1, hn⟩).mp h))
    else
      if h1 : (n + 1) % 125 = 124 then
        tup0_C V c ⟨n + 1, hn⟩ (fun h => h0 ((hcond0_0 ⟨n + 1, hn⟩).mp h)) ((hcond0_1 ⟨n + 1, hn⟩).mpr h1) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2
      else
        tup0_B V c ⟨n + 1, hn⟩ (fun h => h0 ((hcond0_0 ⟨n + 1, hn⟩).mp h)) (fun h => h1 ((hcond0_1 ⟨n + 1, hn⟩).mp h)) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2

theorem outsAt0_A (c : Dev nD) (t : Fin cfg0.N) (h0 : t.val % 125 = 0) (h1 : ¬t.val % 125 = 124) :
    outsAt0 V c t.val t.isLt = tup0_A V c t ((hcond0_0 t).mpr h0) (fun h => h1 ((hcond0_1 t).mp h)) := by
  obtain ⟨n, hn⟩ := t
  cases n with
  | zero => exact rfl
  | succ n => exact (dif_pos h0).trans ((dif_neg h1).trans rfl)
theorem outsAt0_B (c : Dev nD) (t : Fin cfg0.N) (h0 : ¬t.val % 125 = 0) (h1 : ¬t.val % 125 = 124) :
    outsAt0 V c t.val t.isLt = tup0_B V c t (fun h => h0 ((hcond0_0 t).mp h)) (fun h => h1 ((hcond0_1 t).mp h)) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2 := by
  obtain ⟨n, hn⟩ := t
  cases n with
  | zero => exact absurd (Nat.zero_mod _) h0
  | succ n => exact (dif_neg h0).trans ((dif_neg h1).trans rfl)
theorem outsAt0_C (c : Dev nD) (t : Fin cfg0.N) (h0 : ¬t.val % 125 = 0) (h1 : t.val % 125 = 124) :
    outsAt0 V c t.val t.isLt = tup0_C V c t (fun h => h0 ((hcond0_0 t).mp h)) ((hcond0_1 t).mpr h1) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2 := by
  obtain ⟨n, hn⟩ := t
  cases n with
  | zero => exact absurd (Nat.zero_mod _) h0
  | succ n => exact (dif_neg h0).trans ((dif_pos h1).trans rfl)

/-! ## The invariant -/

def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2.1) ∗ owns (c : Thread nD τ) scM0_2 fullShare ((outsAt0 V c n hn).2.2.2.2.1) ∗ owns (c : Thread nD τ) scM0_3 fullShare ((outsAt0 V c n hn).2.2.2.2.2) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2.2.1) ∗ owns (c : Thread nD τ) scM0_1 fullShare ((outsAt0 V c n hn).2.2.2.1) ∗ owns (c : Thread nD τ) scM0_2 fullShare ((outsAt0 V c n hn).2.2.2.2.1) ∗ owns (c : Thread nD τ) scM0_3 fullShare ((outsAt0 V c n hn).2.2.2.2.2) ∗ others0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.1) ∗ owns (c : Thread nD τ) scM0_1 fullShare ((outsAt0 V c (n - 1) (by omega)).2.2.2.1) ∗ owns (c : Thread nD τ) scM0_2 fullShare ((outsAt0 V c (n - 1) (by omega)).2.2.2.2.1) ∗ owns (c : Thread nD τ) scM0_3 fullShare ((outsAt0 V c (n - 1) (by omega)).2.2.2.2.2) ∗ others0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

theorem leaves0_in (c : Dev nD) (t : Fin cfg0.N) :
    (dat0 V c).leavesExact 0 t = owns (c : Thread nD τ) (ms0_0 t) fullShare (iblk0 V c 0 t)
    ∧ (dat0 V c).leavesExact 1 t = owns (c : Thread nD τ) (ms0_1 t) fullShare (iblk0 V c 1 t)
    ∧ (dat0 V c).leavesExact 2 t = owns (c : Thread nD τ) (ms0_2 t) fullShare (iblk0 V c 2 t)
    ∧ (dat0 V c).leavesExact 3 t = owns (c : Thread nD τ) (ms0_3 t) fullShare (iblk0 V c 3 t) := by
  refine ⟨?_, ?_, ?_, ?_⟩
  · unfold Dat.leavesExact; rw [liveAt0_0 t, after0_0]
  · unfold Dat.leavesExact; rw [liveAt0_1 t, after0_1]
  · unfold Dat.leavesExact; rw [liveAt0_2 t, after0_2]
  · unfold Dat.leavesExact; rw [liveAt0_3 t, after0_3]

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  obtain ⟨hl0, hl1, hl2, hl3⟩ := leaves0_in V c t
  rw [hl0, hl1, hl2, hl3]
  have hN : t.val < 250 := lt_of_lt_of_eq t.isLt (show cfg0.N = 250 from N_0)
  by_cases h0 : t.val % 125 = 0
  · have h1 : ¬t.val % 125 = 124 := by omega
    rw [Dat.leavesExact_idle (dat0 V c) 4 t (idleAt0_4 t (fun h => h1 ((hcond0_1 t).mp h))) (noFlush0_4 t (fun h => h1 ((hcond0_1 t).mp h))),
      Dat.leavesExact_idle (dat0 V c) 5 t (idleAt0_5 t (fun h => h1 ((hcond0_1 t).mp h))) (noFlush0_5 t (fun h => h1 ((hcond0_1 t).mp h)))]
    rw [outsAt0_A V c t h0 h1]
    unfold tup0_A; dsimp only
    by_cases hz : t.val = 0
    · rw [PhiS0_castSucc V c t, PhiS0_zero V c _ _ hz, PhiA0_eq]
      iintro ⟨⟨⟨HS0, HS1, HS2, HS3, Hoth⟩, Hg⟩, Ho, ⟨%d0, H0⟩, ⟨%d1, H1⟩, ⟨%d2, H2⟩, ⟨%d3, H3⟩, ⟨%d4, H4⟩, ⟨%d5, H5⟩⟩
      iapply ((runAt0_A V c t ((hcond0_0 t).mpr h0) (fun h => h1 ((hcond0_1 t).mp h))).2.2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, ⟨%es0, HS0⟩, ⟨%es1, HS1⟩, ⟨%es2, HS2⟩, ⟨%es3, HS3⟩⟩
      isplitl [HS0 HS1 HS2 HS3 Hoth Hg]
      · isplitl [HS0 HS1 HS2 HS3 Hoth]
        · isplitl [HS0]
          · unfold owns; iexists _; isplitr
            swap; · iexact HS0
            ipureintro; exact View.read_writes_of_cover _ _ _ _ _ (scover0_A_0 V c t _ _)
          isplitl [HS1]
          · unfold owns; iexists _; isplitr
            swap; · iexact HS1
            ipureintro; exact View.read_writes_of_cover _ _ _ _ _ (scover0_A_1 V c t _ _)
          isplitl [HS2]
          · unfold owns; iexists _; isplitr
            swap; · iexact HS2
            ipureintro; exact View.read_writes_of_cover _ _ _ _ _ (scover0_A_2 V c t _ _)
          isplitl [HS3]
          · unfold owns; iexists _; isplitr
            swap; · iexact HS3
            ipureintro; exact View.read_writes_of_cover _ _ _ _ _ (scover0_A_3 V c t _ _)
          iexact Hoth
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [PhiS0_castSucc V c t, PhiS0_pos V c _ _ hz]
      iintro ⟨⟨⟨HS0, HS1, HS2, HS3, Hoth⟩, Hg⟩, Ho, ⟨%d0, H0⟩, ⟨%d1, H1⟩, ⟨%d2, H2⟩, ⟨%d3, H3⟩, ⟨%d4, H4⟩, ⟨%d5, H5⟩⟩
      iapply ((runAt0_A V c t ((hcond0_0 t).mpr h0) (fun h => h1 ((hcond0_1 t).mp h))).2.2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      isplitl [HS3]; · iexists _; iexact HS3
      iintro ⟨H0, H1, H2, H3, H4, H5, ⟨%es0, HS0⟩, ⟨%es1, HS1⟩, ⟨%es2, HS2⟩, ⟨%es3, HS3⟩⟩
      isplitl [HS0 HS1 HS2 HS3 Hoth Hg]
      · isplitl [HS0 HS1 HS2 HS3 Hoth]
        · isplitl [HS0]
          · unfold owns; iexists _; isplitr
            swap; · iexact HS0
            ipureintro; exact View.read_writes_of_cover _ _ _ _ _ (scover0_A_0 V c t _ _)
          isplitl [HS1]
          · unfold owns; iexists _; isplitr
            swap; · iexact HS1
            ipureintro; exact View.read_writes_of_cover _ _ _ _ _ (scover0_A_1 V c t _ _)
          isplitl [HS2]
          · unfold owns; iexists _; isplitr
            swap; · iexact HS2
            ipureintro; exact View.read_writes_of_cover _ _ _ _ _ (scover0_A_2 V c t _ _)
          isplitl [HS3]
          · unfold owns; iexists _; isplitr
            swap; · iexact HS3
            ipureintro; exact View.read_writes_of_cover _ _ _ _ _ (scover0_A_3 V c t _ _)
          iexact Hoth
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun h => h0 (by rw [h])
    by_cases h1 : t.val % 125 = 124
    · rw [show (dat0 V c).leavesExact 4 t = owns (c : Thread nD τ) (ms0_4 t) fullShare ((dat0 V c).after 4 t) from by
        unfold Dat.leavesExact; rw [liveAt0_4 t ((hcond0_1 t).mpr h1)], after0_4]
      rw [show (dat0 V c).leavesExact 5 t = owns (c : Thread nD τ) (ms0_5 t) fullShare ((dat0 V c).after 5 t) from by
        unfold Dat.leavesExact; rw [liveAt0_5 t ((hcond0_1 t).mpr h1)], after0_5]
      rw [outsAt0_C V c t h0 h1]
      unfold tup0_C; dsimp only
      rw [PhiS0_castSucc V c t, PhiS0_pos V c _ _ hz]
      iintro ⟨⟨⟨HS0, HS1, HS2, HS3, Hoth⟩, Hg⟩, Ho, ⟨%d0, H0⟩, ⟨%d1, H1⟩, ⟨%d2, H2⟩, ⟨%d3, H3⟩, ⟨%d4, H4⟩, ⟨%d5, H5⟩⟩
      iapply ((runAt0_C V c t (fun h => h0 ((hcond0_0 t).mp h)) ((hcond0_1 t).mpr h1) _ _ _ _).2.2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      isplitl [HS2]; · iexact HS2
      isplitl [HS3]; · iexact HS3
      iintro ⟨H0, H1, H2, H3, ⟨%e4, H4⟩, ⟨%e5, H5⟩, ⟨%es0, HS0⟩, ⟨%es1, HS1⟩, ⟨%es2, HS2⟩, ⟨%es3, HS3⟩⟩
      isplitl [HS0 HS1 HS2 HS3 Hoth Hg]
      · isplitl [HS0 HS1 HS2 HS3 Hoth]
        · isplitl [HS0]
          · unfold owns; iexists _; isplitr
            swap; · iexact HS0
            ipureintro; exact View.read_writes_of_cover _ _ _ _ _ (scover0_C_0 V c t _ _ _ _ _ _)
          isplitl [HS1]
          · unfold owns; iexists _; isplitr
            swap; · iexact HS1
            ipureintro; exact View.read_writes_of_cover _ _ _ _ _ (scover0_C_1 V c t _ _ _ _ _ _)
          isplitl [HS2]
          · unfold owns; iexists _; isplitr
            swap; · iexact HS2
            ipureintro; exact View.read_writes_of_cover _ _ _ _ _ (scover0_C_2 V c t _ _ _ _ _ _)
          isplitl [HS3]
          · unfold owns; iexists _; isplitr
            swap; · iexact HS3
            ipureintro; exact View.read_writes_of_cover _ _ _ _ _ (scover0_C_3 V c t _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_C_4 V c t _ _ _ _ _ _)
      unfold owns; iexists _; isplitr
      swap; · iexact H5
      ipureintro; exact View.read_writes_of_cover _ _ _ _ _ (cover0_C_5 V c t _ _ _ _ _ _)
    · rw [Dat.leavesExact_idle (dat0 V c) 4 t (idleAt0_4 t (fun h => h1 ((hcond0_1 t).mp h))) (noFlush0_4 t (fun h => h1 ((hcond0_1 t).mp h))),
      Dat.leavesExact_idle (dat0 V c) 5 t (idleAt0_5 t (fun h => h1 ((hcond0_1 t).mp h))) (noFlush0_5 t (fun h => h1 ((hcond0_1 t).mp h)))]
      rw [outsAt0_B V c t h0 h1]
      unfold tup0_B; dsimp only
      rw [PhiS0_castSucc V c t, PhiS0_pos V c _ _ hz]
      iintro ⟨⟨⟨HS0, HS1, HS2, HS3, Hoth⟩, Hg⟩, Ho, ⟨%d0, H0⟩, ⟨%d1, H1⟩, ⟨%d2, H2⟩, ⟨%d3, H3⟩, ⟨%d4, H4⟩, ⟨%d5, H5⟩⟩
      iapply ((runAt0_B V c t (fun h => h0 ((hcond0_0 t).mp h)) (fun h => h1 ((hcond0_1 t).mp h)) _ _ _ _).2.2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, ⟨%es0, HS0⟩, ⟨%es1, HS1⟩, ⟨%es2, HS2⟩, ⟨%es3, HS3⟩⟩
      isplitl [HS0 HS1 HS2 HS3 Hoth Hg]
      · isplitl [HS0 HS1 HS2 HS3 Hoth]
        · isplitl [HS0]
          · unfold owns; iexists _; isplitr
            swap; · iexact HS0
            ipureintro; exact View.read_writes_of_cover _ _ _ _ _ (scover0_B_0 V c t _ _ _ _ _ _)
          isplitl [HS1]
          · unfold owns; iexists _; isplitr
            swap; · iexact HS1
            ipureintro; exact View.read_writes_of_cover _ _ _ _ _ (scover0_B_1 V c t _ _ _ _ _ _)
          isplitl [HS2]
          · unfold owns; iexists _; isplitr
            swap; · iexact HS2
            ipureintro; exact View.read_writes_of_cover _ _ _ _ _ (scover0_B_2 V c t _ _ _ _ _ _)
          isplitl [HS3]
          · unfold owns; iexists _; isplitr
            swap; · iexact HS3
            ipureintro; exact View.read_writes_of_cover _ _ _ _ _ (scover0_B_3 V c t _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HS2, HS3, Hoth⟩, Hg⟩
  isplitl [HS0 HS1 HS2 HS3 Hoth]
  · isplitl [HS0]; · iexists _; iexact HS0
    isplitl [HS1]; · iexists _; iexact HS1
    isplitl [HS2]; · iexists _; iexact HS2
    isplitl [HS3]; · iexists _; iexact HS3
    iexact Hoth
  iexact Hg

/-- After the last point the invariant gives the scoped rest back, the kept buffers' contents forgotten. -/
theorem hout0 (c : Dev nD) : (dat0 V c).Φ (Fin.last cfg0.N) ⊢ Pipeline.ΦA spec0 c :=
  Phi_out0 V c _ (by rw [Fin.val_last]; have : cfg0.N = 250 := N_0; omega)

end Cert.Kernel.Hand

end
-- ==== Proof.FrameKernel.LossBase.lean ====
/-
  The second kernel region (per row block, the divergence integrand summed over the 125 vocabulary
  steps in one column buffer and stored into the result column at the last step): what its three control
  cases and its proof data are stated over.
-/
import proofs.«168479_j71159018160660_2_alg».proof.Proof.Gen.Kernel.Launch
import proofs.«168479_j71159018160660_2_alg».proof.Proof.Gen.Kernel.Skeleton
import proofs.«168479_j71159018160660_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the buffer contents when the region is entered
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

end

/-! ## The two conditions of the body, over the grid -/

/-- "This is vocabulary step 0" as the body computes it. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 125 = 0 :=
  (by decide +kernel : ∀ t : Fin grid1.N, cond1_0 (grid1.coords t) ↔ t.val % 125 = 0)
/-- "This is vocabulary step 124", the last. -/
abbrev cond1_1 (i : grid1.Coords) : Prop := k1_cond2 i = 1#1
theorem hcond1_1 : ∀ t : Fin cfg1.N, cond1_1 (grid1.coords t) ↔ t.val % 125 = 124 :=
  (by decide +kernel : ∀ t : Fin grid1.N, cond1_1 (grid1.coords t) ↔ t.val % 125 = 124)

/-! ## Where the windows are live -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Away from the last step nothing is stored into the result column, and it is not written back. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

/-! ## The memrefs the body is called with -/
abbrev VO1_6 : View sig .tc .vmem S1024x1 .f32 := (Memref.whole cc1_stg6_0 : Memref sig .tc .vmem S1024x1 .f32).view
abbrev ms1_0 (t : Fin cfg1.N) : Memref sig .tc .vmem S1024x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x4096 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x4096 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x1 .f32 := win1_6.stage (cfg1.slots t 6)
abbrev hs1_6 (t : Fin cfg1.N) : (ms1_6 t).IsWhole := hstage1_6 ((cfg1.slots t 6).cast nbuf1_6)
/-- The column buffer the kernel keeps between steps: the integrand summed so far. -/
abbrev scM1_0 : Memref sig .tc .vmem S1024x1 .f32 := Memref.whole cc1_scratch0
abbrev VS1_0 : View sig .tc .vmem S1024x1 .f32 := scM1_0.view

/-- The core's other scoped buffers (the first region's), each at some contents: they ride through the second region untouched. -/
abbrev others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f))

/-- The core's scoped buffers that are no staging buffer of the second region, the kept column buffer listed first. -/
theorem scopedRest1_first {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec1 c : sProp (MT nD τ sig Ix Val Name U Lvl))
      = iprop((∃ f : Buf Val ((c : Thread nD τ).loc cc1_scratch0), ((c : Thread nD τ).loc cc1_scratch0) ↦{fullShare} f) ∗ (∃ f : Buf Val ((c : Thread nD τ).loc cc0_stg0_0), ((c : Thread nD τ).loc cc0_stg0_0) ↦{fullShare} f) ∗ (∃ f : Buf Val ((c : Thread nD τ).loc cc0_stg0_1), ((c : Thread nD τ).loc cc0_stg0_1) ↦{fullShare} f) ∗ (∃ f : Buf Val ((c : Thread nD τ).loc cc0_stg1_0), ((c : Thread nD τ).loc cc0_stg1_0) ↦{fullShare} f) ∗ (∃ f : Buf Val ((c : Thread nD τ).loc cc0_stg1_1), ((c : Thread nD τ).loc cc0_stg1_1) ↦{fullShare} f) ∗ (∃ f : Buf Val ((c : Thread nD τ).loc cc0_stg2_0), ((c : Thread nD τ).loc cc0_stg2_0) ↦{fullShare} f) ∗ (∃ f : Buf Val ((c : Thread nD τ).loc cc0_stg2_1), ((c : Thread nD τ).loc cc0_stg2_1) ↦{fullShare} f) ∗ (∃ f : Buf Val ((c : Thread nD τ).loc cc0_stg3_0), ((c : Thread nD τ).loc cc0_stg3_0) ↦{fullShare} f) ∗ (∃ f : Buf Val ((c : Thread nD τ).loc cc0_stg3_1), ((c : Thread nD τ).loc cc0_stg3_1) ↦{fullShare} f) ∗ (∃ f : Buf Val ((c : Thread nD τ).loc cc0_stg4_0), ((c : Thread nD τ).loc cc0_stg4_0) ↦{fullShare} f) ∗ (∃ f : Buf Val ((c : Thread nD τ).loc cc0_stg4_1), ((c : Thread nD τ).loc cc0_stg4_1) ↦{fullShare} f) ∗ (∃ f : Buf Val ((c : Thread nD τ).loc cc0_stg5_0), ((c : Thread nD τ).loc cc0_stg5_0) ↦{fullShare} f) ∗ (∃ f : Buf Val ((c : Thread nD τ).loc cc0_stg5_1), ((c : Thread nD τ).loc cc0_stg5_1) ↦{fullShare} f) ∗ (∃ f : Buf Val ((c : Thread nD τ).loc cc0_scratch0), ((c : Thread nD τ).loc cc0_scratch0) ↦{fullShare} f) ∗ (∃ f : Buf Val ((c : Thread nD τ).loc cc0_scratch1), ((c : Thread nD τ).loc cc0_scratch1) ↦{fullShare} f) ∗ (∃ f : Buf Val ((c : Thread nD τ).loc cc0_scratch2), ((c : Thread nD τ).loc cc0_scratch2) ↦{fullShare} f) ∗ (∃ f : Buf Val ((c : Thread nD τ).loc cc0_scratch3), ((c : Thread nD τ).loc cc0_scratch3) ↦{fullShare} f)) :=
  Pipeline.scopedRest_eq_of_list spec1 c [cc1_scratch0, cc0_stg0_0, cc0_stg0_1, cc0_stg1_0, cc0_stg1_1, cc0_stg2_0, cc0_stg2_1, cc0_stg3_0, cc0_stg3_1, cc0_stg4_0, cc0_stg4_1, cc0_stg5_0, cc0_stg5_1, cc0_scratch0, cc0_scratch1, cc0_scratch2, cc0_scratch3] (by decide) (by decide)

/-- What the region's invariant is before its first point: the kept column buffer at anything, the other scoped buffers, the generator register. -/
theorem PhiA1_eq (c : Dev nD) :
    (Pipeline.ΦA spec1 c : sProp 𝕄)
      = iprop(iprop((∃ d, owns (c : Thread nD τ) scM1_0 fullShare d) ∗ others1 c) ∗ (∃ r, prngReg c r)) := by
  unfold Pipeline.ΦA; rw [scopedRest1_first]; simp only [scM1_0, owns_whole]; try rfl

end Cert.Kernel.Hand

end
-- ==== Proof.FrameKernel.LossRunA.lean ====
/-
  The second region's body at vocabulary step 0 of a row block: the kept column buffer is reset to zero whatever it held, then the first tile's integrand is added; the result column is not touched.
-/
import proofs.«168479_j71159018160660_2_alg».proof.Proof.FrameKernel.LossBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S1024x2048 .bf16) (harg2 : arg2.IsWhole) (arg3 : Memref sig .tc .vmem S256x2048 .bf16) (harg3 : arg3.IsWhole) (arg4 : Memref sig .tc .vmem S1024x4096 .bf16) (harg4 : arg4.IsWhole) (arg5 : Memref sig .tc .vmem S256x4096 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond1_0 i) (hc1 : ¬cond1_1 i)
    (x0 : Vec F S1024x2048 .bf16) (x1 : Vec F S256x2048 .bf16) (x2 : Vec F S1024x4096 .bf16) (x3 : Vec F S256x4096 .bf16) (x4 x5 : Vec F S1024x1 .f32) :
    Σ' (L6 : List (View.Piece (Elt F) S1024x1 .f32)), { LS0 : List (View.Piece (Elt F) S1024x1 .f32) //
      ∀ (xi6 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__loss_kernel i arg2 harg2 arg3 harg3 arg4 harg4 arg5 harg5 arg6 harg6 arg7 harg7 arg8 harg8 arg9 harg9) K } := by
  refine ⟨[], ?_, fun xi6 E K => ?run⟩
  case run =>
    simp only [cc1__loss_kernel_eq_skeleton]; unfold cc1__loss_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Hand

end
-- ==== Proof.FrameKernel.LossRunB.lean ====
/-
  The second region's body at a middle vocabulary step: the kept column buffer, read at what the step before left, gets this tile's integrand added; the result column is not touched.
-/
import proofs.«168479_j71159018160660_2_alg».proof.Proof.FrameKernel.LossBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S1024x2048 .bf16) (harg2 : arg2.IsWhole) (arg3 : Memref sig .tc .vmem S256x2048 .bf16) (harg3 : arg3.IsWhole) (arg4 : Memref sig .tc .vmem S1024x4096 .bf16) (harg4 : arg4.IsWhole) (arg5 : Memref sig .tc .vmem S256x4096 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : ¬cond1_1 i)
    (x0 : Vec F S1024x2048 .bf16) (x1 : Vec F S256x2048 .bf16) (x2 : Vec F S1024x4096 .bf16) (x3 : Vec F S256x4096 .bf16) (x4 x5 : Vec F S1024x1 .f32) (xs0 : Vec F S1024x1 .f32) :
    Σ' (L6 : List (View.Piece (Elt F) S1024x1 .f32)), { LS0 : List (View.Piece (Elt F) S1024x1 .f32) //
      ∀ (xi6 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__loss_kernel i arg2 harg2 arg3 harg3 arg4 harg4 arg5 harg5 arg6 harg6 arg7 harg7 arg8 harg8 arg9 harg9) K } := by
  refine ⟨[], ?_, fun xi6 E K => ?run⟩
  case run =>
    simp only [cc1__loss_kernel_eq_skeleton]; unfold cc1__loss_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Hand

end
-- ==== Proof.FrameKernel.LossRunC.lean ====
/-
  The second region's body at the last vocabulary step: the kept column buffer gets the last tile's integrand added and is then copied whole into the result column.
-/
import proofs.«168479_j71159018160660_2_alg».proof.Proof.FrameKernel.LossBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S1024x2048 .bf16) (harg2 : arg2.IsWhole) (arg3 : Memref sig .tc .vmem S256x2048 .bf16) (harg3 : arg3.IsWhole) (arg4 : Memref sig .tc .vmem S1024x4096 .bf16) (harg4 : arg4.IsWhole) (arg5 : Memref sig .tc .vmem S256x4096 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i)
    (x0 : Vec F S1024x2048 .bf16) (x1 : Vec F S256x2048 .bf16) (x2 : Vec F S1024x4096 .bf16) (x3 : Vec F S256x4096 .bf16) (x4 x5 : Vec F S1024x1 .f32) (xs0 : Vec F S1024x1 .f32) :
    Σ' (L6 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc1__loss_kernel i arg2 harg2 arg3 harg3 arg4 harg4 arg5 harg5 arg6 harg6 arg7 harg7 arg8 harg8 arg9 harg9) K } := by
  refine ⟨?_, ?_, fun  E K => ?run⟩
  case run =>
    simp only [cc1__loss_kernel_eq_skeleton]; unfold cc1__loss_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.Kernel.Hand

end
-- ==== Proof.FrameKernel.LossFrame.lean ====
/-
  The second region's proof data.  What the kept column buffer holds after each grid point is defined by
  recursion on the point — reset-and-add at step 0 of a row block, add at the later steps — and the result
  column's staging buffer holds, at the last step of a row block, a copy of it.  From that: the region's
  invariant point by point, and the body obligation by the three cases' runs.
-/
import proofs.«168479_j71159018160660_2_alg».proof.Proof.FrameKernel.LossRunA
import proofs.«168479_j71159018160660_2_alg».proof.Proof.FrameKernel.LossRunB
import proofs.«168479_j71159018160660_2_alg».proof.Proof.FrameKernel.LossRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three cases at a grid point -/

/-- The body's run at a point of step 0, on the point's memrefs and input blocks. -/
def runAt1_A (c : Dev nD) (t : Fin cfg1.N) (h0 : cond1_0 (grid1.coords t)) (h1 : ¬cond1_1 (grid1.coords t)) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) h0 h1 (iblk1 V c 0 t) (iblk1 V c 1 t) (iblk1 V c 2 t) (iblk1 V c 3 t) (iblk1 V c 4 t) (iblk1 V c 5 t)
/-- At a middle step, the kept buffer at `xs`. -/
def runAt1_B (c : Dev nD) (t : Fin cfg1.N) (h0 : ¬cond1_0 (grid1.coords t)) (h1 : ¬cond1_1 (grid1.coords t)) (xs : Vec F S1024x1 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) h0 h1 (iblk1 V c 0 t) (iblk1 V c 1 t) (iblk1 V c 2 t) (iblk1 V c 3 t) (iblk1 V c 4 t) (iblk1 V c 5 t) xs
/-- At the last step, the kept buffer at `xs`. -/
def runAt1_C (c : Dev nD) (t : Fin cfg1.N) (h0 : ¬cond1_0 (grid1.coords t)) (h1 : cond1_1 (grid1.coords t)) (xs : Vec F S1024x1 .f32) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) h0 h1 (iblk1 V c 0 t) (iblk1 V c 1 t) (iblk1 V c 2 t) (iblk1 V c 3 t) (iblk1 V c 4 t) (iblk1 V c 5 t) xs

theorem scover1_A (c : Dev nD) (t : Fin cfg1.N) (h0) (h1) (y : S1024x1.Idx) :
    ∃ pc ∈ (runAt1_A V c t h0 h1).2.1, y ∈ pc.1.set :=
  View.cover_of_tiledL (runAt1_A V c t h0 h1).2.1 S1024x1.size (by unfold runAt1_A; sl_kernel_rfl) y
theorem scover1_B (c : Dev nD) (t : Fin cfg1.N) (h0) (h1) (xs : Vec F S1024x1 .f32) (y : S1024x1.Idx) :
    ∃ pc ∈ (runAt1_B V c t h0 h1 xs).2.1, y ∈ pc.1.set :=
  View.cover_of_tiledL (runAt1_B V c t h0 h1 xs).2.1 S1024x1.size (by unfold runAt1_B; sl_kernel_rfl) y
theorem scover1_C (c : Dev nD) (t : Fin cfg1.N) (h0) (h1) (xs : Vec F S1024x1 .f32) (y : S1024x1.Idx) :
    ∃ pc ∈ (runAt1_C V c t h0 h1 xs).2.1, y ∈ pc.1.set :=
  View.cover_of_tiledL (runAt1_C V c t h0 h1 xs).2.1 S1024x1.size (by unfold runAt1_C; sl_kernel_rfl) y
theorem cover1_C (c : Dev nD) (t : Fin cfg1.N) (h0) (h1) (xs : Vec F S1024x1 .f32) (y : S1024x1.Idx) :
    ∃ pc ∈ (runAt1_C V c t h0 h1 xs).1, y ∈ pc.1.set :=
  View.cover_of_tiledL (runAt1_C V c t h0 h1 xs).1 S1024x1.size (by unfold runAt1_C; sl_kernel_rfl) y

/-- What a case leaves: (the result column's staging buffer, the kept column buffer).  Where the case stores
    nothing into the result column the first component is a placeholder nothing consults. -/
def tup1_A (c : Dev nD) (t : Fin cfg1.N) (h0 : cond1_0 (grid1.coords t)) (h1 : ¬cond1_1 (grid1.coords t)) : Vec F S1024x1 .f32 × Vec F S1024x1 .f32 :=
  (VO1_6.read (Elt F) VO1_6.junk, VS1_0.read (Elt F) (VS1_0.writes (Elt F) VS1_0.junk (runAt1_A V c t h0 h1).2.1))
def tup1_B (c : Dev nD) (t : Fin cfg1.N) (h0 : ¬cond1_0 (grid1.coords t)) (h1 : ¬cond1_1 (grid1.coords t)) (xs : Vec F S1024x1 .f32) : Vec F S1024x1 .f32 × Vec F S1024x1 .f32 :=
  (VO1_6.read (Elt F) VO1_6.junk, VS1_0.read (Elt F) (VS1_0.writes (Elt F) VS1_0.junk (runAt1_B V c t h0 h1 xs).2.1))
def tup1_C (c : Dev nD) (t : Fin cfg1.N) (h0 : ¬cond1_0 (grid1.coords t)) (h1 : cond1_1 (grid1.coords t)) (xs : Vec F S1024x1 .f32) : Vec F S1024x1 .f32 × Vec F S1024x1 .f32 :=
  (VO1_6.read (Elt F) (VO1_6.writes (Elt F) VO1_6.junk (runAt1_C V c t h0 h1 xs).1), VS1_0.read (Elt F) (VS1_0.writes (Elt F) VS1_0.junk (runAt1_C V c t h0 h1 xs).2.1))

/-! ## What the buffers hold after each point -/

/-- After the body at position `n`: the case the position is in, the kept buffer read at what position `n - 1` left. -/
def outsAt1 (c : Dev nD) : (n : ℕ) → n < cfg1.N → Vec F S1024x1 .f32 × Vec F S1024x1 .f32
  | 0, hn => tup1_A V c ⟨0, hn⟩ ((hcond1_0 ⟨0, hn⟩).mpr (Nat.zero_mod _)) (fun h => (fun h => by (try dsimp only at h); omega) ((hcond1_1 ⟨0, hn⟩).mp h))
  | n + 1, hn =>
    if h0 : (n + 1) % 125 = 0 then
      if h1 : (n + 1) % 125 = 124 then False.elim (by omega)
      else tup1_A V c ⟨n + 1, hn⟩ ((hcond1_0 ⟨n + 1, hn⟩).mpr h0) (fun h => h1 ((hcond1_1 ⟨n + 1, hn⟩).mp h))
    else
      if h1 : (n + 1) % 125 = 124 then
        tup1_C V c ⟨n + 1, hn⟩ (fun h => h0 ((hcond1_0 ⟨n + 1, hn⟩).mp h)) ((hcond1_1 ⟨n + 1, hn⟩).mpr h1) (outsAt1 c n (Nat.lt_of_succ_lt hn)).2
      else
        tup1_B V c ⟨n + 1, hn⟩ (fun h => h0 ((hcond1_0 ⟨n + 1, hn⟩).mp h)) (fun h => h1 ((hcond1_1 ⟨n + 1, hn⟩).mp h)) (outsAt1 c n (Nat.lt_of_succ_lt hn)).2

theorem outsAt1_A (c : Dev nD) (t : Fin cfg1.N) (h0 : t.val % 125 = 0) (h1 : ¬t.val % 125 = 124) :
    outsAt1 V c t.val t.isLt = tup1_A V c t ((hcond1_0 t).mpr h0) (fun h => h1 ((hcond1_1 t).mp h)) := by
  obtain ⟨n, hn⟩ := t
  cases n with
  | zero => exact rfl
  | succ n => exact (dif_pos h0).trans ((dif_neg h1).trans rfl)
theorem outsAt1_B (c : Dev nD) (t : Fin cfg1.N) (h0 : ¬t.val % 125 = 0) (h1 : ¬t.val % 125 = 124) :
    outsAt1 V c t.val t.isLt = tup1_B V c t (fun h => h0 ((hcond1_0 t).mp h)) (fun h => h1 ((hcond1_1 t).mp h)) (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)
theorem outsAt1_C (c : Dev nD) (t : Fin cfg1.N) (h0 : ¬t.val % 125 = 0) (h1 : t.val % 125 = 124) :
    outsAt1 V c t.val t.isLt = tup1_C V c t (fun h => h0 ((hcond1_0 t).mp h)) ((hcond1_1 t).mpr h1) (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-! ## The invariant -/

/-- Before position `n`: at the region's start the scoped rest at anything; afterwards the kept column buffer at what
    position `n - 1` left, the first region's buffers at anything, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2) ∗ others1 c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ others1 c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

theorem leaves1_in (c : Dev nD) (t : Fin cfg1.N) :
    (dat1 V c).leavesExact 0 t = owns (c : Thread nD τ) (ms1_0 t) fullShare (iblk1 V c 0 t)
    ∧ (dat1 V c).leavesExact 1 t = owns (c : Thread nD τ) (ms1_1 t) fullShare (iblk1 V c 1 t)
    ∧ (dat1 V c).leavesExact 2 t = owns (c : Thread nD τ) (ms1_2 t) fullShare (iblk1 V c 2 t)
    ∧ (dat1 V c).leavesExact 3 t = owns (c : Thread nD τ) (ms1_3 t) fullShare (iblk1 V c 3 t)
    ∧ (dat1 V c).leavesExact 4 t = owns (c : Thread nD τ) (ms1_4 t) fullShare (iblk1 V c 4 t)
    ∧ (dat1 V c).leavesExact 5 t = owns (c : Thread nD τ) (ms1_5 t) fullShare (iblk1 V c 5 t) := by
  refine ⟨?_, ?_, ?_, ?_, ?_, ?_⟩
  · unfold Dat.leavesExact; rw [liveAt1_0 t, after1_0]
  · unfold Dat.leavesExact; rw [liveAt1_1 t, after1_1]
  · unfold Dat.leavesExact; rw [liveAt1_2 t, after1_2]
  · unfold Dat.leavesExact; rw [liveAt1_3 t, after1_3]
  · unfold Dat.leavesExact; rw [liveAt1_4 t, after1_4]
  · unfold Dat.leavesExact; rw [liveAt1_5 t, after1_5]

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  obtain ⟨hl0, hl1, hl2, hl3, hl4, hl5⟩ := leaves1_in V c t
  rw [hl0, hl1, hl2, hl3, hl4, hl5]
  have hN : t.val < 250 := lt_of_lt_of_eq t.isLt (show cfg1.N = 250 from N_1)
  by_cases h0 : t.val % 125 = 0
  · have h1 : ¬t.val % 125 = 124 := by omega
    rw [Dat.leavesExact_idle (dat1 V c) 6 t (idleAt1_6 t (fun h => h1 ((hcond1_1 t).mp h))) (noFlush1_6 t (fun h => h1 ((hcond1_1 t).mp h)))]
    rw [outsAt1_A V c t h0 h1]
    unfold tup1_A; dsimp only
    by_cases hz : t.val = 0
    · rw [PhiS1_castSucc V c t, PhiS1_zero V c _ _ hz, PhiA1_eq]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((runAt1_A V c t ((hcond1_0 t).mpr h0) (fun h => h1 ((hcond1_1 t).mp h))).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_A V c t _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((runAt1_A V c t ((hcond1_0 t).mpr h0) (fun h => h1 ((hcond1_1 t).mp h))).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      iintro ⟨H0, H1, H2, H3, H4, H5, H6, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_A V c t _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun h => h0 (by rw [h])
    by_cases h1 : t.val % 125 = 124
    · rw [show (dat1 V c).leavesExact 6 t = owns (c : Thread nD τ) (ms1_6 t) fullShare ((dat1 V c).after 6 t) from by
        unfold Dat.leavesExact; rw [liveAt1_6 t ((hcond1_1 t).mpr h1)], after1_6]
      rw [outsAt1_C V c t h0 h1]
      unfold tup1_C; dsimp only
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((runAt1_C V c t (fun h => h0 ((hcond1_0 t).mp h)) ((hcond1_1 t).mpr h1) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_C V c t _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_C V c t _ _ _)
    · rw [Dat.leavesExact_idle (dat1 V c) 6 t (idleAt1_6 t (fun h => h1 ((hcond1_1 t).mp h))) (noFlush1_6 t (fun h => h1 ((hcond1_1 t).mp h)))]
      rw [outsAt1_B V c t h0 h1]
      unfold tup1_B; dsimp only
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((runAt1_B V c t (fun h => h0 ((hcond1_0 t).mp h)) (fun h => h1 ((hcond1_1 t).mp h)) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_B V c t _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hoth⟩, Hg⟩
  isplitl [HS0 Hoth]
  · isplitl [HS0]
    · iexists _; iexact HS0
    iexact Hoth
  iexact Hg

/-- After the last point the invariant gives the scoped rest back, the kept buffer's contents forgotten. -/
theorem hout1 (c : Dev nD) : (dat1 V c).Φ (Fin.last cfg1.N) ⊢ Pipeline.ΦA spec1 c :=
  Phi_out1 V c _ (by rw [Fin.val_last]; have : cfg1.N = 250 := N_1; omega)

end Cert.Kernel.Hand

end
-- ==== Proof.FrameKernel.Run.lean ====
/-
  The whole program as a list of segments: the four casts of the inputs, the first region, the second region,
  then the masked mean over the rows in three stretches of host operations.  The buffer contents at every segment
  boundary are a fold from the launch memory — a host stretch applies its operations, a region leaves its arrays at
  what its write-backs leave and every other buffer as it found it — and the run ends with every unscoped buffer
  at the last boundary's contents.  The argument arrays are written by no segment.
-/
import proofs.«168479_j71159018160660_2_alg».proof.Proof.FrameKernel.StatsFrame
import proofs.«168479_j71159018160660_2_alg».proof.Proof.FrameKernel.LossFrame
import proofs.«168479_j71159018160660_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- At launch. -/
abbrev mem0 : Dev nD → Valuation τ sig (Elt F) := fun c b => m (c, b)
/-- After the four casts (the first region's entry). -/
abbrev mem1 : Dev nD → Valuation τ sig (Elt F) := fun c => StableHlo.after hostOps0 (mem0 m c)
abbrev ent0 : (c : Dev nD) → (b : Ref sig .tc) → Buf (Elt F) ((c : Thread nD τ).loc b) := fun c b => mem1 m c b
/-- After the first region: its arrays at what the pipeline leaves, every other buffer as entered. -/
def mem2 (c : Dev nD) : Valuation τ sig (Elt F) :=
  Pipeline.withArrays spec0 c (mem1 m c) fun w => (dat0 (ent0 m) c).arrAt w cfg0.N
theorem mem2_arr (c : Dev nD) (w : Fin cfg0.W) :
    mem2 m c (Proc.devRef .tc (Pipeline.arrRef spec0 w)) = (dat0 (ent0 m) c).arrAt w cfg0.N := by
  unfold mem2; exact Pipeline.withArrays_arr spec0 launch0.win.arr_inj c _ _ w
theorem mem2_of_ne (c : Dev nD) (b : Ref sig .tc) (hb : ∀ w, Pipeline.arrRef spec0 w ≠ b) :
    mem2 m c (Proc.devRef .tc b) = mem1 m c (Proc.devRef .tc b) := by
  unfold mem2; exact Pipeline.withArrays_of_ne spec0 c _ _ b hb
abbrev ent1 : (c : Dev nD) → (b : Ref sig .tc) → Buf (Elt F) ((c : Thread nD τ).loc b) := fun c b => mem2 m c b
theorem hF0 (c : Dev nD) (w : Fin cfg0.W) : (dat0 (ent0 m) c).arrAt w cfg0.N = ent1 m c (Pipeline.arrRef spec0 w) :=
  (mem2_arr m c w).symm
theorem hrest0 (c : Dev nD) : ∀ b, b ∉ Finset.univ.image (Pipeline.arrRef spec0) → ent1 m c b = ent0 m c b :=
  fun b hb => mem2_of_ne m c b fun w e => hb (Finset.mem_image.mpr ⟨w, Finset.mem_univ _, e⟩)
/-- After the second region. -/
def mem3 (c : Dev nD) : Valuation τ sig (Elt F) :=
  Pipeline.withArrays spec1 c (mem2 m c) fun w => (dat1 (ent1 m) c).arrAt w cfg1.N
theorem mem3_arr (c : Dev nD) (w : Fin cfg1.W) :
    mem3 m c (Proc.devRef .tc (Pipeline.arrRef spec1 w)) = (dat1 (ent1 m) c).arrAt w cfg1.N := by
  unfold mem3; exact Pipeline.withArrays_arr spec1 launch1.win.arr_inj c _ _ w
theorem mem3_of_ne (c : Dev nD) (b : Ref sig .tc) (hb : ∀ w, Pipeline.arrRef spec1 w ≠ b) :
    mem3 m c (Proc.devRef .tc b) = mem2 m c (Proc.devRef .tc b) := by
  unfold mem3; exact Pipeline.withArrays_of_ne spec1 c _ _ b hb
abbrev ext1 : (c : Dev nD) → (b : Ref sig .tc) → Buf (Elt F) ((c : Thread nD τ).loc b) := fun c b => mem3 m c b
theorem hF1 (c : Dev nD) (w : Fin cfg1.W) : (dat1 (ent1 m) c).arrAt w cfg1.N = ext1 m c (Pipeline.arrRef spec1 w) :=
  (mem3_arr m c w).symm
theorem hrest1 (c : Dev nD) : ∀ b, b ∉ Finset.univ.image (Pipeline.arrRef spec1) → ext1 m c b = ent1 m c b :=
  fun b hb => mem3_of_ne m c b fun w e => hb (Finset.mem_image.mpr ⟨w, Finset.mem_univ _, e⟩)
/-- After each of the three closing stretches of host operations. -/
abbrev mem4 : Dev nD → Valuation τ sig (Elt F) := fun c => StableHlo.after hostOps2 (mem3 m c)
abbrev mem5 : Dev nD → Valuation τ sig (Elt F) := fun c => StableHlo.after hostOps2_1 (mem4 m c)
abbrev mem6 : Dev nD → Valuation τ sig (Elt F) := fun c => StableHlo.after hostOps2_2 (mem5 m c)

/-! ### No segment writes an argument array -/
theorem mem6_main_arg0 (c : Dev nD) : mem6 m c (Proc.devRef .tc main_arg0) = m ((c : Thread nD τ).loc main_arg0) :=
  calc mem6 m c (Proc.devRef .tc main_arg0)
    _ = mem5 m c (Proc.devRef .tc main_arg0) := StableHlo.after_of_writes_sub hostOps2_2 _ hostOps2_2_writes (by decide : main_arg0 ∉ hostOps2_2_W)
    _ = mem4 m c (Proc.devRef .tc main_arg0) := StableHlo.after_of_writes_sub hostOps2_1 _ hostOps2_1_writes (by decide : main_arg0 ∉ hostOps2_1_W)
    _ = mem3 m c (Proc.devRef .tc main_arg0) := StableHlo.after_of_writes_sub hostOps2 _ hostOps2_writes (by decide : main_arg0 ∉ hostOps2_W)
    _ = mem2 m c (Proc.devRef .tc main_arg0) := mem3_of_ne m c main_arg0 (by decide)
    _ = mem1 m c (Proc.devRef .tc main_arg0) := mem2_of_ne m c main_arg0 (by decide)
    _ = mem0 m c (Proc.devRef .tc main_arg0) := StableHlo.after_of_writes_sub hostOps0 _ hostOps0_writes (by decide : main_arg0 ∉ hostOps0_W)
    _ = m ((c : Thread nD τ).loc main_arg0) := rfl

theorem mem6_main_arg1 (c : Dev nD) : mem6 m c (Proc.devRef .tc main_arg1) = m ((c : Thread nD τ).loc main_arg1) :=
  calc mem6 m c (Proc.devRef .tc main_arg1)
    _ = mem5 m c (Proc.devRef .tc main_arg1) := StableHlo.after_of_writes_sub hostOps2_2 _ hostOps2_2_writes (by decide : main_arg1 ∉ hostOps2_2_W)
    _ = mem4 m c (Proc.devRef .tc main_arg1) := StableHlo.after_of_writes_sub hostOps2_1 _ hostOps2_1_writes (by decide : main_arg1 ∉ hostOps2_1_W)
    _ = mem3 m c (Proc.devRef .tc main_arg1) := StableHlo.after_of_writes_sub hostOps2 _ hostOps2_writes (by decide : main_arg1 ∉ hostOps2_W)
    _ = mem2 m c (Proc.devRef .tc main_arg1) := mem3_of_ne m c main_arg1 (by decide)
    _ = mem1 m c (Proc.devRef .tc main_arg1) := mem2_of_ne m c main_arg1 (by decide)
    _ = mem0 m c (Proc.devRef .tc main_arg1) := StableHlo.after_of_writes_sub hostOps0 _ hostOps0_writes (by decide : main_arg1 ∉ hostOps0_W)
    _ = m ((c : Thread nD τ).loc main_arg1) := rfl

theorem mem6_main_arg2 (c : Dev nD) : mem6 m c (Proc.devRef .tc main_arg2) = m ((c : Thread nD τ).loc main_arg2) :=
  calc mem6 m c (Proc.devRef .tc main_arg2)
    _ = mem5 m c (Proc.devRef .tc main_arg2) := StableHlo.after_of_writes_sub hostOps2_2 _ hostOps2_2_writes (by decide : main_arg2 ∉ hostOps2_2_W)
    _ = mem4 m c (Proc.devRef .tc main_arg2) := StableHlo.after_of_writes_sub hostOps2_1 _ hostOps2_1_writes (by decide : main_arg2 ∉ hostOps2_1_W)
    _ = mem3 m c (Proc.devRef .tc main_arg2) := StableHlo.after_of_writes_sub hostOps2 _ hostOps2_writes (by decide : main_arg2 ∉ hostOps2_W)
    _ = mem2 m c (Proc.devRef .tc main_arg2) := mem3_of_ne m c main_arg2 (by decide)
    _ = mem1 m c (Proc.devRef .tc main_arg2) := mem2_of_ne m c main_arg2 (by decide)
    _ = mem0 m c (Proc.devRef .tc main_arg2) := StableHlo.after_of_writes_sub hostOps0 _ hostOps0_writes (by decide : main_arg2 ∉ hostOps0_W)
    _ = m ((c : Thread nD τ).loc main_arg2) := rfl

theorem mem6_main_arg3 (c : Dev nD) : mem6 m c (Proc.devRef .tc main_arg3) = m ((c : Thread nD τ).loc main_arg3) :=
  calc mem6 m c (Proc.devRef .tc main_arg3)
    _ = mem5 m c (Proc.devRef .tc main_arg3) := StableHlo.after_of_writes_sub hostOps2_2 _ hostOps2_2_writes (by decide : main_arg3 ∉ hostOps2_2_W)
    _ = mem4 m c (Proc.devRef .tc main_arg3) := StableHlo.after_of_writes_sub hostOps2_1 _ hostOps2_1_writes (by decide : main_arg3 ∉ hostOps2_1_W)
    _ = mem3 m c (Proc.devRef .tc main_arg3) := StableHlo.after_of_writes_sub hostOps2 _ hostOps2_writes (by decide : main_arg3 ∉ hostOps2_W)
    _ = mem2 m c (Proc.devRef .tc main_arg3) := mem3_of_ne m c main_arg3 (by decide)
    _ = mem1 m c (Proc.devRef .tc main_arg3) := mem2_of_ne m c main_arg3 (by decide)
    _ = mem0 m c (Proc.devRef .tc main_arg3) := StableHlo.after_of_writes_sub hostOps0 _ hostOps0_writes (by decide : main_arg3 ∉ hostOps0_W)
    _ = m ((c : Thread nD τ).loc main_arg3) := rfl

theorem mem6_main_arg4 (c : Dev nD) : mem6 m c (Proc.devRef .tc main_arg4) = m ((c : Thread nD τ).loc main_arg4) :=
  calc mem6 m c (Proc.devRef .tc main_arg4)
    _ = mem5 m c (Proc.devRef .tc main_arg4) := StableHlo.after_of_writes_sub hostOps2_2 _ hostOps2_2_writes (by decide : main_arg4 ∉ hostOps2_2_W)
    _ = mem4 m c (Proc.devRef .tc main_arg4) := StableHlo.after_of_writes_sub hostOps2_1 _ hostOps2_1_writes (by decide : main_arg4 ∉ hostOps2_1_W)
    _ = mem3 m c (Proc.devRef .tc main_arg4) := StableHlo.after_of_writes_sub hostOps2 _ hostOps2_writes (by decide : main_arg4 ∉ hostOps2_W)
    _ = mem2 m c (Proc.devRef .tc main_arg4) := mem3_of_ne m c main_arg4 (by decide)
    _ = mem1 m c (Proc.devRef .tc main_arg4) := mem2_of_ne m c main_arg4 (by decide)
    _ = mem0 m c (Proc.devRef .tc main_arg4) := StableHlo.after_of_writes_sub hostOps0 _ hostOps0_writes (by decide : main_arg4 ∉ hostOps0_W)
    _ = m ((c : Thread nD τ).loc main_arg4) := rfl

/-! ## The proof data family and the thread states -/

abbrev padm : (p : Fin 2) → (pcfgs (F := F) p).Adm := fun p => (cfgs p).toPCfg_adm
def pdat : (p : Fin 2) → (c : Dev nD) → Dat τ (Elt F) Unit ℕ (UR sig nD τ) ℕ (Pipeline.pin (pcfgs (F := F)) padm p) c
  | ⟨0, _⟩ => fun c => dat0 (ent0 m) c
  | ⟨1, _⟩ => fun c => dat1 (ent1 m) c
abbrev vrs : Variants := Variants.none
abbrev Ls : GSem nD τ sig → Finset Unit := fun _ => ∅
abbrev lvs : GSem nD τ sig → Unit → ℕ := fun _ _ => 0
/-- What rides beside the buffers through every segment: the generator register at some state, nothing owed. -/
abbrev Rr (c : Dev nD) : sProp 𝕄 := iprop((∃ r, prngReg c r) ∗ ∃ W, owes (c : Thread nD τ) (0 : CellTallies nD τ sig Unit) W)
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ vrs Ls lvs :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tn (c : Dev nD) : sProp 𝕄 := iprop(StableHlo.held (c : Thread nD τ) (Pipeline.ucRefs τ sig) (mem6 m c) ∗ ∃ r, prngReg c r)

/-! ## The regions as segments -/

set_option backward.isDefEq.respectTransparency.types false in
def rseg0 : Pipeline.RegionSeg (pcfgs (F := F)) padm (pdat m) () defs₀ vrs Ls lvs 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ Ls lvs 0 fun _ _ => rfl
  pre c := iprop(StableHlo.held (c : Thread nD τ) (Pipeline.ucRefs τ sig) (mem1 m c) ∗ Rr c)
  post c := iprop(StableHlo.held (c : Thread nD τ) (Pipeline.ucRefs τ sig) (mem2 m c) ∗ Rr c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) padm (pdat m) launch0.win launch0.arr_whole c
      ((pdat m 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdat m 0 c).Φ (Fin.last _) ⊢ Pipeline.ΦA spec0 c from hout0 (ent0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdat m) ((pdat m 0 c).share_full fun _ => rfl)
      (ent0 m c) (ent1 m c) ((pdat m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def rseg1 : Pipeline.RegionSeg (pcfgs (F := F)) padm (pdat m) () defs₀ vrs Ls lvs 1 where
  win := launch1.win.to₀
  block_pos := launch1.block_pos
  stage_whole := launch1.stage_whole
  K := PEmpty
  osem k := k.elim
  ho := Pipeline.OwnSemFacts.none _
  hbody c := (body_obligation1 (ent1 m) c).loose
  hwaits := Pipeline.hwaits_of_owed_zero _ _ _ _ Ls lvs 1 fun _ _ => rfl
  pre c := iprop(StableHlo.held (c : Thread nD τ) (Pipeline.ucRefs τ sig) (mem2 m c) ∗ Rr c)
  post c := iprop(StableHlo.held (c : Thread nD τ) (Pipeline.ucRefs τ sig) (mem3 m c) ∗ Rr c)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none]
    have hsplit := Pipeline.arrays_of_unscopedBufs (p := 1) (pcfgs (F := F)) padm (pdat m) launch1.win launch1.arr_whole c
      ((pdat m 1 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdat m 1 c).Φ (Fin.last _) ⊢ Pipeline.ΦA spec1 c from hout1 (ent1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdat m) ((pdat m 1 c).share_full fun _ => rfl)
      (ent1 m c) (ext1 m c) ((pdat m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev allSegs : List (Pipeline.Seg (pcfgs (F := F)) padm (pdat m) () defs₀ vrs Ls lvs) :=
  [ .host (hostSeg hostOps0 hostOps0_sub hostOps0_fresh (mem0 m)),
    .region (rseg0 m),
    .region (rseg1 m),
    .host (hostSeg hostOps2 hostOps2_sub hostOps2_fresh (mem3 m)),
    .host (hostSeg hostOps2_1 hostOps2_1_sub hostOps2_1_fresh (mem4 m)),
    .host (hostSeg hostOps2_2 hostOps2_2_sub hostOps2_2_fresh (mem5 m)) ]

set_option backward.isDefEq.respectTransparency.types false in
/-- THE RUN: from any memory with zero counters every weakly fair execution of @main terminates, nothing faulting, and
    every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = mem6 m c b) :=
  Pipeline.θ_run_regions_kit (pcfgs (F := F)) padm (pdat m) () cellOf_inj emb₁ defs₀ vrs Ls lvs m ρ main (allSegs m)
    (fun c Q => by
      rewrite [main_chain c, Pipeline.Seg.run_eq_chain,
        show (allSegs m).map Pipeline.Seg.prog = [
          StableHlo.seq hostOps0,
          Prog.lift (.customCall (Pipeline.entry 0) ()),
          Prog.lift (.customCall (Pipeline.entry 1) ()),
          StableHlo.seq hostOps2,
          StableHlo.seq hostOps2_1,
          StableHlo.seq hostOps2_2 ] from rfl]
      exact .rfl)
    (by simp only [allSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (mem0 m c) ∗ Rr c)) (Tₙ := Tn m)
    (hch := ⟨fun _ => .rfl, fun _ => .rfl, fun _ => .rfl, fun _ => .rfl, fun _ => .rfl, fun _ => .rfl, fun c => by
      show iprop(StableHlo.held (c : Thread nD τ) (Pipeline.ucRefs τ sig) (mem6 m c) ∗ Rr c)
        ⊢ iprop(Tn m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach Ls lvs fun c => ?_
      rw [show unscopedBufs c (fun b => m ((c : Thread nD τ).loc b)) = StableHlo.held (c : Thread nD τ) (Pipeline.ucRefs τ sig) (mem0 m c)
        from Pipeline.unscopedBufs_held c (mem0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = mem6 m c b)
    (hfin := fun c s' => by
      iintro ⟨⟨Hh, -⟩, HSI⟩
      unfold StableHlo.held
      imodintro
      iapply (pointsTo_read_all (Pipeline.ucRefs τ sig) (fun b => (((c : Thread nD τ)).1, b)) (mem6 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (mem6_main_arg0 m c),
     (h c _ (mem_uc main_arg1 (by decide))).trans (mem6_main_arg1 m c),
     (h c _ (mem_uc main_arg2 (by decide))).trans (mem6_main_arg2 m c),
     (h c _ (mem_uc main_arg3 (by decide))).trans (mem6_main_arg3 m c),
     (h c _ (mem_uc main_arg4 (by decide))).trans (mem6_main_arg4 m c)⟩) (run_all m ρ)

end Cert.Kernel.Hand

end
-- ==== Proof.lean ====
/-
  The five claims.  The two kernel programs' frames come from running @main as a list of segments — host operations
  and the two pallas regions, each region's body run once per control case and its kept column buffers tracked point by
  point —; the reference's frame from its run read back.  The idealization rewrote nothing.  For the value claim both
  programs end with the same masked mean over the rows of a per-row vector, and for finite inputs the kernel's per-row
  vector — tile terms accumulated with log-sum-exps from an online softmax — is the reference's whole-row term.
-/
import proofs.«168479_j71159018160660_2_alg».proof.Proof.Algebraic
import proofs.«168479_j71159018160660_2_alg».proof.Proof.FrameKernel.Run
import proofs.«168479_j71159018160660_2_alg».proof.Proof.Gen.Kernel
import proofs.«168479_j71159018160660_2_alg».proof.Proof.Gen.KernelIdeal
import proofs.«168479_j71159018160660_2_alg».proof.Proof.Gen.ReferenceIdeal
import proofs.«168479_j71159018160660_2_alg».proof.Proof.Gen.Pre_finite_inputs
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.ValueP.run (F := Ideal) m ρ)
theorem preserves : Cert.preserves_Kernel_KernelIdeal := trivial

open Cert.KernelIdeal Cert.KernelIdeal.Gen Cert.KernelIdeal.Hand in
theorem algebraic : Cert.algebraic_KernelIdeal_ReferenceIdeal := by
  intro m ρ m' ρ' hpre hagree
  refine ⟨fun c => mem6 m c (Proc.devRef .tc main_v15), ?_, ?_⟩
  · exact (θ_run Cert.KernelIdeal.defs _ _).mono (fun r h c =>
      ⟨h c _ (mem_uc main_v15 (by decide)),
       (h c _ (mem_uc main_arg0 (by decide))).trans (mem6_main_arg0 m c),
       (h c _ (mem_uc main_arg1 (by decide))).trans (mem6_main_arg1 m c),
       (h c _ (mem_uc main_arg2 (by decide))).trans (mem6_main_arg2 m c),
       (h c _ (mem_uc main_arg3 (by decide))).trans (mem6_main_arg3 m c),
       (h c _ (mem_uc main_arg4 (by decide))).trans (mem6_main_arg4 m c)⟩) (run_all m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v37_eq, (hagree c).1, (hagree c).2.1, (hagree c).2.2.1, (hagree c).2.2.2.1, (hagree c).2.2.2.2]
    exact (Cert.HostSide.result_eq m c _ _ _ _ (loss_rows m c (hpre c))).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
